-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S5000x128 : Shape := ⟨2, ![5000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1927x64 : Shape := ⟨2, ![1927, 64]⟩
abbrev S98073x64 : Shape := ⟨2, ![98073, 64]⟩

abbrev nBuf : Space → Nat
  | .hbm => 152
  | .vmem => 34
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S100000x128, .f32⟩
  | 82 => ⟨S100000x64, .f32⟩
  | 83 => ⟨S100000, .i32⟩
  | 84 => ⟨S1700000, .i32⟩
  | 85 => ⟨S1700000, .i32⟩
  | 86 => ⟨S_, .f32⟩
  | 87 => ⟨S1700000, .f32⟩
  | 88 => ⟨S_, .f32⟩
  | 89 => ⟨S100000, .f32⟩
  | 90 => ⟨S1700000x1, .i32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S100000, .f32⟩
  | 98 => ⟨S100000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S1700000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x1, .f32⟩
  | _ => ⟨S100000x128, .f32⟩

abbrev hbmTy0_1 (i : Nat) : BufTy := match i % 128 with
  | 0 => ⟨S1700000x64, .f32⟩
  | 1 => ⟨S1700000x64, .f32⟩
  | 2 => ⟨S_, .f32⟩
  | 3 => ⟨S100000x64, .f32⟩
  | 4 => ⟨S1700000x1, .i32⟩
  | 5 => ⟨S100000x64, .f32⟩
  | 6 => ⟨S1x64, .f32⟩
  | 7 => ⟨S100000x64, .f32⟩
  | 8 => ⟨S100000x64, .f32⟩
  | 9 => ⟨S1x64, .f32⟩
  | 10 => ⟨S1x64, .f32⟩
  | 11 => ⟨S_, .f32⟩
  | 12 => ⟨S1x64, .f32⟩
  | 13 => ⟨S1x64, .f32⟩
  | 14 => ⟨S_, .f32⟩
  | 15 => ⟨S1x64, .f32⟩
  | 16 => ⟨S1x64, .f32⟩
  | 17 => ⟨S1x64, .f32⟩
  | 18 => ⟨S1x64, .f32⟩
  | 19 => ⟨S1x64, .f32⟩
  | 20 => ⟨S1x64, .f32⟩
  | 21 => ⟨S100000x64, .f32⟩
  | 22 => ⟨S1927x64, .f32⟩
  | 23 => ⟨S98073x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48_0 : Ref sig .tc := ⟨.hbm, 69, rfl⟩
abbrev main_v48_1 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_17 : Ref sig .tc := ⟨.hbm, 108, rfl⟩
abbrev main_v78 : Ref sig .tc := ⟨.hbm, 109, rfl⟩
abbrev main_v79 : Ref sig .tc := ⟨.hbm, 110, rfl⟩
abbrev main_c_18 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_19 : Ref sig .tc := ⟨.hbm, 118, rfl⟩
abbrev main_v86 : Ref sig .tc := ⟨.hbm, 119, rfl⟩
abbrev main_v87 : Ref sig .tc := ⟨.hbm, 120, rfl⟩
abbrev main_c_20 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102_0 : Ref sig .tc := ⟨.hbm, 137, rfl⟩
abbrev main_v102_1 : Ref sig .tc := ⟨.hbm, 138, rfl⟩
abbrev main_cst_22 : Ref sig .tc := ⟨.hbm, 139, rfl⟩
abbrev main_v103 : Ref sig .tc := ⟨.hbm, 140, rfl⟩
abbrev main_v104 : Ref sig .tc := ⟨.hbm, 141, rfl⟩
abbrev main_cst_23 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  bcast_S_S1x64 : S_.BroadcastsInDim S1x64 (![] : Fin 0 → Fin S1x64.rank)
  broadcasts_S1x64_S5000x64 : S1x64.Broadcasts S5000x64
  slices_S100000x64_S1927x64_0_0 : S100000x64.Slices ![0, 0] S1927x64
  slices_S100000x64_S98073x64_1927_0 : S100000x64.Slices ![1927, 0] S98073x64
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v101) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v108) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v109) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v110) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v111) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1927x64 : Shape := ⟨2, ![1927, 64]⟩
abbrev S98073x64 : Shape := ⟨2, ![98073, 64]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S128, .f32⟩
  | 80 => ⟨S_, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x64, .f32⟩
  | 103 => ⟨S100000, .i32⟩
  | 104 => ⟨S1700000, .i32⟩
  | 105 => ⟨S1700000, .i32⟩
  | 106 => ⟨S_, .f32⟩
  | 107 => ⟨S1700000, .f32⟩
  | 108 => ⟨S_, .f32⟩
  | 109 => ⟨S100000, .f32⟩
  | 110 => ⟨S1700000x1, .i32⟩
  | 111 => ⟨S100000, .f32⟩
  | 112 => ⟨S_, .f32⟩
  | 113 => ⟨S100000, .f32⟩
  | 114 => ⟨S100000, .i1⟩
  | 115 => ⟨S100000, .f32⟩
  | 116 => ⟨S_, .f32⟩
  | 117 => ⟨S100000, .f32⟩
  | 118 => ⟨S100000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000, .f32⟩
  | 9 => ⟨S1700000, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x64, .f32⟩
  | 19 => ⟨S1700000x1, .f32⟩
  | 20 => ⟨S1700000x64, .f32⟩
  | 21 => ⟨S1700000x64, .f32⟩
  | 22 => ⟨S_, .f32⟩
  | 23 => ⟨S100000x64, .f32⟩
  | 24 => ⟨S1700000x1, .i32⟩
  | 25 => ⟨S100000x64, .f32⟩
  | 26 => ⟨S1x64, .f32⟩
  | 27 => ⟨S100000x64, .f32⟩
  | 28 => ⟨S100000x64, .f32⟩
  | 29 => ⟨S_, .f32⟩
  | 30 => ⟨S64, .f32⟩
  | 31 => ⟨S_, .f32⟩
  | 32 => ⟨S64, .f32⟩
  | 33 => ⟨S64, .f32⟩
  | 34 => ⟨S1x64, .f32⟩
  | 35 => ⟨S100000x64, .f32⟩
  | 36 => ⟨S100000x64, .f32⟩
  | 37 => ⟨S100000x64, .f32⟩
  | 38 => ⟨S_, .f32⟩
  | 39 => ⟨S64, .f32⟩
  | 40 => ⟨S_, .f32⟩
  | 41 => ⟨S64, .f32⟩
  | 42 => ⟨S64, .f32⟩
  | 43 => ⟨S1x64, .f32⟩
  | 44 => ⟨S100000x64, .f32⟩
  | 45 => ⟨S100000x64, .f32⟩
  | 46 => ⟨S_, .f32⟩
  | 47 => ⟨S64, .f32⟩
  | 48 => ⟨S64, .f32⟩
  | 49 => ⟨S64, .f32⟩
  | 50 => ⟨S1x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S1927x64, .f32⟩
  | 60 => ⟨S98073x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call1_cst : Ref sig .tc := ⟨.hbm, 99, rfl⟩
abbrev main_call1_v0 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_c_18 : Ref sig .tc := ⟨.hbm, 119, rfl⟩
abbrev main_v87 : Ref sig .tc := ⟨.hbm, 120, rfl⟩
abbrev main_v88 : Ref sig .tc := ⟨.hbm, 121, rfl⟩
abbrev main_c_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_20 : Ref sig .tc := ⟨.hbm, 128, rfl⟩
abbrev main_v94 : Ref sig .tc := ⟨.hbm, 129, rfl⟩
abbrev main_v95 : Ref sig .tc := ⟨.hbm, 130, rfl⟩
abbrev main_c_21 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_22 : Ref sig .tc := ⟨.hbm, 138, rfl⟩
abbrev main_v102 : Ref sig .tc := ⟨.hbm, 139, rfl⟩
abbrev main_v103 : Ref sig .tc := ⟨.hbm, 140, rfl⟩
abbrev main_c_23 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_24 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_25 : Ref sig .tc := ⟨.hbm, 157, rfl⟩
abbrev main_v118 : Ref sig .tc := ⟨.hbm, 158, rfl⟩
abbrev main_cst_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_27 : Ref sig .tc := ⟨.hbm, 166, rfl⟩
abbrev main_v125 : Ref sig .tc := ⟨.hbm, 167, rfl⟩
abbrev main_cst_28 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_29 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  slices_S100000x64_S1927x64_0_0 : S100000x64.Slices ![0, 0] S1927x64
  slices_S100000x64_S98073x64_1927_0 : S100000x64.Slices ![1927, 0] S98073x64
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The kernel program's run, with its two results named.

  The program is sixteen segments: stretches of host operations and six kernel launches. After the last segment every
  unscoped buffer of a core holds what the segments' composition leaves there; reading that composition at the two
  result buffers names the results, and at the ten arguments it returns the launch contents.
-/
import proofs.«149487_j20229295964576_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the two result buffers at the contents the
    last boundary of the segments' composition gives them, and the arguments as launched. -/
theorem run_values : θ_run defs (onTc (τ := τ) (main (F := F))) ⟨m, fun _ => 0, ρ⟩ (fun r => ∀ c : Dev nD,
      r.2.mem ((c.tc : Thread nD τ).loc main_v112) = W16 m ρ c (Proc.devRef .tc main_v112)
      ∧ r.2.mem ((c.tc : Thread nD τ).loc main_v113) = W16 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v112 (by decide)), h c _ (mem_uc main_v113 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.GcnRun

end
-- ==== Proof.BNMath.lean ====
import Idealize.ShloMosaic.PureOps.Ideal
import Idealize.ShloMosaic.PureOps.Ideal.Laws

/-!
# Extended-real algebra for a batch normalization

Floats at the ideal instance are extended reals.  This module collects the facts about
finite ("real") extended reals that a batch normalization over `N = 100000` rows needs:
closure of the finite values under the arithmetic used, the values of the four constant
words, the identity "mean of squares minus square of mean = mean of squared deviations",
and the finiteness of the inverse square root of the variance plus a positive constant.

Distributivity and cancellation fail on the extended reals at the infinities, so every
identity is proved by naming real witnesses, pushing the coercion `ℝ → EReal` outwards and
finishing in `ℝ`.
-/

noncomputable section

namespace Cert.BNMath

open Idealize.ShloMosaic
open scoped BigOperators

/-! ### Real (finite) extended reals -/

/-- An extended real is *real* when it is the image of a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The maximum of two values is one of them. -/
theorem IsReal.max {x y : EReal} (hx : IsReal x) (hy : IsReal y) : IsReal (max x y) := by
  rcases max_choice x y with h | h
  · rw [h]; exact hx
  · rw [h]; exact hy

theorem IsReal.sum {ι : Type} (s : Finset ι) (f : ι → EReal) (h : ∀ i ∈ s, IsReal (f i)) :
    IsReal (∑ i ∈ s, f i) :=
  Finset.sum_induction f IsReal (fun _ _ ha hb => ha.add hb) IsReal.zero h

theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The constant words

A 32-bit word with sign `0`, biased exponent `E` (neither `0` nor `255`) and fraction `T`
denotes `(2^23 + T) · 2^(E - 127 - 23)`. -/

theorem zero_word : Ideal.ofBits .f32 0x00000000#32 = 0 := Ideal.ofBits_zero_f32

/-- `E = 127`, `T = 0`: `2^23 · 2^(-23) = 1`. -/
theorem one_word : Ideal.ofBits .f32 0x3F800000#32 = 1 := by
  simp [Ideal.ofBits, Ideal.ieee]
  rw [← EReal.coe_mul, ← EReal.coe_one, EReal.coe_eq_coe_iff]
  norm_num

/-- `E = 143`, `T = 4411392`: `12800000 · 2^(-7) = 100000`. -/
theorem n_word : Ideal.ofBits .f32 0x47C35000#32 = ((100000 : ℝ) : EReal) := by
  simp [Ideal.ofBits, Ideal.ieee]
  rw [← EReal.coe_mul, EReal.coe_eq_coe_iff]
  norm_num

/-- `E = 110`, `T = 2606508`: `10995116 · 2^(-40)`, a positive real. -/
theorem eps_word : ∃ e : ℝ, 0 < e ∧ Ideal.ofBits .f32 0x3727C5AC#32 = (e : EReal) := by
  refine ⟨10995116 * (2 ^ 40)⁻¹, by positivity, ?_⟩
  simp [Ideal.ofBits, Ideal.ieee]

/-! ### Division by the word of `100000.0` and the inverse square root -/

/-- Division by the word of `100000.0` is multiplication by the real `1 / 100000`. -/
theorem div_n_eq (x : EReal) :
    Ideal.div x (Ideal.ofBits .f32 0x47C35000#32) = x * ((1 / 100000 : ℝ) : EReal) := by
  rw [n_word, Ideal.div_coe (by norm_num)]

theorem div_n_coe (a : ℝ) :
    Ideal.div (a : EReal) (Ideal.ofBits .f32 0x47C35000#32)
      = ((a * (1 / 100000) : ℝ) : EReal) := by
  rw [div_n_eq, ← EReal.coe_mul]

theorem IsReal.div_n {x : EReal} (hx : IsReal x) :
    IsReal (Ideal.div x (Ideal.ofBits .f32 0x47C35000#32)) := by
  rw [div_n_eq]
  exact hx.mul (IsReal.coe _)

/-- At a positive real the inverse square root is the real `(√r)⁻¹`. -/
theorem IsReal.rsqrt_of_pos {r : ℝ} (h : 0 < r) : IsReal (Ideal.rsqrt (r : EReal)) := by
  rw [Ideal.rsqrt_coe, if_neg (not_lt.mpr h.le), if_neg h.ne']
  exact ⟨_, rfl⟩

theorem mean_real {N : ℕ} (h : Fin N → EReal) (hr : ∀ p, IsReal (h p)) :
    IsReal (Ideal.div (∑ p, h p) (Ideal.ofBits .f32 0x47C35000#32)) :=
  (IsReal.sum _ _ (fun p _ => hr p)).div_n

/-! ### The variance identity, in the reals -/

/-- Sum of squared deviations from any `m`, expanded:
    `∑ (g - m)² = ∑ g² - 2 m ∑ g + N m²`. -/
theorem real_sum_sq_dev {N : ℕ} (g : Fin N → ℝ) (m : ℝ) :
    (∑ p, (g p - m) * (g p - m))
      = (∑ p, g p * g p) - 2 * m * (∑ p, g p) + (N : ℝ) * (m * m) := by
  have e : ∀ p, (g p - m) * (g p - m) = g p * g p - 2 * m * g p + m * m := fun p => by ring
  simp only [e, Finset.sum_add_distrib, Finset.sum_sub_distrib, ← Finset.mul_sum,
    Finset.sum_const, Finset.card_univ, Fintype.card_fin, nsmul_eq_mul]
  ring

/-- Mean of squares minus square of mean is the mean of squared deviations (reals,
    `N = 100000`): with `S = ∑ g` and `m = S / N`, `∑ (g - m)² = ∑ g² - 2 m S + N m² = ∑ g² - S² / N`. -/
theorem real_var_eq {N : ℕ} (g : Fin N → ℝ) (hN : (N : ℝ) = 100000) :
    (∑ p, g p * g p) * (1 / 100000)
        - (∑ p, g p) * (1 / 100000) * ((∑ p, g p) * (1 / 100000))
      = (∑ p, (g p - (∑ p, g p) * (1 / 100000)) * (g p - (∑ p, g p) * (1 / 100000)))
          * (1 / 100000) := by
  rw [real_sum_sq_dev, hN]
  ring

/-! ### The means of real data as coercions of real numbers -/

theorem mean_coe {N : ℕ} (g : Fin N → ℝ) :
    Ideal.div (∑ p, (g p : EReal)) (Ideal.ofBits .f32 0x47C35000#32)
      = (((∑ p, g p) * (1 / 100000) : ℝ) : EReal) := by
  rw [← coe_sum, div_n_coe]

theorem mean_sq_coe {N : ℕ} (g : Fin N → ℝ) :
    Ideal.div (∑ p, (g p : EReal) * (g p : EReal)) (Ideal.ofBits .f32 0x47C35000#32)
      = (((∑ p, g p * g p) * (1 / 100000) : ℝ) : EReal) := by
  simp only [← EReal.coe_mul]
  rw [← coe_sum, div_n_coe]

theorem mean_dev_coe {N : ℕ} (g : Fin N → ℝ) (m : ℝ) :
    Ideal.div (∑ p, ((g p : EReal) - (m : EReal)) * ((g p : EReal) - (m : EReal)))
        (Ideal.ofBits .f32 0x47C35000#32)
      = (((∑ p, (g p - m) * (g p - m)) * (1 / 100000) : ℝ) : EReal) := by
  simp only [← EReal.coe_sub, ← EReal.coe_mul]
  rw [← coe_sum, div_n_coe]

/-! ### The two statements on real data -/

/-- mean of squares minus square of mean = mean of squared deviations, on real data
    (`N = 100000` entries, divisor the word of `100000.0`) -/
theorem var_eq {N : ℕ} (h : Fin N → EReal) (hr : ∀ p, IsReal (h p)) (hN : (N : ℝ) = 100000) :
    Ideal.div (∑ p, h p * h p) (Ideal.ofBits .f32 0x47C35000#32)
      - Ideal.div (∑ p, h p) (Ideal.ofBits .f32 0x47C35000#32) * Ideal.div (∑ p, h p) (Ideal.ofBits .f32 0x47C35000#32)
    = Ideal.div (∑ p, (h p - Ideal.div (∑ p, h p) (Ideal.ofBits .f32 0x47C35000#32)) * (h p - Ideal.div (∑ p, h p) (Ideal.ofBits .f32 0x47C35000#32)))
        (Ideal.ofBits .f32 0x47C35000#32) := by
  choose g hg using hr
  obtain rfl : h = fun p => (g p : EReal) := funext hg
  simp only []
  rw [mean_coe, mean_sq_coe, mean_dev_coe, ← EReal.coe_mul, ← EReal.coe_sub, real_var_eq g hN]

/-- the variance (second spelling) plus the word eps is a positive real, so its inverse
    square root is a real: a sum of squares is nonnegative, `1 / 100000` is positive, and the
    word is a positive real -/
theorem rsqrt_var_real {N : ℕ} (h : Fin N → EReal) (hr : ∀ p, IsReal (h p)) :
    IsReal (Ideal.rsqrt (Ideal.div (∑ p, (h p - Ideal.div (∑ p, h p) (Ideal.ofBits .f32 0x47C35000#32)) * (h p - Ideal.div (∑ p, h p) (Ideal.ofBits .f32 0x47C35000#32)))
        (Ideal.ofBits .f32 0x47C35000#32) + Ideal.ofBits .f32 0x3727C5AC#32)) := by
  choose g hg using hr
  obtain rfl : h = fun p => (g p : EReal) := funext hg
  obtain ⟨e, he, hw⟩ := eps_word
  simp only []
  rw [mean_coe, mean_dev_coe, hw, ← EReal.coe_add]
  apply IsReal.rsqrt_of_pos
  have h0 : 0 ≤ ∑ p, (g p - (∑ p, g p) * (1 / 100000)) * (g p - (∑ p, g p) * (1 / 100000)) :=
    Finset.sum_nonneg (fun p _ => mul_self_nonneg _)
  have h1 : 0 ≤ (∑ p, (g p - (∑ p, g p) * (1 / 100000)) * (g p - (∑ p, g p) * (1 / 100000)))
      * (1 / 100000) :=
    mul_nonneg h0 (by norm_num)
  linarith

end Cert.BNMath
-- ==== Proof.BNSpec.lean ====
/-
  Batch normalization of one column of a matrix, on the extended reals: the column's mean, its variance as the mean of
  the squared deviations, and an entry normalized by them, scaled and shifted. The divisor is the float 100000 (the
  number of rows) and the stabilizer the float nearest 1e-5, both as their 32-bit words.
-/
import Idealize.ShloMosaic.PureOps.Ideal

noncomputable section

namespace Cert.BNSpec

open Idealize.ShloMosaic
open scoped BigOperators

/-- The mean of a column. -/
def mean {N : ℕ} (h : Fin N → EReal) : EReal := Ideal.div (∑ p, h p) (Ideal.ofBits .f32 0x47C35000#32)

/-- The variance of a column: the mean of the squared deviations from the mean. -/
def var {N : ℕ} (h : Fin N → EReal) : EReal :=
  Ideal.div (∑ p, (h p - mean h) * (h p - mean h)) (Ideal.ofBits .f32 0x47C35000#32)

/-- An entry `x` of the column normalized, scaled by `g` and shifted by `b`. -/
def norm {N : ℕ} (h : Fin N → EReal) (g b x : EReal) : EReal :=
  ((x - mean h) * Ideal.rsqrt (var h + Ideal.ofBits .f32 0x3727C5AC#32)) * g + b

end Cert.BNSpec

end
-- ==== Proof.RefBN.lean ====
import proofs.«149487_j20229295964576_1_alg».proof.Proof.RefStages
import proofs.«149487_j20229295964576_1_alg».proof.Proof.BNMath
import proofs.«149487_j20229295964576_1_alg».proof.Proof.BNSpec
import Idealize.ShloMosaic.Lib.ValueIdx

/-!
# The reference's batch normalization, read column by column

The reference normalizes a `100000 × W` matrix `H` column by column: it sums each column,
divides by the float `100000` (the mean), subtracts the mean from every entry, squares, sums
and divides again (the variance), adds a small positive float, takes the inverse square root,
multiplies the deviations by it, then scales by `gamma` and shifts by `beta` (and, in the first
layer, takes the maximum with zero).  Each stage is read here at one row `p` and one column `q`
in terms of the column `p' ↦ H (p', q)`, ending in the column's `norm`.
-/

noncomputable section

namespace Cert.RefBN

open Idealize.ShloMosaic Idealize.ShloMosaic.ValueIdx Cert.ReferenceIdeal Cert.ReferenceIdeal.ReadP
open Cert.BNMath Cert.BNSpec
open scoped BigOperators

/-! ### The column operations on real data -/

/-- The normalization of a real entry by a real column, with real scale and shift, is real:
    the mean is real, and the variance plus the stabilizer is a positive real, so its inverse
    square root is real. -/
theorem norm_real {N : ℕ} (h : Fin N → EReal) (hr : ∀ p, IsReal (h p)) {g b x : EReal}
    (hg : IsReal g) (hb : IsReal b) (hx : IsReal x) : IsReal (norm h g b x) :=
  (((hx.sub (mean_real h hr)).mul (rsqrt_var_real h hr)).mul hg).add hb

/-- Mean of squares minus square of mean is the variance, on a real column of `100000` entries. -/
theorem var_eq' {N : ℕ} (h : Fin N → EReal) (hr : ∀ p, IsReal (h p)) (hN : (N : ℝ) = 100000) :
    Ideal.div (∑ p, h p * h p) (Ideal.ofBits .f32 0x47C35000#32) - mean h * mean h = var h :=
  var_eq h hr hN

/-! ### Layer 1 (width 128): stages 48 to 73, read column by column -/

/-- the column sums: the reduction starts from the zero word and adds the column's entries -/
theorem r48 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (q : Fin 128) :
    val_main_v48 (F := Ideal) x0 x1 x2 x3 (ix1 q) = ∑ k : Fin 100000, val_main_v47 (F := Ideal) x0 x1 x2 x3 (ix2 k q) := by
  rw [val_main_v48_apply, val_main_cst_9_apply, Ideal.ofBits_def, Ideal.ofBits_zero_f32, zero_add]
  refine Finset.sum_congr rfl fun k _ => ?_
  have e : idx_main_v48 (ix1 q) k = ix2 k q := funext fun a => Fin.ext (by match a with | ⟨0, _⟩ => rfl | ⟨1, _⟩ => rfl)
  rw [e]

/-- the column means -/
theorem r50 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (q : Fin 128) :
    val_main_v50 (F := Ideal) x0 x1 x2 x3 (ix1 q) = mean (fun p' : Fin 100000 => val_main_v47 (F := Ideal) x0 x1 x2 x3 (ix2 p' q)) := by
  rw [val_main_v50_apply, Ideal.hostDivf_def, r48, val_main_v49_apply, val_main_cst_10_apply, Ideal.ofBits_def]
  rfl

/-- the value broadcast to the rows, read at row `p` and column `q` -/
theorem r52 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (p : Fin 100000) (q : Fin 128) :
    val_main_v52 (F := Ideal) x0 x1 x2 x3 (ix2 p q) = mean (fun p' : Fin 100000 => val_main_v47 (F := Ideal) x0 x1 x2 x3 (ix2 p' q)) := by
  rw [val_main_v52_apply, val_main_v51_apply]
  have e : idx_main_v51 (idx_main_v52 (ix2 p q)) = ix1 q := funext fun a => Fin.ext (by match a with | ⟨0, _⟩ => rfl)
  rw [e, r50]

/-- the deviations from the mean -/
theorem r53 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (p : Fin 100000) (q : Fin 128) :
    val_main_v53 (F := Ideal) x0 x1 x2 x3 (ix2 p q) = (val_main_v47 (F := Ideal) x0 x1 x2 x3 (ix2 p q) - mean (fun p' : Fin 100000 => val_main_v47 (F := Ideal) x0 x1 x2 x3 (ix2 p' q))) := by
  rw [val_main_v53_apply, Ideal.subf_def, r52]

/-- the squared deviations -/
theorem r54 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (p : Fin 100000) (q : Fin 128) :
    val_main_v54 (F := Ideal) x0 x1 x2 x3 (ix2 p q) = (val_main_v47 (F := Ideal) x0 x1 x2 x3 (ix2 p q) - mean (fun p' : Fin 100000 => val_main_v47 (F := Ideal) x0 x1 x2 x3 (ix2 p' q))) * (val_main_v47 (F := Ideal) x0 x1 x2 x3 (ix2 p q) - mean (fun p' : Fin 100000 => val_main_v47 (F := Ideal) x0 x1 x2 x3 (ix2 p' q))) := by
  rw [val_main_v54_apply, Ideal.mulf_def, r53]

/-- the column sums of the squared deviations -/
theorem r55 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (q : Fin 128) :
    val_main_v55 (F := Ideal) x0 x1 x2 x3 (ix1 q) = ∑ k : Fin 100000, (val_main_v47 (F := Ideal) x0 x1 x2 x3 (ix2 k q) - mean (fun p' : Fin 100000 => val_main_v47 (F := Ideal) x0 x1 x2 x3 (ix2 p' q))) * (val_main_v47 (F := Ideal) x0 x1 x2 x3 (ix2 k q) - mean (fun p' : Fin 100000 => val_main_v47 (F := Ideal) x0 x1 x2 x3 (ix2 p' q))) := by
  rw [val_main_v55_apply, val_main_cst_11_apply, Ideal.ofBits_def, Ideal.ofBits_zero_f32, zero_add]
  refine Finset.sum_congr rfl fun k _ => ?_
  have e : idx_main_v55 (ix1 q) k = ix2 k q := funext fun a => Fin.ext (by match a with | ⟨0, _⟩ => rfl | ⟨1, _⟩ => rfl)
  rw [e, r54]

/-- the column variances -/
theorem r57 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (q : Fin 128) :
    val_main_v57 (F := Ideal) x0 x1 x2 x3 (ix1 q) = var (fun p' : Fin 100000 => val_main_v47 (F := Ideal) x0 x1 x2 x3 (ix2 p' q)) := by
  rw [val_main_v57_apply, Ideal.hostDivf_def, r55, val_main_v56_apply, val_main_cst_12_apply, Ideal.ofBits_def]
  rfl

/-- the value broadcast to the rows, read at row `p` and column `q` -/
theorem r59 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (p : Fin 100000) (q : Fin 128) :
    val_main_v59 (F := Ideal) x0 x1 x2 x3 (ix2 p q) = mean (fun p' : Fin 100000 => val_main_v47 (F := Ideal) x0 x1 x2 x3 (ix2 p' q)) := by
  rw [val_main_v59_apply, val_main_v58_apply]
  have e : idx_main_v58 (idx_main_v59 (ix2 p q)) = ix1 q := funext fun a => Fin.ext (by match a with | ⟨0, _⟩ => rfl)
  rw [e, r50]

/-- the deviations from the mean, second copy -/
theorem r60 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (p : Fin 100000) (q : Fin 128) :
    val_main_v60 (F := Ideal) x0 x1 x2 x3 (ix2 p q) = (val_main_v47 (F := Ideal) x0 x1 x2 x3 (ix2 p q) - mean (fun p' : Fin 100000 => val_main_v47 (F := Ideal) x0 x1 x2 x3 (ix2 p' q))) := by
  rw [val_main_v60_apply, Ideal.subf_def, r59]

/-- the variance plus the stabilizer -/
theorem r62 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (q : Fin 128) :
    val_main_v62 (F := Ideal) x0 x1 x2 x3 (ix1 q) = var (fun p' : Fin 100000 => val_main_v47 (F := Ideal) x0 x1 x2 x3 (ix2 p' q)) + Ideal.ofBits .f32 0x3727C5AC#32 := by
  rw [val_main_v62_apply, Ideal.addf_def, r57, val_main_v61_apply, val_main_cst_13_apply, Ideal.ofBits_def]

/-- its inverse square root -/
theorem r63 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (q : Fin 128) :
    val_main_v63 (F := Ideal) x0 x1 x2 x3 (ix1 q) = Ideal.rsqrt (var (fun p' : Fin 100000 => val_main_v47 (F := Ideal) x0 x1 x2 x3 (ix2 p' q)) + Ideal.ofBits .f32 0x3727C5AC#32) := by
  rw [val_main_v63_apply, Ideal.hostUnary_rsqrt_def, r62]

/-- the value broadcast to the rows, read at row `p` and column `q` -/
theorem r65 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (p : Fin 100000) (q : Fin 128) :
    val_main_v65 (F := Ideal) x0 x1 x2 x3 (ix2 p q) = Ideal.rsqrt (var (fun p' : Fin 100000 => val_main_v47 (F := Ideal) x0 x1 x2 x3 (ix2 p' q)) + Ideal.ofBits .f32 0x3727C5AC#32) := by
  rw [val_main_v65_apply, val_main_v64_apply]
  have e : idx_main_v64 (idx_main_v65 (ix2 p q)) = ix1 q := funext fun a => Fin.ext (by match a with | ⟨0, _⟩ => rfl)
  rw [e, r63]

/-- the normalized entry -/
theorem r66 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (p : Fin 100000) (q : Fin 128) :
    val_main_v66 (F := Ideal) x0 x1 x2 x3 (ix2 p q) = (val_main_v47 (F := Ideal) x0 x1 x2 x3 (ix2 p q) - mean (fun p' : Fin 100000 => val_main_v47 (F := Ideal) x0 x1 x2 x3 (ix2 p' q))) * Ideal.rsqrt (var (fun p' : Fin 100000 => val_main_v47 (F := Ideal) x0 x1 x2 x3 (ix2 p' q)) + Ideal.ofBits .f32 0x3727C5AC#32) := by
  rw [val_main_v66_apply, Ideal.mulf_def, r60, r65]

/-- the value broadcast to the rows, read at row `p` and column `q` -/
theorem r68 (x4 : (⟨S128, .f32⟩ : BufTy).Contents (Elt Ideal)) (p : Fin 100000) (q : Fin 128) :
    val_main_v68 (F := Ideal) x4 (ix2 p q) = x4 (ix1 q) := by
  rw [val_main_v68_apply, val_main_v67_apply]
  have e : idx_main_v67 (idx_main_v68 (ix2 p q)) = ix1 q := funext fun a => Fin.ext (by match a with | ⟨0, _⟩ => rfl)
  rw [e]

/-- the scaled entry -/
theorem r69 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (p : Fin 100000) (q : Fin 128) :
    val_main_v69 (F := Ideal) x0 x1 x2 x3 x4 (ix2 p q) = (val_main_v47 (F := Ideal) x0 x1 x2 x3 (ix2 p q) - mean (fun p' : Fin 100000 => val_main_v47 (F := Ideal) x0 x1 x2 x3 (ix2 p' q))) * Ideal.rsqrt (var (fun p' : Fin 100000 => val_main_v47 (F := Ideal) x0 x1 x2 x3 (ix2 p' q)) + Ideal.ofBits .f32 0x3727C5AC#32) * x4 (ix1 q) := by
  rw [val_main_v69_apply, Ideal.mulf_def, r66, r68]

/-- the value broadcast to the rows, read at row `p` and column `q` -/
theorem r71 (x5 : (⟨S128, .f32⟩ : BufTy).Contents (Elt Ideal)) (p : Fin 100000) (q : Fin 128) :
    val_main_v71 (F := Ideal) x5 (ix2 p q) = x5 (ix1 q) := by
  rw [val_main_v71_apply, val_main_v70_apply]
  have e : idx_main_v70 (idx_main_v71 (ix2 p q)) = ix1 q := funext fun a => Fin.ext (by match a with | ⟨0, _⟩ => rfl)
  rw [e]

/-- the scaled and shifted entry is the column's normalization of the entry -/
theorem ref_v72 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (p : Fin 100000) (q : Fin 128) :
    val_main_v72 (F := Ideal) x0 x1 x2 x3 x4 x5 (ix2 p q)
      = norm (fun p' : Fin 100000 => val_main_v47 (F := Ideal) x0 x1 x2 x3 (ix2 p' q)) (x4 (ix1 q)) (x5 (ix1 q)) (val_main_v47 (F := Ideal) x0 x1 x2 x3 (ix2 p q)) := by
  rw [val_main_v72_apply, Ideal.addf_def, r69, r71]
  rfl

/-- the rectified entry: the maximum with the zero word broadcast to the whole matrix -/
theorem ref_v73 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (p : Fin 100000) (q : Fin 128) :
    val_main_v73 (F := Ideal) x0 x1 x2 x3 x4 x5 (ix2 p q)
      = max (norm (fun p' : Fin 100000 => val_main_v47 (F := Ideal) x0 x1 x2 x3 (ix2 p' q)) (x4 (ix1 q)) (x5 (ix1 q)) (val_main_v47 (F := Ideal) x0 x1 x2 x3 (ix2 p q))) (Ideal.ofBits .f32 0x00000000#32) := by
  rw [val_main_v73_apply, Ideal.maximumf_def, ref_v72, val_main_call1_v0_apply, val_main_call1_cst_apply,
    Ideal.ofBits_def]

/-- on real data the rectified first layer is real everywhere -/
theorem real_v73 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal))
    (h47 : ∀ i, IsReal (val_main_v47 (F := Ideal) x0 x1 x2 x3 i)) (h4 : ∀ i, IsReal (x4 i)) (h5 : ∀ i, IsReal (x5 i)) :
    ∀ i, IsReal (val_main_v73 (F := Ideal) x0 x1 x2 x3 x4 x5 i) := by
  intro i
  obtain ⟨p, q, rfl⟩ : ∃ (p : Fin 100000) (q : Fin 128), i = ix2 p q := ⟨i 0, i 1, eq_ix2 i⟩
  rw [ref_v73, zero_word]
  refine IsReal.max ?_ IsReal.zero
  exact norm_real _ (fun p' => h47 _) (h4 _) (h5 _) (h47 _)

/-! ### Layer 2 (width 64): stages 118 to 142, read column by column -/

/-- the column sums: the reduction starts from the zero word and adds the column's entries -/
theorem r118 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (q : Fin 64) :
    val_main_v118 (F := Ideal) x0 x1 x2 x3 x4 x5 x6 x7 (ix1 q) = ∑ k : Fin 100000, val_main_v117 (F := Ideal) x0 x1 x2 x3 x4 x5 x6 x7 (ix2 k q) := by
  rw [val_main_v118_apply, val_main_cst_25_apply, Ideal.ofBits_def, Ideal.ofBits_zero_f32, zero_add]
  refine Finset.sum_congr rfl fun k _ => ?_
  have e : idx_main_v118 (ix1 q) k = ix2 k q := funext fun a => Fin.ext (by match a with | ⟨0, _⟩ => rfl | ⟨1, _⟩ => rfl)
  rw [e]

/-- the column means -/
theorem r120 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (q : Fin 64) :
    val_main_v120 (F := Ideal) x0 x1 x2 x3 x4 x5 x6 x7 (ix1 q) = mean (fun p' : Fin 100000 => val_main_v117 (F := Ideal) x0 x1 x2 x3 x4 x5 x6 x7 (ix2 p' q)) := by
  rw [val_main_v120_apply, Ideal.hostDivf_def, r118, val_main_v119_apply, val_main_cst_26_apply, Ideal.ofBits_def]
  rfl

/-- the value broadcast to the rows, read at row `p` and column `q` -/
theorem r122 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (p : Fin 100000) (q : Fin 64) :
    val_main_v122 (F := Ideal) x0 x1 x2 x3 x4 x5 x6 x7 (ix2 p q) = mean (fun p' : Fin 100000 => val_main_v117 (F := Ideal) x0 x1 x2 x3 x4 x5 x6 x7 (ix2 p' q)) := by
  rw [val_main_v122_apply, val_main_v121_apply]
  have e : idx_main_v121 (idx_main_v122 (ix2 p q)) = ix1 q := funext fun a => Fin.ext (by match a with | ⟨0, _⟩ => rfl)
  rw [e, r120]

/-- the deviations from the mean -/
theorem r123 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (p : Fin 100000) (q : Fin 64) :
    val_main_v123 (F := Ideal) x0 x1 x2 x3 x4 x5 x6 x7 (ix2 p q) = (val_main_v117 (F := Ideal) x0 x1 x2 x3 x4 x5 x6 x7 (ix2 p q) - mean (fun p' : Fin 100000 => val_main_v117 (F := Ideal) x0 x1 x2 x3 x4 x5 x6 x7 (ix2 p' q))) := by
  rw [val_main_v123_apply, Ideal.subf_def, r122]

/-- the squared deviations -/
theorem r124 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (p : Fin 100000) (q : Fin 64) :
    val_main_v124 (F := Ideal) x0 x1 x2 x3 x4 x5 x6 x7 (ix2 p q) = (val_main_v117 (F := Ideal) x0 x1 x2 x3 x4 x5 x6 x7 (ix2 p q) - mean (fun p' : Fin 100000 => val_main_v117 (F := Ideal) x0 x1 x2 x3 x4 x5 x6 x7 (ix2 p' q))) * (val_main_v117 (F := Ideal) x0 x1 x2 x3 x4 x5 x6 x7 (ix2 p q) - mean (fun p' : Fin 100000 => val_main_v117 (F := Ideal) x0 x1 x2 x3 x4 x5 x6 x7 (ix2 p' q))) := by
  rw [val_main_v124_apply, Ideal.mulf_def, r123]

/-- the column sums of the squared deviations -/
theorem r125 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (q : Fin 64) :
    val_main_v125 (F := Ideal) x0 x1 x2 x3 x4 x5 x6 x7 (ix1 q) = ∑ k : Fin 100000, (val_main_v117 (F := Ideal) x0 x1 x2 x3 x4 x5 x6 x7 (ix2 k q) - mean (fun p' : Fin 100000 => val_main_v117 (F := Ideal) x0 x1 x2 x3 x4 x5 x6 x7 (ix2 p' q))) * (val_main_v117 (F := Ideal) x0 x1 x2 x3 x4 x5 x6 x7 (ix2 k q) - mean (fun p' : Fin 100000 => val_main_v117 (F := Ideal) x0 x1 x2 x3 x4 x5 x6 x7 (ix2 p' q))) := by
  rw [val_main_v125_apply, val_main_cst_27_apply, Ideal.ofBits_def, Ideal.ofBits_zero_f32, zero_add]
  refine Finset.sum_congr rfl fun k _ => ?_
  have e : idx_main_v125 (ix1 q) k = ix2 k q := funext fun a => Fin.ext (by match a with | ⟨0, _⟩ => rfl | ⟨1, _⟩ => rfl)
  rw [e, r124]

/-- the column variances -/
theorem r127 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (q : Fin 64) :
    val_main_v127 (F := Ideal) x0 x1 x2 x3 x4 x5 x6 x7 (ix1 q) = var (fun p' : Fin 100000 => val_main_v117 (F := Ideal) x0 x1 x2 x3 x4 x5 x6 x7 (ix2 p' q)) := by
  rw [val_main_v127_apply, Ideal.hostDivf_def, r125, val_main_v126_apply, val_main_cst_28_apply, Ideal.ofBits_def]
  rfl

/-- the value broadcast to the rows, read at row `p` and column `q` -/
theorem r129 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (p : Fin 100000) (q : Fin 64) :
    val_main_v129 (F := Ideal) x0 x1 x2 x3 x4 x5 x6 x7 (ix2 p q) = mean (fun p' : Fin 100000 => val_main_v117 (F := Ideal) x0 x1 x2 x3 x4 x5 x6 x7 (ix2 p' q)) := by
  rw [val_main_v129_apply, val_main_v128_apply]
  have e : idx_main_v128 (idx_main_v129 (ix2 p q)) = ix1 q := funext fun a => Fin.ext (by match a with | ⟨0, _⟩ => rfl)
  rw [e, r120]

/-- the deviations from the mean, second copy -/
theorem r130 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (p : Fin 100000) (q : Fin 64) :
    val_main_v130 (F := Ideal) x0 x1 x2 x3 x4 x5 x6 x7 (ix2 p q) = (val_main_v117 (F := Ideal) x0 x1 x2 x3 x4 x5 x6 x7 (ix2 p q) - mean (fun p' : Fin 100000 => val_main_v117 (F := Ideal) x0 x1 x2 x3 x4 x5 x6 x7 (ix2 p' q))) := by
  rw [val_main_v130_apply, Ideal.subf_def, r129]

/-- the variance plus the stabilizer -/
theorem r132 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (q : Fin 64) :
    val_main_v132 (F := Ideal) x0 x1 x2 x3 x4 x5 x6 x7 (ix1 q) = var (fun p' : Fin 100000 => val_main_v117 (F := Ideal) x0 x1 x2 x3 x4 x5 x6 x7 (ix2 p' q)) + Ideal.ofBits .f32 0x3727C5AC#32 := by
  rw [val_main_v132_apply, Ideal.addf_def, r127, val_main_v131_apply, val_main_cst_29_apply, Ideal.ofBits_def]

/-- its inverse square root -/
theorem r133 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (q : Fin 64) :
    val_main_v133 (F := Ideal) x0 x1 x2 x3 x4 x5 x6 x7 (ix1 q) = Ideal.rsqrt (var (fun p' : Fin 100000 => val_main_v117 (F := Ideal) x0 x1 x2 x3 x4 x5 x6 x7 (ix2 p' q)) + Ideal.ofBits .f32 0x3727C5AC#32) := by
  rw [val_main_v133_apply, Ideal.hostUnary_rsqrt_def, r132]

/-- the value broadcast to the rows, read at row `p` and column `q` -/
theorem r135 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (p : Fin 100000) (q : Fin 64) :
    val_main_v135 (F := Ideal) x0 x1 x2 x3 x4 x5 x6 x7 (ix2 p q) = Ideal.rsqrt (var (fun p' : Fin 100000 => val_main_v117 (F := Ideal) x0 x1 x2 x3 x4 x5 x6 x7 (ix2 p' q)) + Ideal.ofBits .f32 0x3727C5AC#32) := by
  rw [val_main_v135_apply, val_main_v134_apply]
  have e : idx_main_v134 (idx_main_v135 (ix2 p q)) = ix1 q := funext fun a => Fin.ext (by match a with | ⟨0, _⟩ => rfl)
  rw [e, r133]

/-- the normalized entry -/
theorem r136 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (p : Fin 100000) (q : Fin 64) :
    val_main_v136 (F := Ideal) x0 x1 x2 x3 x4 x5 x6 x7 (ix2 p q) = (val_main_v117 (F := Ideal) x0 x1 x2 x3 x4 x5 x6 x7 (ix2 p q) - mean (fun p' : Fin 100000 => val_main_v117 (F := Ideal) x0 x1 x2 x3 x4 x5 x6 x7 (ix2 p' q))) * Ideal.rsqrt (var (fun p' : Fin 100000 => val_main_v117 (F := Ideal) x0 x1 x2 x3 x4 x5 x6 x7 (ix2 p' q)) + Ideal.ofBits .f32 0x3727C5AC#32) := by
  rw [val_main_v136_apply, Ideal.mulf_def, r130, r135]

/-- the value broadcast to the rows, read at row `p` and column `q` -/
theorem r138 (x8 : (⟨S64, .f32⟩ : BufTy).Contents (Elt Ideal)) (p : Fin 100000) (q : Fin 64) :
    val_main_v138 (F := Ideal) x8 (ix2 p q) = x8 (ix1 q) := by
  rw [val_main_v138_apply, val_main_v137_apply]
  have e : idx_main_v137 (idx_main_v138 (ix2 p q)) = ix1 q := funext fun a => Fin.ext (by match a with | ⟨0, _⟩ => rfl)
  rw [e]

/-- the scaled entry -/
theorem r139 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64, .f32⟩ : BufTy).Contents (Elt Ideal)) (p : Fin 100000) (q : Fin 64) :
    val_main_v139 (F := Ideal) x0 x1 x2 x3 x4 x5 x6 x7 x8 (ix2 p q) = (val_main_v117 (F := Ideal) x0 x1 x2 x3 x4 x5 x6 x7 (ix2 p q) - mean (fun p' : Fin 100000 => val_main_v117 (F := Ideal) x0 x1 x2 x3 x4 x5 x6 x7 (ix2 p' q))) * Ideal.rsqrt (var (fun p' : Fin 100000 => val_main_v117 (F := Ideal) x0 x1 x2 x3 x4 x5 x6 x7 (ix2 p' q)) + Ideal.ofBits .f32 0x3727C5AC#32) * x8 (ix1 q) := by
  rw [val_main_v139_apply, Ideal.mulf_def, r136, r138]

/-- the value broadcast to the rows, read at row `p` and column `q` -/
theorem r141 (x9 : (⟨S64, .f32⟩ : BufTy).Contents (Elt Ideal)) (p : Fin 100000) (q : Fin 64) :
    val_main_v141 (F := Ideal) x9 (ix2 p q) = x9 (ix1 q) := by
  rw [val_main_v141_apply, val_main_v140_apply]
  have e : idx_main_v140 (idx_main_v141 (ix2 p q)) = ix1 q := funext fun a => Fin.ext (by match a with | ⟨0, _⟩ => rfl)
  rw [e]

/-- the scaled and shifted entry is the column's normalization of the entry -/
theorem ref_v142 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (p : Fin 100000) (q : Fin 64) :
    val_main_v142 (F := Ideal) x0 x1 x2 x3 x4 x5 x6 x7 x8 x9 (ix2 p q)
      = norm (fun p' : Fin 100000 => val_main_v117 (F := Ideal) x0 x1 x2 x3 x4 x5 x6 x7 (ix2 p' q)) (x8 (ix1 q)) (x9 (ix1 q)) (val_main_v117 (F := Ideal) x0 x1 x2 x3 x4 x5 x6 x7 (ix2 p q)) := by
  rw [val_main_v142_apply, Ideal.addf_def, r139, r141]
  rfl

/-- on real data the second layer's normalization is real everywhere -/
theorem real_v142 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal))
    (h117 : ∀ i, IsReal (val_main_v117 (F := Ideal) x0 x1 x2 x3 x4 x5 x6 x7 i)) (h8 : ∀ i, IsReal (x8 i)) (h9 : ∀ i, IsReal (x9 i)) :
    ∀ i, IsReal (val_main_v142 (F := Ideal) x0 x1 x2 x3 x4 x5 x6 x7 x8 x9 i) := by
  intro i
  obtain ⟨p, q, rfl⟩ : ∃ (p : Fin 100000) (q : Fin 64), i = ix2 p q := ⟨i 0, i 1, eq_ix2 i⟩
  rw [ref_v142]
  exact norm_real _ (fun p' => h117 _) (h8 _) (h9 _) (h117 _)

end Cert.RefBN
-- ==== Proof.LibDegreeWeight.lean ====
/-
  The node weights of a graph convolution: the inverse square root of a degree, and zero where the degree is zero.

  A degree is a count: zero plus a sum of ones over the edges that land on the node. On the extended reals the count is
  a natural number, so its inverse square root is a real number that is not negative, and the guarded form
  `deg > 0 ? rsqrt deg : 0` is always such a number. That is all the algebra of the convolution needs of a weight:
  multiplication by it distributes over sums of arbitrary extended reals.
-/
import Idealize.ShloMosaic.PureOps.Ideal.Laws
import Idealize.ShloMosaic.Lib.IdealHost

noncomputable section

namespace Cert.LibDegreeWeight

open Idealize.ShloMosaic Idealize.ShloMosaic.ValueIdx

/-- A sum of ones over a finite set is the set's size. -/
theorem sum_ones {ι : Type} (s : Finset ι) : (∑ _j ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The guarded inverse square root of a count is not negative and not infinite. -/
theorem guarded_rsqrt_count (n : ℕ) :
    0 ≤ Scalar.select (Ideal.cmp .ogt ((n : ℝ) : EReal) 0) (Ideal.rsqrt ((n : ℝ) : EReal)) (0 : EReal)
    ∧ Scalar.select (Ideal.cmp .ogt ((n : ℝ) : EReal) 0) (Ideal.rsqrt ((n : ℝ) : EReal)) (0 : EReal) ≠ ⊤ := by
  rcases Nat.eq_zero_or_pos n with h | h
  · subst h
    have : Ideal.cmp .ogt (((0 : ℕ) : ℝ) : EReal) 0 = 0#1 := by simp [Ideal.cmp]
    rw [this, select_zero]
    exact ⟨le_refl _, EReal.zero_ne_top⟩
  · have hpos : (0 : ℝ) < (n : ℝ) := by exact_mod_cast h
    have : Ideal.cmp .ogt ((n : ℝ) : EReal) 0 = 1#1 := by
      have : (0 : EReal) < ((n : ℝ) : EReal) := by exact_mod_cast hpos
      simp [Ideal.cmp, h]
    rw [this, select_one]
    have hr : Ideal.rsqrt ((n : ℝ) : EReal) = (((Real.sqrt (n : ℝ))⁻¹ : ℝ) : EReal) := by
      show (if (n : ℝ) < 0 then ⊥ else if (n : ℝ) = 0 then ⊤ else (((Real.sqrt (n : ℝ))⁻¹ : ℝ) : EReal)) = _
      rw [if_neg (not_lt.mpr hpos.le), if_neg hpos.ne']
    rw [hr]
    exact ⟨by exact_mod_cast inv_nonneg.mpr (Real.sqrt_nonneg _), EReal.coe_ne_top _⟩

/-- The same for a degree as the programs compute it: the 32-bit float zero plus a sum of 32-bit float ones over a
    finite set of edges, compared with the float zero, the alternative the float zero. -/
theorem guarded_rsqrt_degree {ι : Type} (s : Finset ι) (deg z : EReal) (u : ι → EReal) (hd : deg = z + ∑ j ∈ s, u j)
    (hz : z = Ideal.ofBits .f32 0x00000000#32) (hu : ∀ j, u j = Ideal.ofBits .f32 0x3F800000#32) :
    0 ≤ Scalar.select (Ideal.cmp .ogt deg (Ideal.ofBits .f32 0x00000000#32)) (Ideal.rsqrt deg) (Ideal.ofBits .f32 0x00000000#32)
    ∧ Scalar.select (Ideal.cmp .ogt deg (Ideal.ofBits .f32 0x00000000#32)) (Ideal.rsqrt deg) (Ideal.ofBits .f32 0x00000000#32) ≠ ⊤ := by
  have hd' : deg = ((s.card : ℝ) : EReal) := by
    rw [hd, hz, Finset.sum_congr rfl (fun j _ => hu j), Ideal.ofBits_zero_f32, Ideal.ofBits_one_f32, zero_add, sum_ones]
  rw [hd', Ideal.ofBits_zero_f32]
  exact guarded_rsqrt_count s.card

/-- A scatter that adds updates onto an array reads, at any index, the array's entry plus the sum of the updates that
    land there (a finite set of them). -/
theorem scatterAdd_apply {s si u : Shape} {w : ℕ} (d : ScatterDims s si u) (z : s.Idx → EReal) (idx : IVec si w)
    (upd : u.Idx → EReal) (i : s.Idx) :
    ∃ t : Finset u.Idx, Host.scatterAdd (F := Ideal) (φ := .f32) d z idx upd i = z i + ∑ j ∈ t, upd j :=
  ⟨_, rfl⟩

/-- The guarded inverse square root of an array, read at an index. -/
theorem guarded_apply {s : Shape} (deg z0 z1 : s.Idx → EReal) (i : s.Idx) :
    select (cmpf (F := Ideal) (φ := .f32) .ogt deg z0) (Host.rsqrt (F := Ideal) (φ := .f32) deg) z1 i
      = Scalar.select (Ideal.cmp .ogt (deg i) (z0 i)) (Ideal.rsqrt (deg i)) (z1 i) := rfl

end Cert.LibDegreeWeight

end
-- ==== Proof.LibRows.lean ====
/-
  Row gathers and row scatters of the host, read at coordinates.

  `x[idx]` of a matrix `x : [N, C]` at a column of row numbers `idx : [R, 1]` is the matrix `[R, C]` whose row `r` is
  row `idx r` of `x`, the row number read as a signed integer and clamped into `[0, N − 1]`; the same for a flat
  array `x : [N]`, whose result is the array `[R]` of the named entries. A scatter of the rows of `u : [R, C]` into a
  matrix `[N, C]` at the row numbers `idx : [R, 1]` sends entry `(r, c)` of `u` to `(idx r, c)`: the row number is read
  signed and NOT clamped (an update whose row is outside the matrix is dropped), the column is kept.
-/
import Idealize.ShloMosaic.PureOps.Ideal
import Idealize.ShloMosaic.Lib.ValueIdx

noncomputable section

namespace Cert.LibRows

open Idealize.ShloMosaic Idealize.ShloMosaic.ValueIdx

variable {α : Type}

/-! ## Rows of a matrix -/

/-- The dimension numbers of a gather of whole rows: operand `[N, C]`, start indices `[R, 1]` (one row number each),
    result `[R, C]`; the slice is one row, its row axis collapsed, its column axis the result's. The conditions `wf`
    are decided on a program's literal shapes. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (rowsDims N R C wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowsDims N R C wf).start j idx 0 + (rowsDims N R C wf).batchCoord j 0 + (rowsDims N R C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx j ⟨List.idxOf (0 : Fin 2) (rowsDims N R C wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowsDims N R C wf).start j idx 1 + (rowsDims N R C wf).batchCoord j 1 + (rowsDims N R C wf).offCoord j 1 = _
    rw [GatherDims.batchCoord_eq_zero _ _ _ List.not_mem_nil]
    unfold GatherDims.start
    rw [dif_neg (show (1 : Fin 2) ∉ (rowsDims N R C wf).startIndexMap from
      (show (1 : Fin 2) ∉ ([0] : List (Fin 2)) from by decide))]
    simp only [Nat.add_zero, Nat.zero_add]
    unfold GatherDims.offCoord
    rw [dif_pos ((GatherDims.mem_sKept (rowsDims N R C wf) 1).mpr
      ⟨(show (1 : Fin 2) ∉ ([0] : List (Fin 2)) from by decide), List.not_mem_nil⟩)]
    rfl

/-! ## Entries of a flat array -/

/-- The dimension numbers of a gather of single entries: operand `[N]`, start indices `[R, 1]`, result `[R]`; the slice is
    one entry, its axis collapsed. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (entriesDims N R wf) x idx j = x (ix1 ⟨min (idx (ix2 (j 0) 0)).toInt.toNat (N - 1), by omega⟩) := by
  unfold Host.gather
  congr 1
  funext a
  obtain rfl : a = 0 := Subsingleton.elim _ _
  refine Fin.ext ?_
  show (entriesDims N R wf).start j idx 0 + (entriesDims N R wf).batchCoord j 0 + (entriesDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx j ⟨List.idxOf (0 : Fin 1) (entriesDims N R wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-! ## Rows scattered into a matrix -/

/-- The dimension numbers of a scatter of whole rows: operand `[N, C]`, scatter indices `[R, 1]` (one row number each),
    updates `[R, C]`; an update row is a window along the operand's columns, placed at the row its index names. -/
abbrev rowsScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window's start along the rows is the row number `idx[r, 0]`, read signed. -/
theorem rowsScatter_start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 0 = (idx (ix2 (j 0) 0)).toInt := by
  unfold ScatterDims.start
  rw [dif_pos (show (0 : Fin 2) ∈ (rowsScatter N R C wf).scatterDimsToOperandDims from List.mem_singleton.mpr rfl)]
  have hsi : (rowsScatter N R C wf).siIdx j ⟨List.idxOf (0 : Fin 2) (rowsScatter N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window's start along the columns is `0`: the scatter indices name rows only. -/
theorem rowsScatter_start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 1 = 0 := by
  unfold ScatterDims.start
  rw [dif_neg (show (1 : Fin 2) ∉ (rowsScatter N R C wf).scatterDimsToOperandDims from
    (show (1 : Fin 2) ∉ ([0] : List (Fin 2)) from by decide))]

/-- The window coordinate along the rows is `0`: the row axis is inserted, not a window axis. -/
theorem rowsScatter_window_row {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 0 = 0 := by
  unfold ScatterDims.window
  rw [dif_neg (show (0 : Fin 2) ∉ (rowsScatter N R C wf).sKept from
    (show (0 : Fin 2) ∉ (List.finRange 2).filter (· ∉ ([0] : List (Fin 2))) from by decide))]

/-- The window coordinate along the columns is the update's column. -/
theorem rowsScatter_window_col {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 1 = (j 1).val := by
  unfold ScatterDims.window
  rw [dif_pos (show (1 : Fin 2) ∈ (rowsScatter N R C wf).sKept from
    (show (1 : Fin 2) ∈ (List.finRange 2).filter (· ∉ ([0] : List (Fin 2))) from by decide))]
  rfl

/-- WHERE A SCATTERED ROW LANDS: if update entry `(r, c)` lands at operand index `i`, then `i`'s row is the row number
    `idx[r, 0]` read as a signed integer (not clamped: an update outside the operand lands nowhere) and `i`'s column is
    `c`. -/
theorem scatter_rows_result {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowsScatter N R C wf).resultIdx? j idx = some i) :
    (idx (ix2 (j 0) 0)).toInt = ((i 0).val : Int) ∧ (i 1).val = (j 1).val := by
  unfold ScatterDims.resultIdx? at h
  split at h
  · rename_i hin
    have hi := Option.some.inj h
    have h0 : ((rowsScatter N R C wf).start j idx 0 + ((rowsScatter N R C wf).window j 0 : Int)).toNat = (i 0).val :=
      congrArg (fun f : (⟨2, ![N, C]⟩ : Shape).Idx => (f 0).val) hi
    have h1 : ((rowsScatter N R C wf).start j idx 1 + ((rowsScatter N R C wf).window j 1 : Int)).toNat = (i 1).val :=
      congrArg (fun f : (⟨2, ![N, C]⟩ : Shape).Idx => (f 1).val) hi
    have hb := (hin 0).1
    rw [rowsScatter_start_row, rowsScatter_window_row] at h0 hb
    rw [rowsScatter_start_col, rowsScatter_window_col] at h1
    constructor <;> omega
  · exact absurd h (by simp)

end Cert.LibRows

end
-- ==== Proof.Realness.lean ====
/-
  Every entry is a real number: the property carried through the host operations of a two-layer graph convolution
  at the ideal instance, where a float is an extended real.

  A layer is `scatter_add (gather (x · W) · weight) + bias`. Each operation keeps the property: a product with a
  matrix and an adding scatter are finite sums of products and of entries; a gather and a broadcast only move
  entries; the node weight is the guarded inverse square root of a count, which is a real number that is not
  negative. So a layer's output has real entries as soon as its inputs have.
-/
import proofs.«149487_j20229295964576_1_alg».proof.Proof.RefStages
import Idealize.ShloMosaic.PureOps.Ideal.Laws
import Idealize.ShloMosaic.Lib.ValueIdx
import Idealize.ShloMosaic.Lib.IdealHost
import proofs.«149487_j20229295964576_1_alg».proof.Proof.LibDegreeWeight
import proofs.«149487_j20229295964576_1_alg».proof.Proof.LibRows

noncomputable section

namespace Cert.Realness

open Idealize.ShloMosaic Cert.ReferenceIdeal Cert.ReferenceIdeal.ReadP

/-- Every entry of the array is a real number (neither infinity). -/
def AllReal {S : Shape} (v : S.Idx → EReal) : Prop := ∀ i, ∃ r : ℝ, v i = (r : EReal)

/-! ## Scalars -/

/-- A finite sum of real numbers, taken in the extended reals, is a real number. -/
theorem real_sum {ι : Type} (s : Finset ι) (f : ι → EReal) (h : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨r, hr⟩ := ih (fun j hj => h j (Finset.mem_insert_of_mem hj))
    obtain ⟨q, hq⟩ := h a (Finset.mem_insert_self a s)
    exact ⟨q + r, by rw [Finset.sum_insert ha, hr, hq, EReal.coe_add]⟩

/-- An extended real that is not negative and not `⊤` is a real number. -/
theorem real_of_nonneg_ne_top {y : EReal} (h0 : 0 ≤ y) (ht : y ≠ ⊤) : ∃ r : ℝ, y = (r : EReal) :=
  ⟨y.toReal, (EReal.coe_toReal ht (ne_of_gt (lt_of_lt_of_le EReal.bot_lt_zero h0))).symm⟩

/-! ## Closure under the operations of the host program -/

/-- A constant array whose bit pattern denotes a real number. -/
theorem AllReal.constant (S : Shape) (w : BitVec FTy.f32.bits) (h : ∃ r : ℝ, Ideal.ofBits .f32 w = (r : EReal)) :
    AllReal (Idealize.ShloMosaic.constant (F := Ideal) S .f32 w) := fun _ => h

/-- The 32-bit float zero. -/
theorem AllReal.constant_zero (S : Shape) : AllReal (Idealize.ShloMosaic.constant (F := Ideal) S .f32 0x00000000#32) :=
  AllReal.constant S _ ⟨0, by rw [Ideal.ofBits_zero_f32, EReal.coe_zero]⟩

/-- The 32-bit float one. -/
theorem AllReal.constant_one (S : Shape) : AllReal (Idealize.ShloMosaic.constant (F := Ideal) S .f32 0x3F800000#32) :=
  AllReal.constant S _ ⟨1, by rw [Ideal.ofBits_one_f32, EReal.coe_one]⟩

/-- A broadcast's entries are entries of its operand. -/
theorem AllReal.broadcastInDim {S T : Shape} (dims : Fin S.rank → Fin T.rank) (h : S.BroadcastsInDim T dims)
    {v : S.Idx → EReal} (hv : AllReal v) : AllReal (Idealize.ShloMosaic.broadcastInDim T dims h v) :=
  fun _ => hv _

theorem AllReal.addf {S : Shape} {x y : S.Idx → EReal} (hx : AllReal x) (hy : AllReal y) :
    AllReal (Idealize.ShloMosaic.addf (F := Ideal) (φ := .f32) x y) := by
  intro i
  obtain ⟨a, ha⟩ := hx i
  obtain ⟨b, hb⟩ := hy i
  refine ⟨a + b, ?_⟩
  show x i + y i = _
  rw [ha, hb, EReal.coe_add]

theorem AllReal.subf {S : Shape} {x y : S.Idx → EReal} (hx : AllReal x) (hy : AllReal y) :
    AllReal (Idealize.ShloMosaic.subf (F := Ideal) (φ := .f32) x y) := by
  intro i
  obtain ⟨a, ha⟩ := hx i
  obtain ⟨b, hb⟩ := hy i
  refine ⟨a - b, ?_⟩
  show x i - y i = _
  rw [ha, hb, EReal.coe_sub]

theorem AllReal.mulf {S : Shape} {x y : S.Idx → EReal} (hx : AllReal x) (hy : AllReal y) :
    AllReal (Idealize.ShloMosaic.mulf (F := Ideal) (φ := .f32) x y) := by
  intro i
  obtain ⟨a, ha⟩ := hx i
  obtain ⟨b, hb⟩ := hy i
  refine ⟨a * b, ?_⟩
  show x i * y i = _
  rw [ha, hb, EReal.coe_mul]

theorem AllReal.maximumf {S : Shape} {x y : S.Idx → EReal} (hx : AllReal x) (hy : AllReal y) :
    AllReal (Idealize.ShloMosaic.maximumf (F := Ideal) (φ := .f32) x y) := by
  intro i
  show ∃ r : ℝ, max (x i) (y i) = (r : EReal)
  rcases max_choice (x i) (y i) with h | h
  · rw [h]; exact hx i
  · rw [h]; exact hy i

/-- A gather's entries are entries of its operand. -/
theorem AllReal.gather {S SI T : Shape} {w : Nat} (d : GatherDims S SI T) {x : S.Idx → EReal} (hx : AllReal x)
    (idx : IVec SI w) : AllReal (Host.gather d x idx) :=
  fun _ => hx _

/-- An adding scatter's entry is the operand's entry plus a finite sum of updates. -/
theorem AllReal.scatterAdd {S SI U : Shape} {w : Nat} (d : ScatterDims S SI U) {z : S.Idx → EReal} (hz : AllReal z)
    (idx : IVec SI w) {u : U.Idx → EReal} (hu : AllReal u) :
    AllReal (Host.scatterAdd (F := Ideal) (φ := .f32) d z idx u) := by
  intro i
  obtain ⟨t, ht⟩ := LibDegreeWeight.scatterAdd_apply d z idx u i
  obtain ⟨a, ha⟩ := hz i
  obtain ⟨b, hb⟩ := real_sum t u (fun j _ => hu j)
  exact ⟨a + b, by rw [ht, ha, hb, EReal.coe_add]⟩

/-- A `dot_general`'s entry is a finite sum of products of entries of its operands. -/
theorem AllReal.dotGeneral {SL SR SO : Shape} (d : DotDims SL SR SO) {l : SL.Idx → EReal} {r : SR.Idx → EReal}
    (hl : AllReal l) (hr : AllReal r) :
    AllReal (Host.dotGeneral (F := Ideal) (φ₁ := .f32) (φ₂ := .f32) d none l r) := by
  intro j
  have hj : Host.dotGeneral (F := Ideal) (φ₁ := .f32) (φ₂ := .f32) d none l r j
      = ∑ k : d.contr.Idx, l (d.lhsIdx j k) * r (d.rhsIdx j k) := Ideal.dotGeneral_apply d none .single l r j
  rw [hj]
  refine real_sum _ _ (fun k _ => ?_)
  obtain ⟨a, ha⟩ := hl (d.lhsIdx j k)
  obtain ⟨b, hb⟩ := hr (d.rhsIdx j k)
  exact ⟨a * b, by rw [ha, hb, EReal.coe_mul]⟩

/-! ## The node weights -/

/-- The node weight of the first layer: the guarded inverse square root of a degree, the degree being the float zero
    plus a sum of float ones over the edges that land on the node. -/
theorem real_v16 (x1 : (⟨S2x1600000, .i32⟩ : BufTy).Contents (Elt Ideal)) : AllReal (val_main_v16 (F := Ideal) x1) := by
  intro i
  have ht : ∃ t : Finset S1700000.Idx, val_main_v11 (F := Ideal) x1 i
      = val_main_v9 (F := Ideal) i + ∑ j ∈ t, val_main_v8 (F := Ideal) j := by
    unfold val_main_v11
    exact LibDegreeWeight.scatterAdd_apply _ _ _ _ i
  obtain ⟨t, ht⟩ := ht
  have hg := LibDegreeWeight.guarded_rsqrt_degree t (val_main_v11 (F := Ideal) x1 i) (val_main_v9 (F := Ideal) i)
    (val_main_v8 (F := Ideal)) ht rfl (fun _ => rfl)
  have hsel : val_main_v16 (F := Ideal) x1 i
      = Scalar.select (Ideal.cmp .ogt (val_main_v11 (F := Ideal) x1 i) (val_main_v12 (F := Ideal) i))
          (Ideal.rsqrt (val_main_v11 (F := Ideal) x1 i)) (val_main_v15 (F := Ideal) i) := by
    unfold val_main_v16 val_main_v13 val_main_v14
    exact LibDegreeWeight.guarded_apply _ _ _ i
  have hcz : val_main_v12 (F := Ideal) i = Ideal.ofBits .f32 0x00000000#32 := rfl
  have halt : val_main_v15 (F := Ideal) i = Ideal.ofBits .f32 0x00000000#32 := rfl
  rw [hsel, hcz, halt]
  exact real_of_nonneg_ne_top hg.1 hg.2

/-- The node weight of the second layer: the guarded inverse square root of a degree, the degree being the float zero
    plus a sum of float ones over the edges that land on the node. -/
theorem real_v86 (x1 : (⟨S2x1600000, .i32⟩ : BufTy).Contents (Elt Ideal)) : AllReal (val_main_v86 (F := Ideal) x1) := by
  intro i
  have ht : ∃ t : Finset S1700000.Idx, val_main_v81 (F := Ideal) x1 i
      = val_main_v79 (F := Ideal) i + ∑ j ∈ t, val_main_v78 (F := Ideal) j := by
    unfold val_main_v81
    exact LibDegreeWeight.scatterAdd_apply _ _ _ _ i
  obtain ⟨t, ht⟩ := ht
  have hg := LibDegreeWeight.guarded_rsqrt_degree t (val_main_v81 (F := Ideal) x1 i) (val_main_v79 (F := Ideal) i)
    (val_main_v78 (F := Ideal)) ht rfl (fun _ => rfl)
  have hsel : val_main_v86 (F := Ideal) x1 i
      = Scalar.select (Ideal.cmp .ogt (val_main_v81 (F := Ideal) x1 i) (val_main_v82 (F := Ideal) i))
          (Ideal.rsqrt (val_main_v81 (F := Ideal) x1 i)) (val_main_v85 (F := Ideal) i) := by
    unfold val_main_v86 val_main_v83 val_main_v84
    exact LibDegreeWeight.guarded_apply _ _ _ i
  have hcz : val_main_v82 (F := Ideal) i = Ideal.ofBits .f32 0x00000000#32 := rfl
  have halt : val_main_v85 (F := Ideal) i = Ideal.ofBits .f32 0x00000000#32 := rfl
  rw [hsel, hcz, halt]
  exact real_of_nonneg_ne_top hg.1 hg.2

/-! ## The first layer: `x0 · x2`, gathered along the edges, weighted, summed onto the nodes, plus the bias -/

theorem real_v4 (x0 : (⟨S100000x128, .f32⟩ : BufTy).Contents (Elt Ideal)) (x2 : (⟨S128x128, .f32⟩ : BufTy).Contents (Elt Ideal)) (h0 : AllReal x0) (h2 : AllReal x2) : AllReal (val_main_v4 (F := Ideal) x0 x2) := by
  unfold val_main_v4
  exact AllReal.dotGeneral _ h0 h2

theorem real_v23 (x1 : (⟨S2x1600000, .i32⟩ : BufTy).Contents (Elt Ideal)) : AllReal (val_main_v23 (F := Ideal) x1) := by
  unfold val_main_v23
  exact AllReal.gather _ (real_v16 x1) _

theorem real_v30 (x1 : (⟨S2x1600000, .i32⟩ : BufTy).Contents (Elt Ideal)) : AllReal (val_main_v30 (F := Ideal) x1) := by
  unfold val_main_v30
  exact AllReal.gather _ (real_v16 x1) _

theorem real_v31 (x1 : (⟨S2x1600000, .i32⟩ : BufTy).Contents (Elt Ideal)) : AllReal (val_main_v31 (F := Ideal) x1) := by
  unfold val_main_v31
  exact AllReal.mulf (real_v23 x1) (real_v30 x1)

theorem real_v38 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (h0 : AllReal x0) (h2 : AllReal x2) :
    AllReal (val_main_v38 (F := Ideal) x0 x1 x2) := by
  unfold val_main_v38
  exact AllReal.gather _ (real_v4 x0 x2 h0 h2) _

theorem real_v39 (x1 : (⟨S2x1600000, .i32⟩ : BufTy).Contents (Elt Ideal)) : AllReal (val_main_v39 (F := Ideal) x1) := by
  unfold val_main_v39
  exact AllReal.broadcastInDim _ _ (real_v31 x1)

theorem real_v40 (x1 : (⟨S2x1600000, .i32⟩ : BufTy).Contents (Elt Ideal)) : AllReal (val_main_v40 (F := Ideal) x1) := by
  unfold val_main_v40
  exact AllReal.broadcastInDim _ _ (real_v39 x1)

theorem real_v41 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (h0 : AllReal x0) (h2 : AllReal x2) :
    AllReal (val_main_v41 (F := Ideal) x0 x1 x2) := by
  unfold val_main_v41
  exact AllReal.mulf (real_v38 x0 x1 x2 h0 h2) (real_v40 x1)

theorem real_v42 : AllReal (val_main_v42 (F := Ideal)) := by
  unfold val_main_v42 val_main_cst_8
  exact AllReal.broadcastInDim _ _ (AllReal.constant_zero S_)

theorem real_v44 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (h0 : AllReal x0) (h2 : AllReal x2) :
    AllReal (val_main_v44 (F := Ideal) x0 x1 x2) := by
  unfold val_main_v44
  exact AllReal.scatterAdd _ real_v42 _ (real_v41 x0 x1 x2 h0 h2)

theorem real_v45 (x3 : (⟨S128, .f32⟩ : BufTy).Contents (Elt Ideal)) (h3 : AllReal x3) : AllReal (val_main_v45 (F := Ideal) x3) := by
  unfold val_main_v45
  exact AllReal.broadcastInDim _ _ h3

theorem real_v46 (x3 : (⟨S128, .f32⟩ : BufTy).Contents (Elt Ideal)) (h3 : AllReal x3) : AllReal (val_main_v46 (F := Ideal) x3) := by
  unfold val_main_v46
  exact AllReal.broadcastInDim _ _ (real_v45 x3 h3)

/-- Every entry of the first layer's output is a real number when the inputs' entries are. -/
theorem real_v47 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (h0 : AllReal x0) (h2 : AllReal x2) (h3 : AllReal x3) : AllReal (val_main_v47 (F := Ideal) x0 x1 x2 x3) := by
  unfold val_main_v47
  exact AllReal.addf (real_v44 x0 x1 x2 h0 h2) (real_v46 x3 h3)

/-! ## The second layer: the same chain over the first layer's activated output times `x6` -/

theorem real_v74 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x64, .f32⟩ : BufTy).Contents (Elt Ideal)) (h73 : AllReal (val_main_v73 (F := Ideal) x0 x1 x2 x3 x4 x5)) (h6 : AllReal x6) : AllReal (val_main_v74 (F := Ideal) x0 x1 x2 x3 x4 x5 x6) := by
  unfold val_main_v74
  exact AllReal.dotGeneral _ h73 h6

theorem real_v93 (x1 : (⟨S2x1600000, .i32⟩ : BufTy).Contents (Elt Ideal)) : AllReal (val_main_v93 (F := Ideal) x1) := by
  unfold val_main_v93
  exact AllReal.gather _ (real_v86 x1) _

theorem real_v100 (x1 : (⟨S2x1600000, .i32⟩ : BufTy).Contents (Elt Ideal)) : AllReal (val_main_v100 (F := Ideal) x1) := by
  unfold val_main_v100
  exact AllReal.gather _ (real_v86 x1) _

theorem real_v101 (x1 : (⟨S2x1600000, .i32⟩ : BufTy).Contents (Elt Ideal)) : AllReal (val_main_v101 (F := Ideal) x1) := by
  unfold val_main_v101
  exact AllReal.mulf (real_v93 x1) (real_v100 x1)

theorem real_v108 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x64, .f32⟩ : BufTy).Contents (Elt Ideal)) (h73 : AllReal (val_main_v73 (F := Ideal) x0 x1 x2 x3 x4 x5)) (h6 : AllReal x6) : AllReal (val_main_v108 (F := Ideal) x0 x1 x2 x3 x4 x5 x6) := by
  unfold val_main_v108
  exact AllReal.gather _ (real_v74 x0 x1 x2 x3 x4 x5 x6 h73 h6) _

theorem real_v109 (x1 : (⟨S2x1600000, .i32⟩ : BufTy).Contents (Elt Ideal)) : AllReal (val_main_v109 (F := Ideal) x1) := by
  unfold val_main_v109
  exact AllReal.broadcastInDim _ _ (real_v101 x1)

theorem real_v110 (x1 : (⟨S2x1600000, .i32⟩ : BufTy).Contents (Elt Ideal)) : AllReal (val_main_v110 (F := Ideal) x1) := by
  unfold val_main_v110
  exact AllReal.broadcastInDim _ _ (real_v109 x1)

theorem real_v111 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x64, .f32⟩ : BufTy).Contents (Elt Ideal)) (h73 : AllReal (val_main_v73 (F := Ideal) x0 x1 x2 x3 x4 x5)) (h6 : AllReal x6) : AllReal (val_main_v111 (F := Ideal) x0 x1 x2 x3 x4 x5 x6) := by
  unfold val_main_v111
  exact AllReal.mulf (real_v108 x0 x1 x2 x3 x4 x5 x6 h73 h6) (real_v110 x1)

theorem real_v112 : AllReal (val_main_v112 (F := Ideal)) := by
  unfold val_main_v112 val_main_cst_24
  exact AllReal.broadcastInDim _ _ (AllReal.constant_zero S_)

theorem real_v114 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x64, .f32⟩ : BufTy).Contents (Elt Ideal)) (h73 : AllReal (val_main_v73 (F := Ideal) x0 x1 x2 x3 x4 x5)) (h6 : AllReal x6) : AllReal (val_main_v114 (F := Ideal) x0 x1 x2 x3 x4 x5 x6) := by
  unfold val_main_v114
  exact AllReal.scatterAdd _ real_v112 _ (real_v111 x0 x1 x2 x3 x4 x5 x6 h73 h6)

theorem real_v115 (x7 : (⟨S64, .f32⟩ : BufTy).Contents (Elt Ideal)) (h7 : AllReal x7) : AllReal (val_main_v115 (F := Ideal) x7) := by
  unfold val_main_v115
  exact AllReal.broadcastInDim _ _ h7

theorem real_v116 (x7 : (⟨S64, .f32⟩ : BufTy).Contents (Elt Ideal)) (h7 : AllReal x7) : AllReal (val_main_v116 (F := Ideal) x7) := by
  unfold val_main_v116
  exact AllReal.broadcastInDim _ _ (real_v115 x7 h7)

/-- Every entry of the second layer's output is a real number when the first layer's activated output, the second
    weight matrix and the second bias have real entries. -/
theorem real_v117 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x64, .f32⟩ : BufTy).Contents (Elt Ideal)) (x7 : (⟨S64, .f32⟩ : BufTy).Contents (Elt Ideal))
    (h73 : AllReal (val_main_v73 (F := Ideal) x0 x1 x2 x3 x4 x5)) (h6 : AllReal x6) (h7 : AllReal x7) :
    AllReal (val_main_v117 (F := Ideal) x0 x1 x2 x3 x4 x5 x6 x7) := by
  unfold val_main_v117
  exact AllReal.addf (real_v114 x0 x1 x2 x3 x4 x5 x6 h73 h6) (real_v116 x7 h7)

end Cert.Realness

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  Under the precondition every float argument array holds real numbers.  The precondition is the conjunction, over the
  nine float arguments, of "every entry's absolute value is below the word of +infinity"; on the extended reals the word is
  +infinity, and an extended real whose absolute value max(x, -x) is below +infinity is a real number.
-/
import proofs.«149487_j20229295964576_1_alg».proof.Defs
import proofs.«149487_j20229295964576_1_alg».proof.Proof.Gen.Pre_finite_inputs
import proofs.«149487_j20229295964576_1_alg».proof.Proof.BNMath
import proofs.«149487_j20229295964576_1_alg».proof.Proof.LibSums
import Idealize.ShloMosaic.Lib.ReduceAll
import Idealize.ShloMosaic.Lib.ValueIdx

noncomputable section

namespace Cert.Finite

open Idealize.ShloMosaic Idealize.SL.Sem Cert.BNMath

/-- The scalar shape has one index. -/
instance : Subsingleton Cert.Pre_finite_inputs.S_.Idx := ⟨fun _ _ => funext fun d => d.elim0⟩

/-- One conjunct of the precondition: if the conjunction over all entries of "the absolute value is below the
    word of +infinity" is 1, every entry is a real number. -/
theorem real_of_all {t : Shape} {axes : List (Fin t.rank)} (a : FVec Ideal t .f32)
    (hb : Cert.Pre_finite_inputs.S_.BroadcastsInDim t (![] : Fin 0 → Fin t.rank))
    (hr : t.ReducesTo axes Cert.Pre_finite_inputs.S_) (hu : 0 < Cert.Pre_finite_inputs.S_.numel)
    (j : Cert.Pre_finite_inputs.S_.Idx)
    (e : Host.reduce IntOp.andi
        (cmpf .olt (Host.absf a) (broadcastInDim t ![] hb (constant Cert.Pre_finite_inputs.S_ .f32 0x7F800000#32)))
        (constantI Cert.Pre_finite_inputs.S_ 1 1#1) hr hu j = 1#1) :
    ∀ i, IsReal (a i) := by
  intro i
  have h := Host.reduce_andi_all _ _ hr hu j e i
  exact Cert.LibSums.real_of_finite_bit (a i) h

open Cert.Pre_finite_inputs in
theorem fn_decode [Cert.Pre_finite_inputs.Facts]
    (a0 : FVec Ideal S100000x128 .f32) (a1 : IVec S2x1600000 32) (a2 : FVec Ideal S128x128 .f32)
    (a3 a4 a5 : FVec Ideal S128 .f32) (a6 : FVec Ideal S128x64 .f32) (a7 a8 a9 : FVec Ideal S64 .f32)
    (h : Cert.Pre_finite_inputs.fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i))
      ∧ (∀ i, IsReal (a9 i)) := by
  have h0 := congrFun h ValueIdx.ix0
  dsimp only [Cert.Pre_finite_inputs.fn, Cert.Pre_finite_inputs.fn_part1, Cert.Pre_finite_inputs.fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ _ _ _ e0, real_of_all a2 _ _ _ _ e2, real_of_all a3 _ _ _ _ e3,
    real_of_all a4 _ _ _ _ e4, real_of_all a5 _ _ _ _ e5, real_of_all a6 _ _ _ _ e6,
    real_of_all a7 _ _ _ _ e7, real_of_all a8 _ _ _ _ e8, real_of_all a9 _ _ _ _ e9⟩

/-- The precondition at one device, decoded: all nine float argument arrays hold real numbers. -/
theorem real_args [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (((m ((c.tc : Thread Cert.KernelIdeal.nD Cert.KernelIdeal.τ).loc Cert.KernelIdeal.main_arg0)) : (⟨2, ![100000, 128]⟩ : Shape).Idx → EReal) i))
      ∧ (∀ i, IsReal (((m ((c.tc : Thread Cert.KernelIdeal.nD Cert.KernelIdeal.τ).loc Cert.KernelIdeal.main_arg2)) : (⟨2, ![128, 128]⟩ : Shape).Idx → EReal) i))
      ∧ (∀ i, IsReal (((m ((c.tc : Thread Cert.KernelIdeal.nD Cert.KernelIdeal.τ).loc Cert.KernelIdeal.main_arg3)) : (⟨1, ![128]⟩ : Shape).Idx → EReal) i))
      ∧ (∀ i, IsReal (((m ((c.tc : Thread Cert.KernelIdeal.nD Cert.KernelIdeal.τ).loc Cert.KernelIdeal.main_arg4)) : (⟨1, ![128]⟩ : Shape).Idx → EReal) i))
      ∧ (∀ i, IsReal (((m ((c.tc : Thread Cert.KernelIdeal.nD Cert.KernelIdeal.τ).loc Cert.KernelIdeal.main_arg5)) : (⟨1, ![128]⟩ : Shape).Idx → EReal) i))
      ∧ (∀ i, IsReal (((m ((c.tc : Thread Cert.KernelIdeal.nD Cert.KernelIdeal.τ).loc Cert.KernelIdeal.main_arg6)) : (⟨2, ![128, 64]⟩ : Shape).Idx → EReal) i))
      ∧ (∀ i, IsReal (((m ((c.tc : Thread Cert.KernelIdeal.nD Cert.KernelIdeal.τ).loc Cert.KernelIdeal.main_arg7)) : (⟨1, ![64]⟩ : Shape).Idx → EReal) i))
      ∧ (∀ i, IsReal (((m ((c.tc : Thread Cert.KernelIdeal.nD Cert.KernelIdeal.τ).loc Cert.KernelIdeal.main_arg8)) : (⟨1, ![64]⟩ : Shape).Idx → EReal) i))
      ∧ (∀ i, IsReal (((m ((c.tc : Thread Cert.KernelIdeal.nD Cert.KernelIdeal.τ).loc Cert.KernelIdeal.main_arg9)) : (⟨1, ![64]⟩ : Shape).Idx → EReal) i)) :=
  fn_decode _ _ _ _ _ _ _ _ _ _ (hpre c)

theorem real_arg0 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (((m ((c.tc : Thread Cert.KernelIdeal.nD Cert.KernelIdeal.τ).loc Cert.KernelIdeal.main_arg0)) : (⟨2, ![100000, 128]⟩ : Shape).Idx → EReal) i) :=
  (real_args m hpre c).1

theorem real_arg2 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (((m ((c.tc : Thread Cert.KernelIdeal.nD Cert.KernelIdeal.τ).loc Cert.KernelIdeal.main_arg2)) : (⟨2, ![128, 128]⟩ : Shape).Idx → EReal) i) :=
  (real_args m hpre c).2.1

theorem real_arg3 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (((m ((c.tc : Thread Cert.KernelIdeal.nD Cert.KernelIdeal.τ).loc Cert.KernelIdeal.main_arg3)) : (⟨1, ![128]⟩ : Shape).Idx → EReal) i) :=
  (real_args m hpre c).2.2.1

theorem real_arg4 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (((m ((c.tc : Thread Cert.KernelIdeal.nD Cert.KernelIdeal.τ).loc Cert.KernelIdeal.main_arg4)) : (⟨1, ![128]⟩ : Shape).Idx → EReal) i) :=
  (real_args m hpre c).2.2.2.1

theorem real_arg5 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (((m ((c.tc : Thread Cert.KernelIdeal.nD Cert.KernelIdeal.τ).loc Cert.KernelIdeal.main_arg5)) : (⟨1, ![128]⟩ : Shape).Idx → EReal) i) :=
  (real_args m hpre c).2.2.2.2.1

theorem real_arg6 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (((m ((c.tc : Thread Cert.KernelIdeal.nD Cert.KernelIdeal.τ).loc Cert.KernelIdeal.main_arg6)) : (⟨2, ![128, 64]⟩ : Shape).Idx → EReal) i) :=
  (real_args m hpre c).2.2.2.2.2.1

theorem real_arg7 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (((m ((c.tc : Thread Cert.KernelIdeal.nD Cert.KernelIdeal.τ).loc Cert.KernelIdeal.main_arg7)) : (⟨1, ![64]⟩ : Shape).Idx → EReal) i) :=
  (real_args m hpre c).2.2.2.2.2.2.1

theorem real_arg8 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (((m ((c.tc : Thread Cert.KernelIdeal.nD Cert.KernelIdeal.τ).loc Cert.KernelIdeal.main_arg8)) : (⟨1, ![64]⟩ : Shape).Idx → EReal) i) :=
  (real_args m hpre c).2.2.2.2.2.2.2.1

theorem real_arg9 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (((m ((c.tc : Thread Cert.KernelIdeal.nD Cert.KernelIdeal.τ).loc Cert.KernelIdeal.main_arg9)) : (⟨1, ![64]⟩ : Shape).Idx → EReal) i) :=
  (real_args m hpre c).2.2.2.2.2.2.2.2

end Cert.Finite
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LinValue.lean ====
/-
  The two dense layers of the kernel program, read as whole matrices.

  A launch of the linear kernel walks twenty blocks of 5000 rows of its left operand; at each point it multiplies the
  block by the whole weight matrix into a zero accumulator and writes the product back as the same rows of the result.
  On the extended reals a change of float format is the identity, so entry (p, q) of the result is the sum over k of
  left (p, k) · weight (k, q): the blocks are restrictions of ONE matrix product, and since the twenty blocks tile the
  100000 rows, the result array ends as that product.
-/
import proofs.«149487_j20229295964576_1_alg».proof.Proof.Gen.KernelIdeal.Frame
import proofs.«149487_j20229295964576_1_alg».proof.Proof.LibPlainDot
import Idealize.ShloMosaic.Lib.Pipeline.Value
import Idealize.ShloMosaic.Lib.ValueIdx

set_option maxRecDepth 16384

noncomputable section

namespace Cert.KernelIdeal.LinValue

open Cert.KernelIdeal Cert.KernelIdeal.Gen Idealize.ShloMosaic Idealize.ShloMosaic.TcCoe Idealize.ShloMosaic.ValueIdx
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The first layer: [100000, 128] · [128, 128] -/

/-- The matrix product, entry by entry. -/
def prod0 (A : S100000x128.Idx → EReal) (B : S128x128.Idx → EReal) : S100000x128.Idx → EReal :=
  fun i => ∑ k : Fin 128, A (ix2 ⟨(i 0).val, (i 0).isLt⟩ k) * B (ix2 k ⟨(i 1).val, (i 1).isLt⟩)

/-- The body's product of a block of rows by the weights, at row r of the block and column q. -/
theorem pay0_apply (x0 : Vec Ideal S5000x128 .f32) (x1 : Vec Ideal S128x128 .f32) (r : Fin 5000) (q : Fin 128) :
    k0_pay1 (F := Ideal) x0 x1 (ix2 r q) = ∑ k : Fin 128, x0 (ix2 r k) * x1 (ix2 k q) := by
  unfold k0_pay1
  exact Cert.LibPlainDot.matmul_plain_apply dot_S5000x128_S128x128_S5000x128_1_0_0_1_n_n rfl rfl rfl rfl rfl rfl none _ _ r q

/-- A block of rows times the weights is the same rows of the whole product: if the block's entries are rows
    tt·5000 … of A and the second operand is B, the body's result at j is the product at row tt·5000 + j₀. -/
theorem pay0_block (A : S100000x128.Idx → EReal) (B : S128x128.Idx → EReal) (x0 : Vec Ideal S5000x128 .f32) (x1 : Vec Ideal S128x128 .f32)
    (tt : ℕ) (htt : tt < 20) (h0 : ∀ (r : Fin 5000) (k : Fin 128), x0 (ix2 r k) = A (ix2 ⟨tt * 5000 + r.val, by have := r.isLt; omega⟩ k))
    (h1 : ∀ (k : Fin 128) (q : Fin 128), x1 (ix2 k q) = B (ix2 k q)) (j : S5000x128.Idx) (i : S100000x128.Idx)
    (hi0 : (i 0).val = tt * 5000 + (j 0).val) (hi1 : (i 1).val = (j 1).val) :
    k0_pay1 (F := Ideal) x0 x1 j = prod0 A B i := by
  obtain ⟨r, q, rfl⟩ : ∃ (r : Fin 5000) (q : Fin 128), j = ix2 r q := ⟨j 0, j 1, eq_ix2 j⟩
  rw [pay0_apply]
  unfold prod0
  refine Finset.sum_congr rfl fun k _ => ?_
  rw [h0, h1]
  have e0 : (⟨(i 0).val, (i 0).isLt⟩ : Fin 100000) = ⟨tt * 5000 + r.val, by have := r.isLt; omega⟩ := Fin.ext hi0
  have e1 : (⟨(i 1).val, (i 1).isLt⟩ : Fin 128) = q := Fin.ext hi1
  rw [e0, e1]

/-- Where the three windows' blocks sit at point t: the row blocks at block row t, the weights whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the launch finds. -/
theorem flushed0 (c : Dev nD) (t : Fin cfg0.N) :
    (dat0 (F := Ideal) V c).flushed 2 t
      = ((cfg0.win 2).blk t).view.read (Elt Ideal) (prod0 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  have hN : t.val < 20 := by have h := t.isLt; have hN : grid0.N = 20 := N_0; exact hN ▸ h
  funext j
  refine pay0_block (V c (Pipeline.arrRef spec0 0)) (V c (Pipeline.arrRef spec0 1)) _ _ t.val hN (fun r k => ?_) (fun k q => ?_) j _ ?_ ?_
  · show V c (Pipeline.arrRef spec0 0) (((cfg0.win 0).blk t).view.emb (ix2 r k)) = _
    refine congrArg _ (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * k.val = k.val; omega
  · show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 5000 + 1 * (j 0).val = t.val * 5000 + (j 0).val; omega
  · show win0_2.index t (1 : Fin 2) * 128 + 1 * (j 1).val = (j 1).val; omega

/-- An index of the result is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The twenty blocks of 5000 rows tile the 100000 rows: row r is in block r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; omega
  refine ⟨⟨(i 0).val / 5000, ht⟩, flush0_2 _, ?_⟩
  rw [mem_blk0]
  obtain ⟨e0, e1, e2, e3, e4, e5⟩ := idx_facts0 ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    have : (⟨(i 0).val / 5000, ht⟩ : Fin cfg0.N).val = (i 0).val / 5000 := rfl
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- The result array after the launch is the product of the arrays the launch finds. -/
theorem final0 (c : Dev nD) :
    (dat0 (F := Ideal) V c).arrAt 2 cfg0.N = prod0 (V c (Pipeline.arrRef spec0 0)) (V c (Pipeline.arrRef spec0 1)) :=
  (dat0 (F := Ideal) V c).arrAt_eq_of_cover 2 _ (fun t _ => flushed0 V c t) cover0

/-! ## The second layer: [100000, 128] · [128, 64] -/

/-- The matrix product, entry by entry. -/
def prod3 (A : S100000x128.Idx → EReal) (B : S128x64.Idx → EReal) : S100000x64.Idx → EReal :=
  fun i => ∑ k : Fin 128, A (ix2 ⟨(i 0).val, (i 0).isLt⟩ k) * B (ix2 k ⟨(i 1).val, (i 1).isLt⟩)

/-- The body's product of a block of rows by the weights, at row r of the block and column q. -/
theorem pay3_apply (x0 : Vec Ideal S5000x128 .f32) (x1 : Vec Ideal S128x64 .f32) (r : Fin 5000) (q : Fin 64) :
    k3_pay1 (F := Ideal) x0 x1 (ix2 r q) = ∑ k : Fin 128, x0 (ix2 r k) * x1 (ix2 k q) := by
  unfold k3_pay1
  simp only [shapeCast_self]
  exact Cert.LibPlainDot.matmul_plain_apply dot_S5000x128_S128x64_S5000x64_1_0_0_1_n_n rfl rfl rfl rfl rfl rfl none _ _ r q

/-- A block of rows times the weights is the same rows of the whole product: if the block's entries are rows
    tt·5000 … of A and the second operand is B, the body's result at j is the product at row tt·5000 + j₀. -/
theorem pay3_block (A : S100000x128.Idx → EReal) (B : S128x64.Idx → EReal) (x0 : Vec Ideal S5000x128 .f32) (x1 : Vec Ideal S128x64 .f32)
    (tt : ℕ) (htt : tt < 20) (h0 : ∀ (r : Fin 5000) (k : Fin 128), x0 (ix2 r k) = A (ix2 ⟨tt * 5000 + r.val, by have := r.isLt; omega⟩ k))
    (h1 : ∀ (k : Fin 128) (q : Fin 64), x1 (ix2 k q) = B (ix2 k q)) (j : S5000x64.Idx) (i : S100000x64.Idx)
    (hi0 : (i 0).val = tt * 5000 + (j 0).val) (hi1 : (i 1).val = (j 1).val) :
    k3_pay1 (F := Ideal) x0 x1 j = prod3 A B i := by
  obtain ⟨r, q, rfl⟩ : ∃ (r : Fin 5000) (q : Fin 64), j = ix2 r q := ⟨j 0, j 1, eq_ix2 j⟩
  rw [pay3_apply]
  unfold prod3
  refine Finset.sum_congr rfl fun k _ => ?_
  rw [h0, h1]
  have e0 : (⟨(i 0).val, (i 0).isLt⟩ : Fin 100000) = ⟨tt * 5000 + r.val, by have := r.isLt; omega⟩ := Fin.ext hi0
  have e1 : (⟨(i 1).val, (i 1).isLt⟩ : Fin 64) = q := Fin.ext hi1
  rw [e0, e1]

/-- Where the three windows' blocks sit at point t: the row blocks at block row t, the weights whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the arrays the launch finds. -/
theorem flushed3 (c : Dev nD) (t : Fin cfg3.N) :
    (dat3 (F := Ideal) V c).flushed 2 t
      = ((cfg3.win 2).blk t).view.read (Elt Ideal) (prod3 (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x64) hz]
  obtain ⟨e0, e1, e2, e3, e4, e5⟩ := idx_facts3 t
  have hN : t.val < 20 := by have h := t.isLt; have hN : grid3.N = 20 := N_3; exact hN ▸ h
  funext j
  refine pay3_block (V c (Pipeline.arrRef spec3 0)) (V c (Pipeline.arrRef spec3 1)) _ _ t.val hN (fun r k => ?_) (fun k q => ?_) j _ ?_ ?_
  · show V c (Pipeline.arrRef spec3 0) (((cfg3.win 0).blk t).view.emb (ix2 r k)) = _
    refine congrArg _ (funext fun a => Fin.ext ?_)
    match a with
    | ⟨0, _⟩ => show win3_0.index t (0 : Fin 2) * 5000 + 1 * r.val = t.val * 5000 + r.val; omega
    | ⟨1, _⟩ => show win3_0.index t (1 : Fin 2) * 128 + 1 * k.val = k.val; omega
  · show V c (Pipeline.arrRef spec3 1) (((cfg3.win 1).blk t).view.emb (ix2 k q)) = _
    refine congrArg _ (funext fun a => Fin.ext ?_)
    match a with
    | ⟨0, _⟩ => show win3_1.index t (0 : Fin 2) * 128 + 1 * k.val = k.val; omega
    | ⟨1, _⟩ => show win3_1.index t (1 : Fin 2) * 64 + 1 * q.val = q.val; omega
  · show win3_2.index t (0 : Fin 2) * 5000 + 1 * (j 0).val = t.val * 5000 + (j 0).val; omega
  · show win3_2.index t (1 : Fin 2) * 64 + 1 * (j 1).val = (j 1).val; omega

/-- An index of the result is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v58).slice (win3_2.rect t)).set ↔ _
  rw [View.set_slice_whole, Rect.mem_set_unit]
  exact Iff.rfl

/-- The twenty blocks of 5000 rows tile the 100000 rows: row r is in block r / 5000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 20 := N_3
  have ht : (i 0).val / 5000 < cfg3.N := by show (i 0).val / 5000 < grid3.N; omega
  refine ⟨⟨(i 0).val / 5000, ht⟩, flush3_2 _, ?_⟩
  rw [mem_blk3]
  obtain ⟨e0, e1, e2, e3, e4, e5⟩ := idx_facts3 ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    have : (⟨(i 0).val / 5000, ht⟩ : Fin cfg3.N).val = (i 0).val / 5000 := rfl
    omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    omega

/-- The result array after the launch is the product of the arrays the launch finds. -/
theorem final3 (c : Dev nD) :
    (dat3 (F := Ideal) V c).arrAt 2 cfg3.N = prod3 (V c (Pipeline.arrRef spec3 0)) (V c (Pipeline.arrRef spec3 1)) :=
  (dat3 (F := Ideal) V c).arrAt_eq_of_cover 2 _ (fun t _ => flushed3 V c t) cover3

end Cert.KernelIdeal.LinValue

end
-- ==== Proof.Carry.lean ====
/-
  Buffers that a stretch of the kernel program does not write keep their contents across it.

  The program's memory at the boundary after segment k is a fold over the segments (host stretches and kernel launches).
  A host stretch changes only the buffers its operations write; a launch changes only its output arrays. So an argument
  array, the two halves of the edge list, and a layer's pre-normalization activations are found, at every later
  boundary where the program reads them, as they were left where they were last written.
-/
import proofs.«149487_j20229295964576_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the stretch writes the buffer: each operation's written buffer is another one. -/
macro "carry_host" : tactic =>
  `(tactic| (refine StableHlo.after_of_forall_not_mem _ _ (List.forall_iff_forall_mem.mp ?_)
             simp only [hostOps0, hostOps1, hostOps1_1, hostOps1_2, hostOps2, hostOps4, hostOps4_1, hostOps4_2, hostOps5, hostOps6,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## One segment at a time -/

theorem step1_arg0 (c : Dev nD) : W1 m ρ c (Proc.devRef .tc main_arg0) = W0 m ρ c (Proc.devRef .tc main_arg0) := by
  carry_host
theorem step1_arg2 (c : Dev nD) : W1 m ρ c (Proc.devRef .tc main_arg2) = W0 m ρ c (Proc.devRef .tc main_arg2) := by
  carry_host
theorem step1_arg3 (c : Dev nD) : W1 m ρ c (Proc.devRef .tc main_arg3) = W0 m ρ c (Proc.devRef .tc main_arg3) := by
  carry_host
theorem step2_arg3 (c : Dev nD) : W2 m ρ c (Proc.devRef .tc main_arg3) = W1 m ρ c (Proc.devRef .tc main_arg3) :=
  W2_of_ne m ρ c main_arg3 (by decide)
theorem step1_arg4 (c : Dev nD) : W1 m ρ c (Proc.devRef .tc main_arg4) = W0 m ρ c (Proc.devRef .tc main_arg4) := by
  carry_host
theorem step2_arg4 (c : Dev nD) : W2 m ρ c (Proc.devRef .tc main_arg4) = W1 m ρ c (Proc.devRef .tc main_arg4) :=
  W2_of_ne m ρ c main_arg4 (by decide)
theorem step3_arg4 (c : Dev nD) : W3 m ρ c (Proc.devRef .tc main_arg4) = W2 m ρ c (Proc.devRef .tc main_arg4) := by
  carry_host
theorem step4_arg4 (c : Dev nD) : W4 m ρ c (Proc.devRef .tc main_arg4) = W3 m ρ c (Proc.devRef .tc main_arg4) := by
  carry_host
theorem step5_arg4 (c : Dev nD) : W5 m ρ c (Proc.devRef .tc main_arg4) = W4 m ρ c (Proc.devRef .tc main_arg4) := by
  carry_host
theorem step6_arg4 (c : Dev nD) : W6 m ρ c (Proc.devRef .tc main_arg4) = W5 m ρ c (Proc.devRef .tc main_arg4) :=
  W6_of_ne m ρ c main_arg4 (by decide)
theorem step1_arg5 (c : Dev nD) : W1 m ρ c (Proc.devRef .tc main_arg5) = W0 m ρ c (Proc.devRef .tc main_arg5) := by
  carry_host
theorem step2_arg5 (c : Dev nD) : W2 m ρ c (Proc.devRef .tc main_arg5) = W1 m ρ c (Proc.devRef .tc main_arg5) :=
  W2_of_ne m ρ c main_arg5 (by decide)
theorem step3_arg5 (c : Dev nD) : W3 m ρ c (Proc.devRef .tc main_arg5) = W2 m ρ c (Proc.devRef .tc main_arg5) := by
  carry_host
theorem step4_arg5 (c : Dev nD) : W4 m ρ c (Proc.devRef .tc main_arg5) = W3 m ρ c (Proc.devRef .tc main_arg5) := by
  carry_host
theorem step5_arg5 (c : Dev nD) : W5 m ρ c (Proc.devRef .tc main_arg5) = W4 m ρ c (Proc.devRef .tc main_arg5) := by
  carry_host
theorem step6_arg5 (c : Dev nD) : W6 m ρ c (Proc.devRef .tc main_arg5) = W5 m ρ c (Proc.devRef .tc main_arg5) :=
  W6_of_ne m ρ c main_arg5 (by decide)
theorem step1_arg6 (c : Dev nD) : W1 m ρ c (Proc.devRef .tc main_arg6) = W0 m ρ c (Proc.devRef .tc main_arg6) := by
  carry_host
theorem step2_arg6 (c : Dev nD) : W2 m ρ c (Proc.devRef .tc main_arg6) = W1 m ρ c (Proc.devRef .tc main_arg6) :=
  W2_of_ne m ρ c main_arg6 (by decide)
theorem step3_arg6 (c : Dev nD) : W3 m ρ c (Proc.devRef .tc main_arg6) = W2 m ρ c (Proc.devRef .tc main_arg6) := by
  carry_host
theorem step4_arg6 (c : Dev nD) : W4 m ρ c (Proc.devRef .tc main_arg6) = W3 m ρ c (Proc.devRef .tc main_arg6) := by
  carry_host
theorem step5_arg6 (c : Dev nD) : W5 m ρ c (Proc.devRef .tc main_arg6) = W4 m ρ c (Proc.devRef .tc main_arg6) := by
  carry_host
theorem step6_arg6 (c : Dev nD) : W6 m ρ c (Proc.devRef .tc main_arg6) = W5 m ρ c (Proc.devRef .tc main_arg6) :=
  W6_of_ne m ρ c main_arg6 (by decide)
theorem step7_arg6 (c : Dev nD) : W7 m ρ c (Proc.devRef .tc main_arg6) = W6 m ρ c (Proc.devRef .tc main_arg6) := by
  carry_host
theorem step8_arg6 (c : Dev nD) : W8 m ρ c (Proc.devRef .tc main_arg6) = W7 m ρ c (Proc.devRef .tc main_arg6) :=
  W8_of_ne m ρ c main_arg6 (by decide)
theorem step1_arg7 (c : Dev nD) : W1 m ρ c (Proc.devRef .tc main_arg7) = W0 m ρ c (Proc.devRef .tc main_arg7) := by
  carry_host
theorem step2_arg7 (c : Dev nD) : W2 m ρ c (Proc.devRef .tc main_arg7) = W1 m ρ c (Proc.devRef .tc main_arg7) :=
  W2_of_ne m ρ c main_arg7 (by decide)
theorem step3_arg7 (c : Dev nD) : W3 m ρ c (Proc.devRef .tc main_arg7) = W2 m ρ c (Proc.devRef .tc main_arg7) := by
  carry_host
theorem step4_arg7 (c : Dev nD) : W4 m ρ c (Proc.devRef .tc main_arg7) = W3 m ρ c (Proc.devRef .tc main_arg7) := by
  carry_host
theorem step5_arg7 (c : Dev nD) : W5 m ρ c (Proc.devRef .tc main_arg7) = W4 m ρ c (Proc.devRef .tc main_arg7) := by
  carry_host
theorem step6_arg7 (c : Dev nD) : W6 m ρ c (Proc.devRef .tc main_arg7) = W5 m ρ c (Proc.devRef .tc main_arg7) :=
  W6_of_ne m ρ c main_arg7 (by decide)
theorem step7_arg7 (c : Dev nD) : W7 m ρ c (Proc.devRef .tc main_arg7) = W6 m ρ c (Proc.devRef .tc main_arg7) := by
  carry_host
theorem step8_arg7 (c : Dev nD) : W8 m ρ c (Proc.devRef .tc main_arg7) = W7 m ρ c (Proc.devRef .tc main_arg7) :=
  W8_of_ne m ρ c main_arg7 (by decide)
theorem step9_arg7 (c : Dev nD) : W9 m ρ c (Proc.devRef .tc main_arg7) = W8 m ρ c (Proc.devRef .tc main_arg7) :=
  W9_of_ne m ρ c main_arg7 (by decide)
theorem step1_arg8 (c : Dev nD) : W1 m ρ c (Proc.devRef .tc main_arg8) = W0 m ρ c (Proc.devRef .tc main_arg8) := by
  carry_host
theorem step2_arg8 (c : Dev nD) : W2 m ρ c (Proc.devRef .tc main_arg8) = W1 m ρ c (Proc.devRef .tc main_arg8) :=
  W2_of_ne m ρ c main_arg8 (by decide)
theorem step3_arg8 (c : Dev nD) : W3 m ρ c (Proc.devRef .tc main_arg8) = W2 m ρ c (Proc.devRef .tc main_arg8) := by
  carry_host
theorem step4_arg8 (c : Dev nD) : W4 m ρ c (Proc.devRef .tc main_arg8) = W3 m ρ c (Proc.devRef .tc main_arg8) := by
  carry_host
theorem step5_arg8 (c : Dev nD) : W5 m ρ c (Proc.devRef .tc main_arg8) = W4 m ρ c (Proc.devRef .tc main_arg8) := by
  carry_host
theorem step6_arg8 (c : Dev nD) : W6 m ρ c (Proc.devRef .tc main_arg8) = W5 m ρ c (Proc.devRef .tc main_arg8) :=
  W6_of_ne m ρ c main_arg8 (by decide)
theorem step7_arg8 (c : Dev nD) : W7 m ρ c (Proc.devRef .tc main_arg8) = W6 m ρ c (Proc.devRef .tc main_arg8) := by
  carry_host
theorem step8_arg8 (c : Dev nD) : W8 m ρ c (Proc.devRef .tc main_arg8) = W7 m ρ c (Proc.devRef .tc main_arg8) :=
  W8_of_ne m ρ c main_arg8 (by decide)
theorem step9_arg8 (c : Dev nD) : W9 m ρ c (Proc.devRef .tc main_arg8) = W8 m ρ c (Proc.devRef .tc main_arg8) :=
  W9_of_ne m ρ c main_arg8 (by decide)
theorem step10_arg8 (c : Dev nD) : W10 m ρ c (Proc.devRef .tc main_arg8) = W9 m ρ c (Proc.devRef .tc main_arg8) := by
  carry_host
theorem step11_arg8 (c : Dev nD) : W11 m ρ c (Proc.devRef .tc main_arg8) = W10 m ρ c (Proc.devRef .tc main_arg8) := by
  carry_host
theorem step12_arg8 (c : Dev nD) : W12 m ρ c (Proc.devRef .tc main_arg8) = W11 m ρ c (Proc.devRef .tc main_arg8) := by
  carry_host
theorem step13_arg8 (c : Dev nD) : W13 m ρ c (Proc.devRef .tc main_arg8) = W12 m ρ c (Proc.devRef .tc main_arg8) :=
  W13_of_ne m ρ c main_arg8 (by decide)
theorem step1_arg9 (c : Dev nD) : W1 m ρ c (Proc.devRef .tc main_arg9) = W0 m ρ c (Proc.devRef .tc main_arg9) := by
  carry_host
theorem step2_arg9 (c : Dev nD) : W2 m ρ c (Proc.devRef .tc main_arg9) = W1 m ρ c (Proc.devRef .tc main_arg9) :=
  W2_of_ne m ρ c main_arg9 (by decide)
theorem step3_arg9 (c : Dev nD) : W3 m ρ c (Proc.devRef .tc main_arg9) = W2 m ρ c (Proc.devRef .tc main_arg9) := by
  carry_host
theorem step4_arg9 (c : Dev nD) : W4 m ρ c (Proc.devRef .tc main_arg9) = W3 m ρ c (Proc.devRef .tc main_arg9) := by
  carry_host
theorem step5_arg9 (c : Dev nD) : W5 m ρ c (Proc.devRef .tc main_arg9) = W4 m ρ c (Proc.devRef .tc main_arg9) := by
  carry_host
theorem step6_arg9 (c : Dev nD) : W6 m ρ c (Proc.devRef .tc main_arg9) = W5 m ρ c (Proc.devRef .tc main_arg9) :=
  W6_of_ne m ρ c main_arg9 (by decide)
theorem step7_arg9 (c : Dev nD) : W7 m ρ c (Proc.devRef .tc main_arg9) = W6 m ρ c (Proc.devRef .tc main_arg9) := by
  carry_host
theorem step8_arg9 (c : Dev nD) : W8 m ρ c (Proc.devRef .tc main_arg9) = W7 m ρ c (Proc.devRef .tc main_arg9) :=
  W8_of_ne m ρ c main_arg9 (by decide)
theorem step9_arg9 (c : Dev nD) : W9 m ρ c (Proc.devRef .tc main_arg9) = W8 m ρ c (Proc.devRef .tc main_arg9) :=
  W9_of_ne m ρ c main_arg9 (by decide)
theorem step10_arg9 (c : Dev nD) : W10 m ρ c (Proc.devRef .tc main_arg9) = W9 m ρ c (Proc.devRef .tc main_arg9) := by
  carry_host
theorem step11_arg9 (c : Dev nD) : W11 m ρ c (Proc.devRef .tc main_arg9) = W10 m ρ c (Proc.devRef .tc main_arg9) := by
  carry_host
theorem step12_arg9 (c : Dev nD) : W12 m ρ c (Proc.devRef .tc main_arg9) = W11 m ρ c (Proc.devRef .tc main_arg9) := by
  carry_host
theorem step13_arg9 (c : Dev nD) : W13 m ρ c (Proc.devRef .tc main_arg9) = W12 m ρ c (Proc.devRef .tc main_arg9) :=
  W13_of_ne m ρ c main_arg9 (by decide)
theorem step2_v1 (c : Dev nD) : W2 m ρ c (Proc.devRef .tc main_v1) = W1 m ρ c (Proc.devRef .tc main_v1) :=
  W2_of_ne m ρ c main_v1 (by decide)
theorem step3_v1 (c : Dev nD) : W3 m ρ c (Proc.devRef .tc main_v1) = W2 m ρ c (Proc.devRef .tc main_v1) := by
  carry_host
theorem step4_v1 (c : Dev nD) : W4 m ρ c (Proc.devRef .tc main_v1) = W3 m ρ c (Proc.devRef .tc main_v1) := by
  carry_host
theorem step5_v1 (c : Dev nD) : W5 m ρ c (Proc.devRef .tc main_v1) = W4 m ρ c (Proc.devRef .tc main_v1) := by
  carry_host
theorem step6_v1 (c : Dev nD) : W6 m ρ c (Proc.devRef .tc main_v1) = W5 m ρ c (Proc.devRef .tc main_v1) :=
  W6_of_ne m ρ c main_v1 (by decide)
theorem step7_v1 (c : Dev nD) : W7 m ρ c (Proc.devRef .tc main_v1) = W6 m ρ c (Proc.devRef .tc main_v1) := by
  carry_host
theorem step8_v1 (c : Dev nD) : W8 m ρ c (Proc.devRef .tc main_v1) = W7 m ρ c (Proc.devRef .tc main_v1) :=
  W8_of_ne m ρ c main_v1 (by decide)
theorem step9_v1 (c : Dev nD) : W9 m ρ c (Proc.devRef .tc main_v1) = W8 m ρ c (Proc.devRef .tc main_v1) :=
  W9_of_ne m ρ c main_v1 (by decide)
theorem step2_v3 (c : Dev nD) : W2 m ρ c (Proc.devRef .tc main_v3) = W1 m ρ c (Proc.devRef .tc main_v3) :=
  W2_of_ne m ρ c main_v3 (by decide)
theorem step3_v3 (c : Dev nD) : W3 m ρ c (Proc.devRef .tc main_v3) = W2 m ρ c (Proc.devRef .tc main_v3) := by
  carry_host
theorem step4_v3 (c : Dev nD) : W4 m ρ c (Proc.devRef .tc main_v3) = W3 m ρ c (Proc.devRef .tc main_v3) := by
  carry_host
theorem step5_v3 (c : Dev nD) : W5 m ρ c (Proc.devRef .tc main_v3) = W4 m ρ c (Proc.devRef .tc main_v3) := by
  carry_host
theorem step6_v3 (c : Dev nD) : W6 m ρ c (Proc.devRef .tc main_v3) = W5 m ρ c (Proc.devRef .tc main_v3) :=
  W6_of_ne m ρ c main_v3 (by decide)
theorem step7_v3 (c : Dev nD) : W7 m ρ c (Proc.devRef .tc main_v3) = W6 m ρ c (Proc.devRef .tc main_v3) := by
  carry_host
theorem step8_v3 (c : Dev nD) : W8 m ρ c (Proc.devRef .tc main_v3) = W7 m ρ c (Proc.devRef .tc main_v3) :=
  W8_of_ne m ρ c main_v3 (by decide)
theorem step9_v3 (c : Dev nD) : W9 m ρ c (Proc.devRef .tc main_v3) = W8 m ρ c (Proc.devRef .tc main_v3) :=
  W9_of_ne m ρ c main_v3 (by decide)
theorem step6_v47 (c : Dev nD) : W6 m ρ c (Proc.devRef .tc main_v47) = W5 m ρ c (Proc.devRef .tc main_v47) :=
  (W6_arr m ρ c 0).trans (((dat1 (V5 m ρ) c).arrAt_in 0 rfl _).trans (A_eq1 (V5 m ρ) c 0))
theorem step7_v47 (c : Dev nD) : W7 m ρ c (Proc.devRef .tc main_v47) = W6 m ρ c (Proc.devRef .tc main_v47) := by
  carry_host
theorem step13_v101 (c : Dev nD) : W13 m ρ c (Proc.devRef .tc main_v101) = W12 m ρ c (Proc.devRef .tc main_v101) :=
  (W13_arr m ρ c 0).trans (((dat4 (V12 m ρ) c).arrAt_in 0 rfl _).trans (A_eq4 (V12 m ρ) c 0))
theorem step14_v101 (c : Dev nD) : W14 m ρ c (Proc.devRef .tc main_v101) = W13 m ρ c (Proc.devRef .tc main_v101) := by
  carry_host

/-! ## The contents where the program reads them -/

theorem W1_arg0 (c : Dev nD) : W1 m ρ c (Proc.devRef .tc main_arg0) = m ((c : Thread nD τ).loc main_arg0) := step1_arg0 m ρ c
theorem W1_arg2 (c : Dev nD) : W1 m ρ c (Proc.devRef .tc main_arg2) = m ((c : Thread nD τ).loc main_arg2) := step1_arg2 m ρ c
theorem W2_arg3 (c : Dev nD) : W2 m ρ c (Proc.devRef .tc main_arg3) = m ((c : Thread nD τ).loc main_arg3) := (step2_arg3 m ρ c).trans (step1_arg3 m ρ c)
theorem W6_arg4 (c : Dev nD) : W6 m ρ c (Proc.devRef .tc main_arg4) = m ((c : Thread nD τ).loc main_arg4) := (((((step6_arg4 m ρ c).trans (step5_arg4 m ρ c)).trans (step4_arg4 m ρ c)).trans (step3_arg4 m ρ c)).trans (step2_arg4 m ρ c)).trans (step1_arg4 m ρ c)
theorem W6_arg5 (c : Dev nD) : W6 m ρ c (Proc.devRef .tc main_arg5) = m ((c : Thread nD τ).loc main_arg5) := (((((step6_arg5 m ρ c).trans (step5_arg5 m ρ c)).trans (step4_arg5 m ρ c)).trans (step3_arg5 m ρ c)).trans (step2_arg5 m ρ c)).trans (step1_arg5 m ρ c)
theorem W8_arg6 (c : Dev nD) : W8 m ρ c (Proc.devRef .tc main_arg6) = m ((c : Thread nD τ).loc main_arg6) := (((((((step8_arg6 m ρ c).trans (step7_arg6 m ρ c)).trans (step6_arg6 m ρ c)).trans (step5_arg6 m ρ c)).trans (step4_arg6 m ρ c)).trans (step3_arg6 m ρ c)).trans (step2_arg6 m ρ c)).trans (step1_arg6 m ρ c)
theorem W9_arg7 (c : Dev nD) : W9 m ρ c (Proc.devRef .tc main_arg7) = m ((c : Thread nD τ).loc main_arg7) := ((((((((step9_arg7 m ρ c).trans (step8_arg7 m ρ c)).trans (step7_arg7 m ρ c)).trans (step6_arg7 m ρ c)).trans (step5_arg7 m ρ c)).trans (step4_arg7 m ρ c)).trans (step3_arg7 m ρ c)).trans (step2_arg7 m ρ c)).trans (step1_arg7 m ρ c)
theorem W13_arg8 (c : Dev nD) : W13 m ρ c (Proc.devRef .tc main_arg8) = m ((c : Thread nD τ).loc main_arg8) := ((((((((((((step13_arg8 m ρ c).trans (step12_arg8 m ρ c)).trans (step11_arg8 m ρ c)).trans (step10_arg8 m ρ c)).trans (step9_arg8 m ρ c)).trans (step8_arg8 m ρ c)).trans (step7_arg8 m ρ c)).trans (step6_arg8 m ρ c)).trans (step5_arg8 m ρ c)).trans (step4_arg8 m ρ c)).trans (step3_arg8 m ρ c)).trans (step2_arg8 m ρ c)).trans (step1_arg8 m ρ c)
theorem W13_arg9 (c : Dev nD) : W13 m ρ c (Proc.devRef .tc main_arg9) = m ((c : Thread nD τ).loc main_arg9) := ((((((((((((step13_arg9 m ρ c).trans (step12_arg9 m ρ c)).trans (step11_arg9 m ρ c)).trans (step10_arg9 m ρ c)).trans (step9_arg9 m ρ c)).trans (step8_arg9 m ρ c)).trans (step7_arg9 m ρ c)).trans (step6_arg9 m ρ c)).trans (step5_arg9 m ρ c)).trans (step4_arg9 m ρ c)).trans (step3_arg9 m ρ c)).trans (step2_arg9 m ρ c)).trans (step1_arg9 m ρ c)
theorem W2_v1 (c : Dev nD) : W2 m ρ c (Proc.devRef .tc main_v1) = W1 m ρ c (Proc.devRef .tc main_v1) := step2_v1 m ρ c
theorem W2_v3 (c : Dev nD) : W2 m ρ c (Proc.devRef .tc main_v3) = W1 m ρ c (Proc.devRef .tc main_v3) := step2_v3 m ρ c
theorem W9_v1 (c : Dev nD) : W9 m ρ c (Proc.devRef .tc main_v1) = W1 m ρ c (Proc.devRef .tc main_v1) := (((((((step9_v1 m ρ c).trans (step8_v1 m ρ c)).trans (step7_v1 m ρ c)).trans (step6_v1 m ρ c)).trans (step5_v1 m ρ c)).trans (step4_v1 m ρ c)).trans (step3_v1 m ρ c)).trans (step2_v1 m ρ c)
theorem W9_v3 (c : Dev nD) : W9 m ρ c (Proc.devRef .tc main_v3) = W1 m ρ c (Proc.devRef .tc main_v3) := (((((((step9_v3 m ρ c).trans (step8_v3 m ρ c)).trans (step7_v3 m ρ c)).trans (step6_v3 m ρ c)).trans (step5_v3 m ρ c)).trans (step4_v3 m ρ c)).trans (step3_v3 m ρ c)).trans (step2_v3 m ρ c)
theorem W7_v47 (c : Dev nD) : W7 m ρ c (Proc.devRef .tc main_v47) = W5 m ρ c (Proc.devRef .tc main_v47) := (step7_v47 m ρ c).trans (step6_v47 m ρ c)
theorem W14_v101 (c : Dev nD) : W14 m ρ c (Proc.devRef .tc main_v101) = W12 m ρ c (Proc.devRef .tc main_v101) := (step14_v101 m ρ c).trans (step13_v101 m ρ c)

end Cert.KernelIdeal.Carry

end
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.LibTypedLit.lean ====
/-
  Typed references at a literal buffer: the transport is the identity.

  A typed reference made from a buffer at that buffer's own type carries the reflexive type equation, so moving a
  value to the buffer's type, or back, along it changes nothing.
-/
import Idealize.ShloMosaic.Lib.StableHlo

namespace Cert.LibTypedLit

open Idealize.ShloMosaic Idealize.ShloMosaic.StableHlo

/-- Contents of a buffer read at the buffer's own type through its typed reference are the contents. -/
theorem ofBuf_of {sig : RefSig} {Val : EltTy → Type} (r : Ref sig .tc) (h1) (h2) (v : r.ty.Contents Val) :
    (TRef.of (T := r.ty) r rfl h1 h2).ofBuf v = v := rfl

/-- A value of the buffer's own type moved to the buffer through its typed reference is the value. -/
theorem toBuf_of {sig : RefSig} {Val : EltTy → Type} (r : Ref sig .tc) (h1) (h2) (v : r.ty.Contents Val) :
    (TRef.of (T := r.ty) r rfl h1 h2).toBuf v = v := rfl

end Cert.LibTypedLit
-- ==== Proof.LibConcatPair.lean ====
/-
  A concatenate of two parts as a function of the two parts.

  The concatenate operation takes its parts as a list of arrays, each paired with its shape, and a side condition
  stated over that list's shapes. A statement about one part therefore cannot be rewritten in place: the side
  condition's type mentions the list. Read as a function of the two parts, with the side condition stated over the two
  shapes alone, the parts are ordinary arguments: a term that evaluates the buffers a program's operations write, one
  rewriting pass at a time, goes on through a concatenate's operands instead of stopping at it.
-/
import Idealize.ShloMosaic.PureOps

namespace Cert.LibConcatPair

open Idealize.ShloMosaic

/-- The concatenate of two parts along axis `a` of the result shape `t`, as a function of the parts. -/
def concat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A concatenate of a literal list of two parts is that function of them. -/
theorem concatenate_pair {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ h x₁ x₂ := rfl

end Cert.LibConcatPair
-- ==== Proof.KStageLin.lean ====
/-
  The two dense layers and the two closing slices of the kernel program are the reference's stages.

  A dense layer of the kernel program is a launch whose result array ends as the matrix product of the two arrays it
  finds: entry (p, q) is the sum over k of left (p, k) * weight (k, q). The reference computes the same layer on the
  host as a contraction of the second axis of the left operand against the first axis of the weights, which at the
  exact values is the same sum, term by term. The first layer finds the features and the first weights as launched; the
  second finds the normalized activations of the first layer and the second weights as launched. At the end both
  programs cut the last activations into rows 0 … 1926 and rows 1927 … 99999 by the same two slices.
-/
import proofs.«149487_j20229295964576_1_alg».proof.Proof.Gen.KernelIdeal.Frame
import proofs.«149487_j20229295964576_1_alg».proof.Proof.LinValue
import proofs.«149487_j20229295964576_1_alg».proof.Proof.Carry
import proofs.«149487_j20229295964576_1_alg».proof.Proof.RefStages
import proofs.«149487_j20229295964576_1_alg».proof.Proof.LibTyped
import proofs.«149487_j20229295964576_1_alg».proof.Proof.LibTypedLit
import proofs.«149487_j20229295964576_1_alg».proof.Proof.LibConcatPair
import Idealize.ShloMosaic.Lib.StableHlo.Run
import Idealize.ShloMosaic.Lib.ValueIdx

set_option maxRecDepth 16384

noncomputable section

namespace Cert.KernelIdeal.StageLin

open Cert.KernelIdeal Cert.KernelIdeal.Gen Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (ρ : Dev nD → PrngReg)

/-- The contents a stretch of host operations leaves at a buffer, computed in one rewriting pass: each operation's result
    at its own buffer is its function of its operands' contents, any other buffer keeps what it held; a concatenate of
    two parts is read as a function of the parts so that the pass goes on inside it, and a value moved to a called
    function's typed reference and back is itself. -/
local macro "host_results" : tactic =>
  `(tactic| (simp (disch := decide) only [StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne', Cert.LibConcatPair.concatenate_pair, Cert.LibTypedLit.ofBuf_of, Cert.LibTypedLit.toBuf_of,
      Cert.LibTyped.ofBuf_toBuf, Cert.LibTyped.toBuf_ofBuf]))

/-! ## The first dense layer -/

/-- The matrix product [100000, 128] · [128, 128], entry by entry, is the host's contraction of the same operands. -/
theorem prod0_eq (A : S100000x128.Idx → EReal) (B : S128x128.Idx → EReal) :
    LinValue.prod0 A B = Cert.ReferenceIdeal.ReadP.val_main_v4 (F := Ideal) A B := by
  funext i
  rw [Cert.ReferenceIdeal.ReadP.val_main_v4_apply]
  unfold LinValue.prod0
  refine Finset.sum_congr rfl fun k _ => ?_
  have el : (ix2 ⟨(i 0).val, (i 0).isLt⟩ k : S100000x128.Idx) = Cert.ReferenceIdeal.ReadP.lidx_main_v4 i k :=
    funext fun a => Fin.ext (by match a with | ⟨0, _⟩ => rfl | ⟨1, _⟩ => rfl)
  have er : (ix2 k ⟨(i 1).val, (i 1).isLt⟩ : S128x128.Idx) = Cert.ReferenceIdeal.ReadP.ridx_main_v4 i k :=
    funext fun a => Fin.ext (by match a with | ⟨0, _⟩ => rfl | ⟨1, _⟩ => rfl)
  exact congrArg₂ (· * ·) (congrArg A el) (congrArg B er)

/-- After the first launch the layer's result array holds the reference's product of the features by the first weights. -/
theorem W2_v4 (c : Dev nD) :
    W2 m ρ c (Proc.devRef .tc main_v4) = Cert.ReferenceIdeal.ReadP.val_main_v4 (F := Ideal) (m ((c : Thread nD τ).loc main_arg0)) (m ((c : Thread nD τ).loc main_arg2)) := by
  refine (W2_arr m ρ c 2).trans ?_
  rw [LinValue.final0 (V1 m ρ) c]
  show LinValue.prod0 (W1 m ρ c (Proc.devRef .tc main_arg0)) (W1 m ρ c (Proc.devRef .tc main_arg2)) = _
  rw [Carry.W1_arg0, Carry.W1_arg2]
  exact prod0_eq _ _

/-! ## The second dense layer -/

/-- The matrix product [100000, 128] · [128, 64], entry by entry, is the host's contraction of the same operands. -/
theorem prod3_eq (A : S100000x128.Idx → EReal) (B : S128x64.Idx → EReal) (i : S100000x64.Idx) :
    LinValue.prod3 A B i = ∑ k : Fin 128, A (Cert.ReferenceIdeal.ReadP.lidx_main_v74 i k) * B (Cert.ReferenceIdeal.ReadP.ridx_main_v74 i k) := by
  unfold LinValue.prod3
  refine Finset.sum_congr rfl fun k _ => ?_
  have el : (ix2 ⟨(i 0).val, (i 0).isLt⟩ k : S100000x128.Idx) = Cert.ReferenceIdeal.ReadP.lidx_main_v74 i k :=
    funext fun a => Fin.ext (by match a with | ⟨0, _⟩ => rfl | ⟨1, _⟩ => rfl)
  have er : (ix2 k ⟨(i 1).val, (i 1).isLt⟩ : S128x64.Idx) = Cert.ReferenceIdeal.ReadP.ridx_main_v74 i k :=
    funext fun a => Fin.ext (by match a with | ⟨0, _⟩ => rfl | ⟨1, _⟩ => rfl)
  exact congrArg₂ (· * ·) (congrArg A el) (congrArg B er)

/-- After the second dense launch its result array holds the reference's product of the first layer's normalized
    activations by the second weights, whenever the launch finds those activations at the reference's. -/
theorem W9_v58 (c : Dev nD)
    (h57 : W8 m ρ c (Proc.devRef .tc main_v57) = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    W9 m ρ c (Proc.devRef .tc main_v58) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ?_
  rw [LinValue.final3 (V8 m ρ) c]
  show LinValue.prod3 (W8 m ρ c (Proc.devRef .tc main_v57)) (W8 m ρ c (Proc.devRef .tc main_arg6)) = _
  rw [h57, Carry.W8_arg6]
  funext i
  rw [Cert.ReferenceIdeal.ReadP.val_main_v74_apply]
  exact prod3_eq _ _ i

/-! ## The closing slices -/

/-- The first result: rows 0 … 1926 of the last activations. -/
theorem W16_v112 (c : Dev nD)
    (h111 : W15 m ρ c (Proc.devRef .tc main_v111) = Cert.ReferenceIdeal.ReadP.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W16 m ρ c (Proc.devRef .tc main_v112) = Cert.ReferenceIdeal.ReadP.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps6 (W15 m ρ c) (Proc.devRef .tc main_v112) = _
  host_results
  rw [h111]
  rfl

/-- The second result: rows 1927 … 99999 of the last activations. -/
theorem W16_v113 (c : Dev nD)
    (h111 : W15 m ρ c (Proc.devRef .tc main_v111) = Cert.ReferenceIdeal.ReadP.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W16 m ρ c (Proc.devRef .tc main_v113) = Cert.ReferenceIdeal.ReadP.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps6 (W15 m ρ c) (Proc.devRef .tc main_v113) = _
  host_results
  rw [h111]
  rfl

end Cert.KernelIdeal.StageLin

end
-- ==== Proof.HostAgg.lean ====
/-
  The graph convolution's host operations of the kernel program are the reference's.

  Between the dense layer's launch and the statistics launch the kernel program runs, on the host, the same operations
  as the reference: it appends the self loops to the two halves of the edge list, counts each node's incoming edges,
  takes the guarded inverse square root of the counts, gathers the dense layer's rows along the sources, scales them by
  the two ends' weights, adds them up at the destinations and adds the bias. So whenever the dense layer's output is
  the reference's product, the activations entering the normalization are the reference's.
-/
import proofs.«149487_j20229295964576_1_alg».proof.Proof.Gen.KernelIdeal.Frame
import proofs.«149487_j20229295964576_1_alg».proof.Proof.Carry
import proofs.«149487_j20229295964576_1_alg».proof.Proof.RefStages
import proofs.«149487_j20229295964576_1_alg».proof.Proof.LibTyped
import proofs.«149487_j20229295964576_1_alg».proof.Proof.LibTypedLit
import proofs.«149487_j20229295964576_1_alg».proof.Proof.LibConcatPair
import Idealize.ShloMosaic.Lib.StableHlo.Run
import Idealize.ShloMosaic.Lib.ValueIdx
import Idealize.ShloMosaic.Lib.ValueLayout

set_option maxRecDepth 16384

noncomputable section

namespace Cert.KernelIdeal.HostAgg

open Cert.KernelIdeal Cert.KernelIdeal.Gen Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (ρ : Dev nD → PrngReg)

/-- The contents a stretch of host operations leaves at a buffer, computed in one rewriting pass: each operation's result
    at its own buffer is its function of its operands' contents, any other buffer keeps what it held; a concatenate of
    two parts is read as a function of the parts so that the pass goes on inside it, and a value moved to a called
    function's typed reference and back is itself. -/
macro "host_results" : tactic =>
  `(tactic| (simp (disch := decide) only [StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne', Cert.LibConcatPair.concatenate_pair, Cert.LibTypedLit.ofBuf_of, Cert.LibTypedLit.toBuf_of,
      Cert.LibTyped.ofBuf_toBuf, Cert.LibTyped.toBuf_ofBuf]))

/-- The first half of the edge list (the sources), cut out of the edge array before the first launch. -/
theorem W1_v1 (c : Dev nD) : W1 m ρ c (Proc.devRef .tc main_v1) = Cert.ReferenceIdeal.ReadP.val_main_v1 (F := Ideal) (m ((c : Thread nD τ).loc main_arg1)) := by
  show StableHlo.after hostOps0 (W0 m ρ c) (Proc.devRef .tc main_v1) = _
  host_results
  rfl

/-- The second half of the edge list (the destinations). -/
theorem W1_v3 (c : Dev nD) : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  host_results
  rfl

set_option maxRecDepth 1000000 in
set_option maxHeartbeats 4000000 in
/-- The first layer's aggregation: from the product of the features by the first weights to the activations entering
    the first normalization. -/
theorem W5_v47 (c : Dev nD)
    (h4 : W2 m ρ c (Proc.devRef .tc main_v4) = Cert.ReferenceIdeal.ReadP.val_main_v4 (F := Ideal) (m ((c : Thread nD τ).loc main_arg0)) (m ((c : Thread nD τ).loc main_arg2))) :
    W5 m ρ c (Proc.devRef .tc main_v47) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  show StableHlo.after hostOps1_2 (StableHlo.after hostOps1_1 (StableHlo.after hostOps1 (W2 m ρ c))) (Proc.devRef .tc main_v47) = _
  host_results
  rw [h4, Carry.W2_v1, Carry.W2_v3, W1_v1, W1_v3, Carry.W2_arg3]
  rw [Cert.LibTypedLit.ofBuf_of main_v13, Cert.LibTypedLit.ofBuf_of main_v14, Cert.LibTypedLit.ofBuf_of main_v15, Cert.LibTypedLit.toBuf_of main_v16]
  rfl

set_option maxRecDepth 1000000 in
set_option maxHeartbeats 4000000 in
/-- The second layer's aggregation: from the product of the normalized activations by the second weights to the
    activations entering the second normalization. -/
theorem W12_v101 (c : Dev nD)
    (h58 : W9 m ρ c (Proc.devRef .tc main_v58) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W12 m ρ c (Proc.devRef .tc main_v101) = Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps4_2 (StableHlo.after hostOps4_1 (StableHlo.after hostOps4 (W9 m ρ c))) (Proc.devRef .tc main_v101) = _
  host_results
  rw [h58, Carry.W9_v1, Carry.W9_v3, W1_v1, W1_v3, Carry.W9_arg7]
  rw [Cert.LibTypedLit.ofBuf_of main_v67, Cert.LibTypedLit.ofBuf_of main_v68, Cert.LibTypedLit.ofBuf_of main_v69, Cert.LibTypedLit.toBuf_of main_v70]
  rfl

end Cert.KernelIdeal.HostAgg

end
-- ==== Proof.ApplyValue.lean ====
/-
  The two normalization launches of the kernel program, read as whole arrays.

  A launch walks twenty blocks of 5000 rows of its first operand; the other four operands are single rows (the column
  means, the column variances, the scales and the shifts), the same at every point. At each point the body subtracts
  the mean row from the block, multiplies by the inverse square root of the variance row plus the stabilizer, by the
  scale row, adds the shift row (and, in the first layer, takes the maximum with zero), and writes the block back as
  the same rows of the result. Every entry depends only on its own entry of the first operand and on its column of the
  four rows, so the blocks are restrictions of ONE entrywise function of the whole arrays, and the twenty blocks tile
  the rows.
-/
import proofs.«149487_j20229295964576_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.ApplyValue

open Cert.KernelIdeal Cert.KernelIdeal.Gen Idealize.ShloMosaic Idealize.ShloMosaic.TcCoe Idealize.ShloMosaic.ValueIdx
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The first layer, with the rectifier -/

/-- What the normalization kernel leaves at entry i: the entry less the column's mean, times the inverse square root of
    the column's variance plus the stabilizer, times the column's scale, plus the column's shift, then the rectifier. -/
def apply2 (H : S100000x128.Idx → EReal) (Mn Vr Ga Be : S1x128.Idx → EReal) : S100000x128.Idx → EReal :=
  fun i => max (((H i - Mn (ix2 (0 : Fin 1) ⟨(i 1).val, (i 1).isLt⟩)) * Ideal.rsqrt (Vr (ix2 (0 : Fin 1) ⟨(i 1).val, (i 1).isLt⟩) + Ideal.ofBits .f32 0x3727C5AC#32))
      * Ga (ix2 (0 : Fin 1) ⟨(i 1).val, (i 1).isLt⟩) + Be (ix2 (0 : Fin 1) ⟨(i 1).val, (i 1).isLt⟩)) (Ideal.ofBits .f32 0x00000000#32)

/-- The body's result at row r of the block and column q. -/
theorem pay2_apply (x0 : Vec Ideal S5000x128 .f32) (x1 x2 x3 x4 : Vec Ideal S1x128 .f32) (r : Fin 5000) (q : Fin 128) :
    k2_pay1 (F := Ideal) x0 x1 x2 x3 x4 (ix2 r q)
      = max (((x0 (ix2 r q) - x1 (ix2 (0 : Fin 1) q)) * Ideal.rsqrt (x2 (ix2 (0 : Fin 1) q) + Ideal.ofBits .f32 0x3727C5AC#32))
          * x3 (ix2 (0 : Fin 1) q) + x4 (ix2 (0 : Fin 1) q)) (Ideal.ofBits .f32 0x00000000#32) := by
  unfold k2_pay1
  simp only [shapeCast_self, maximumf_apply, addf_apply, mulf_apply, subf_apply, broadcastTo_1b_ab_apply, broadcast_apply]
  rfl

/-- A block of rows normalized is the same rows of the whole array normalized. -/
theorem pay2_block (H : S100000x128.Idx → EReal) (Mn Vr Ga Be : S1x128.Idx → EReal) (x0 : Vec Ideal S5000x128 .f32) (x1 x2 x3 x4 : Vec Ideal S1x128 .f32)
    (tt : ℕ) (htt : tt < 20) (h0 : ∀ (r : Fin 5000) (q : Fin 128), x0 (ix2 r q) = H (ix2 ⟨tt * 5000 + r.val, by have := r.isLt; omega⟩ q))
    (h1 : ∀ q : Fin 128, x1 (ix2 (0 : Fin 1) q) = Mn (ix2 (0 : Fin 1) q)) (h2 : ∀ q : Fin 128, x2 (ix2 (0 : Fin 1) q) = Vr (ix2 (0 : Fin 1) q))
    (h3 : ∀ q : Fin 128, x3 (ix2 (0 : Fin 1) q) = Ga (ix2 (0 : Fin 1) q)) (h4 : ∀ q : Fin 128, x4 (ix2 (0 : Fin 1) q) = Be (ix2 (0 : Fin 1) q))
    (j : S5000x128.Idx) (i : S100000x128.Idx) (hi0 : (i 0).val = tt * 5000 + (j 0).val) (hi1 : (i 1).val = (j 1).val) :
    k2_pay1 (F := Ideal) x0 x1 x2 x3 x4 j = apply2 H Mn Vr Ga Be i := by
  obtain ⟨r, q, rfl⟩ : ∃ (r : Fin 5000) (q : Fin 128), j = ix2 r q := ⟨j 0, j 1, eq_ix2 j⟩
  have ei : i = ix2 ⟨tt * 5000 + r.val, by have := r.isLt; omega⟩ q := by
    funext a
    match a with
    | ⟨0, _⟩ => exact Fin.ext hi0
    | ⟨1, _⟩ => exact Fin.ext hi1
  rw [ei, pay2_apply, h0, h1, h2, h3, h4]
  rfl

set_option maxHeartbeats 2000000 in
/-- Where the six windows' blocks sit at point t: the row blocks at block row t, the four rows whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 4000000 in
/-- What point t writes back is block t of the normalized array. -/
theorem flushed2 (c : Dev nD) (t : Fin cfg2.N) :
    (dat2 (F := Ideal) V c).flushed 5 t
      = ((cfg2.win 5).blk t).view.read (Elt Ideal) (apply2 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  obtain ⟨e0, e1, e2, e3, e4, e5, e6, e7, e8, e9, e10, e11⟩ := idx_facts2 t
  have hN : t.val < 20 := by have h := t.isLt; have hN : grid2.N = 20 := N_2; exact hN ▸ h
  funext j
  refine pay2_block (V c (Pipeline.arrRef spec2 0)) (V c (Pipeline.arrRef spec2 1)) (V c (Pipeline.arrRef spec2 2)) (V c (Pipeline.arrRef spec2 3)) (V c (Pipeline.arrRef spec2 4)) _ _ _ _ _ t.val hN
    (fun r q => ?_) (fun q => ?_) (fun q => ?_) (fun q => ?_) (fun q => ?_) j _ ?_ ?_
  · show V c (Pipeline.arrRef spec2 0) (((cfg2.win 0).blk t).view.emb (ix2 r q)) = _
    refine congrArg _ (funext fun a => Fin.ext ?_)
    match a with
    | ⟨0, _⟩ => show win2_0.index t (0 : Fin 2) * 5000 + 1 * r.val = t.val * 5000 + r.val; omega
    | ⟨1, _⟩ => show win2_0.index t (1 : Fin 2) * 128 + 1 * q.val = q.val; omega
  · show V c (Pipeline.arrRef spec2 1) (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  · show V c (Pipeline.arrRef spec2 2) (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  · show V c (Pipeline.arrRef spec2 3) (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · show V c (Pipeline.arrRef spec2 4) (((cfg2.win 4).blk t).view.emb (ix2 (0 : Fin 1) q)) = _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  · show win2_5.index t (0 : Fin 2) * 5000 + 1 * (j 0).val = t.val * 5000 + (j 0).val; omega
  · show win2_5.index t (1 : Fin 2) * 128 + 1 * (j 1).val = (j 1).val; omega

/-- An index of the result is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v57).slice (win2_5.rect t)).set ↔ _
  rw [View.set_slice_whole, Rect.mem_set_unit]
  exact Iff.rfl

/-- The twenty blocks of 5000 rows tile the 100000 rows: row r is in block r / 5000. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  have ht : (i 0).val / 5000 < cfg2.N := by show (i 0).val / 5000 < grid2.N; omega
  refine ⟨⟨(i 0).val / 5000, ht⟩, flush2_5 _, ?_⟩
  rw [mem_blk2]
  obtain ⟨e0, e1, e2, e3, e4, e5, e6, e7, e8, e9, e10, e11⟩ := idx_facts2 ⟨(i 0).val / 5000, ht⟩
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    have : (⟨(i 0).val / 5000, ht⟩ : Fin cfg2.N).val = (i 0).val / 5000 := rfl
    omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    omega

/-- The result array after the launch is the normalized array of the arrays the launch finds. -/
theorem final2 (c : Dev nD) :
    (dat2 (F := Ideal) V c).arrAt 5 cfg2.N = apply2 (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed2 V c t) cover2

/-! ## The second layer -/

/-- What the normalization kernel leaves at entry i: the entry less the column's mean, times the inverse square root of
    the column's variance plus the stabilizer, times the column's scale, plus the column's shift. -/
def apply5 (H : S100000x64.Idx → EReal) (Mn Vr Ga Be : S1x64.Idx → EReal) : S100000x64.Idx → EReal :=
  fun i => ((H i - Mn (ix2 (0 : Fin 1) ⟨(i 1).val, (i 1).isLt⟩)) * Ideal.rsqrt (Vr (ix2 (0 : Fin 1) ⟨(i 1).val, (i 1).isLt⟩) + Ideal.ofBits .f32 0x3727C5AC#32))
      * Ga (ix2 (0 : Fin 1) ⟨(i 1).val, (i 1).isLt⟩) + Be (ix2 (0 : Fin 1) ⟨(i 1).val, (i 1).isLt⟩)

/-- The body's result at row r of the block and column q. -/
theorem pay5_apply (x0 : Vec Ideal S5000x64 .f32) (x1 x2 x3 x4 : Vec Ideal S1x64 .f32) (r : Fin 5000) (q : Fin 64) :
    k5_pay1 (F := Ideal) x0 x1 x2 x3 x4 (ix2 r q)
      = ((x0 (ix2 r q) - x1 (ix2 (0 : Fin 1) q)) * Ideal.rsqrt (x2 (ix2 (0 : Fin 1) q) + Ideal.ofBits .f32 0x3727C5AC#32))
          * x3 (ix2 (0 : Fin 1) q) + x4 (ix2 (0 : Fin 1) q) := by
  unfold k5_pay1
  simp only [shapeCast_self, maximumf_apply, addf_apply, mulf_apply, subf_apply, broadcastTo_1b_ab_apply, broadcast_apply]
  rfl

/-- A block of rows normalized is the same rows of the whole array normalized. -/
theorem pay5_block (H : S100000x64.Idx → EReal) (Mn Vr Ga Be : S1x64.Idx → EReal) (x0 : Vec Ideal S5000x64 .f32) (x1 x2 x3 x4 : Vec Ideal S1x64 .f32)
    (tt : ℕ) (htt : tt < 20) (h0 : ∀ (r : Fin 5000) (q : Fin 64), x0 (ix2 r q) = H (ix2 ⟨tt * 5000 + r.val, by have := r.isLt; omega⟩ q))
    (h1 : ∀ q : Fin 64, x1 (ix2 (0 : Fin 1) q) = Mn (ix2 (0 : Fin 1) q)) (h2 : ∀ q : Fin 64, x2 (ix2 (0 : Fin 1) q) = Vr (ix2 (0 : Fin 1) q))
    (h3 : ∀ q : Fin 64, x3 (ix2 (0 : Fin 1) q) = Ga (ix2 (0 : Fin 1) q)) (h4 : ∀ q : Fin 64, x4 (ix2 (0 : Fin 1) q) = Be (ix2 (0 : Fin 1) q))
    (j : S5000x64.Idx) (i : S100000x64.Idx) (hi0 : (i 0).val = tt * 5000 + (j 0).val) (hi1 : (i 1).val = (j 1).val) :
    k5_pay1 (F := Ideal) x0 x1 x2 x3 x4 j = apply5 H Mn Vr Ga Be i := by
  obtain ⟨r, q, rfl⟩ : ∃ (r : Fin 5000) (q : Fin 64), j = ix2 r q := ⟨j 0, j 1, eq_ix2 j⟩
  have ei : i = ix2 ⟨tt * 5000 + r.val, by have := r.isLt; omega⟩ q := by
    funext a
    match a with
    | ⟨0, _⟩ => exact Fin.ext hi0
    | ⟨1, _⟩ => exact Fin.ext hi1
  rw [ei, pay5_apply, h0, h1, h2, h3, h4]
  rfl

set_option maxHeartbeats 2000000 in
/-- Where the six windows' blocks sit at point t: the row blocks at block row t, the four rows whole. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

set_option maxHeartbeats 4000000 in
/-- What point t writes back is block t of the normalized array. -/
theorem flushed5 (c : Dev nD) (t : Fin cfg5.N) :
    (dat5 (F := Ideal) V c).flushed 5 t
      = ((cfg5.win 5).blk t).view.read (Elt Ideal) (apply5 (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S5000x64) hz, View.ld_unit_zero (S := S1x64) hz]
  obtain ⟨e0, e1, e2, e3, e4, e5, e6, e7, e8, e9, e10, e11⟩ := idx_facts5 t
  have hN : t.val < 20 := by have h := t.isLt; have hN : grid5.N = 20 := N_5; exact hN ▸ h
  funext j
  refine pay5_block (V c (Pipeline.arrRef spec5 0)) (V c (Pipeline.arrRef spec5 1)) (V c (Pipeline.arrRef spec5 2)) (V c (Pipeline.arrRef spec5 3)) (V c (Pipeline.arrRef spec5 4)) _ _ _ _ _ t.val hN
    (fun r q => ?_) (fun q => ?_) (fun q => ?_) (fun q => ?_) (fun q => ?_) j _ ?_ ?_
  · show V c (Pipeline.arrRef spec5 0) (((cfg5.win 0).blk t).view.emb (ix2 r q)) = _
    refine congrArg _ (funext fun a => Fin.ext ?_)
    match a with
    | ⟨0, _⟩ => show win5_0.index t (0 : Fin 2) * 5000 + 1 * r.val = t.val * 5000 + r.val; omega
    | ⟨1, _⟩ => show win5_0.index t (1 : Fin 2) * 64 + 1 * q.val = q.val; omega
  · show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  · show V c (Pipeline.arrRef spec5 2) (((cfg5.win 2).blk t).view.emb (ix2 (0 : Fin 1) q)) = _
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * q.val = q.val; omega
  · show V c (Pipeline.arrRef spec5 3) (((cfg5.win 3).blk t).view.emb (ix2 (0 : Fin 1) q)) = _
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * q.val = q.val; omega
  · show V c (Pipeline.arrRef spec5 4) (((cfg5.win 4).blk t).view.emb (ix2 (0 : Fin 1) q)) = _
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * q.val = q.val; omega
  · show win5_5.index t (0 : Fin 2) * 5000 + 1 * (j 0).val = t.val * 5000 + (j 0).val; omega
  · show win5_5.index t (1 : Fin 2) * 64 + 1 * (j 1).val = (j 1).val; omega

/-- An index of the result is in point t's block iff each coordinate is in the block's range on its axis. -/
theorem mem_blk5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v111).slice (win5_5.rect t)).set ↔ _
  rw [View.set_slice_whole, Rect.mem_set_unit]
  exact Iff.rfl

/-- The twenty blocks of 5000 rows tile the 100000 rows: row r is in block r / 5000. -/
theorem cover5 (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  have hN : grid5.N = 20 := N_5
  have ht : (i 0).val / 5000 < cfg5.N := by show (i 0).val / 5000 < grid5.N; omega
  refine ⟨⟨(i 0).val / 5000, ht⟩, flush5_5 _, ?_⟩
  rw [mem_blk5]
  obtain ⟨e0, e1, e2, e3, e4, e5, e6, e7, e8, e9, e10, e11⟩ := idx_facts5 ⟨(i 0).val / 5000, ht⟩
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    have : (⟨(i 0).val / 5000, ht⟩ : Fin cfg5.N).val = (i 0).val / 5000 := rfl
    omega
  | ⟨1, _⟩ =>
    show win5_5.index ⟨(i 0).val / 5000, ht⟩ (1 : Fin 2) * 64 ≤ (i 1).val ∧ (i 1).val < win5_5.index ⟨(i 0).val / 5000, ht⟩ (1 : Fin 2) * 64 + 64
    omega

/-- The result array after the launch is the normalized array of the arrays the launch finds. -/
theorem final5 (c : Dev nD) :
    (dat5 (F := Ideal) V c).arrAt 5 cfg5.N = apply5 (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 _ (fun t _ => flushed5 V c t) cover5

end Cert.KernelIdeal.ApplyValue

end
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.StatsValue.lean ====
/-
  What the two column-statistics kernels leave in their output arrays, at the exact (extended-real) values.

  Each kernel walks an array h of 100000 rows in 20 blocks of 5000 rows. Its two outputs are one-row arrays that
  stay in place from block to block: at the first block they are set to zero, and at every block the first output
  gains, in each column, the sum of the block's entries in that column, and the second the sum of their squares.
  On the extended reals addition is commutative and associative, so after the last block the first output holds in
  column q the sum over all 100000 rows p of h(p, q), and the second the sum of h(p, q) * h(p, q).

  The proof reads what one block's step leaves (the old entry plus the block's column sum), follows the running
  contents through the 20 blocks by induction, reads a block's entry (s, q) as the array's entry (5000 t + s, q),
  regroups the 20 stretches of 5000 rows into the 100000 rows, and reads the output array after its single
  write-back at the last block. The same is done at the two widths, 128 and 64 columns.
-/
import proofs.«149487_j20229295964576_1_alg».proof.Proof.Gen.KernelIdeal.Frame
import proofs.«149487_j20229295964576_1_alg».proof.Proof.LibCols
import proofs.«149487_j20229295964576_1_alg».proof.Proof.LibBlocks
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open scoped BigOperators

namespace Cert.KernelIdeal.StatsValue

open Cert.KernelIdeal Cert.KernelIdeal.Gen Idealize.ShloMosaic.ValueIdx

/-- The zero offsets of a rank-2 block, as a constant function. -/
theorem hz : (![0, 0] : Fin 2 → Nat) = fun _ => 0 := funext fun a => by fin_cases a <;> rfl

/-! ## One step of the running sums, at any width -/

/-- A vector of b entries cast to the one-row array [1, b] keeps entry q at (0, q). -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- The running column sums after one more block: at column q, the old entry plus the sum of the block's column q. -/
theorem sumStep_apply {a b : ℕ} (x : FVec Ideal ⟨2, ![a, b]⟩ .f32) (v : FVec Ideal ⟨2, ![1, b]⟩ .f32)
    (hx : (⟨2, ![a, b]⟩ : Shape).ShapeCasts ⟨2, ![a, b]⟩) (hv : (⟨2, ![1, b]⟩ : Shape).ShapeCasts ⟨2, ![1, b]⟩)
    (hr : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (q : Fin b) :
    addf (shapeCast ⟨2, ![1, b]⟩ v hv)
        (shapeCast ⟨2, ![1, b]⟩ (multiReduction .add [0] ⟨1, ![b]⟩ (shapeCast ⟨2, ![a, b]⟩ x hx) 0x00000000#32 hr hφ hacc) hc) (ix2 u q)
      = v (ix2 u q) + ∑ s : Fin a, x (ix2 s q) := by
  rw [addf_apply, shapeCast_self, shapeCast_self, shapeCast_b_1b_apply, colSum_apply]

/-- The running column sums of squares after one more block. -/
theorem sumsqStep_apply {a b : ℕ} (x : FVec Ideal ⟨2, ![a, b]⟩ .f32) (v : FVec Ideal ⟨2, ![1, b]⟩ .f32)
    (hx : (⟨2, ![a, b]⟩ : Shape).ShapeCasts ⟨2, ![a, b]⟩) (hv : (⟨2, ![1, b]⟩ : Shape).ShapeCasts ⟨2, ![1, b]⟩)
    (hr : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (q : Fin b) :
    addf (shapeCast ⟨2, ![1, b]⟩ v hv)
        (shapeCast ⟨2, ![1, b]⟩ (multiReduction .add [0] ⟨1, ![b]⟩
          (mulf (shapeCast ⟨2, ![a, b]⟩ x hx) (shapeCast ⟨2, ![a, b]⟩ x hx)) 0x00000000#32 hr hφ hacc) hc) (ix2 u q)
      = v (ix2 u q) + ∑ s : Fin a, x (ix2 s q) * x (ix2 s q) := by
  rw [addf_apply, shapeCast_self, shapeCast_self, shapeCast_b_1b_apply, colSum_apply]
  rfl

/-! ## The kernel at 128 columns -/

section Pieces
variable {F : FTy → Type} [FloatOps F]

/-- Points 1 … 19, first output: the one covering store's payload over the block and the running contents. -/
theorem out1_B_1_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (xo1 xo2 : Vec F S1x128 .f32) :
    out1_B_1 c i a1 h1 a2 h2 a3 h3 hc x0 xo1 xo2 = k1_pay4 x0 xo1 := by
  unfold out1_B_1
  rw [View.read_writes_eq_canon _ _ _ (cover1_B_1 c i a1 h1 a2 h2 a3 h3 hc x0 xo1 xo2)]
  unfold kernelRun1_B
  dsimp only
  rw [View.canon_unit_zero hz]
  simp only [View.readAt_eq_ld, h1.read_unread, h2.read_unread, View.ld_unit_zero (S := S5000x128) hz,
    View.ld_unit_zero (S := S1x128) hz]

/-- Points 1 … 19, second output. -/
theorem out1_B_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (xo1 xo2 : Vec F S1x128 .f32) :
    out1_B_2 c i a1 h1 a2 h2 a3 h3 hc x0 xo1 xo2 = k1_pay5 x0 xo2 := by
  unfold out1_B_2
  rw [View.read_writes_eq_canon _ _ _ (cover1_B_2 c i a1 h1 a2 h2 a3 h3 hc x0 xo1 xo2)]
  unfold kernelRun1_B
  dsimp only
  rw [View.canon_unit_zero hz]
  simp only [View.readAt_eq_ld, h1.read_unread, h3.read_unread, View.ld_unit_zero (S := S5000x128) hz,
    View.ld_unit_zero (S := S1x128) hz]

/-- Point 0, first output: the zeros are stored, read back, and the block's column sums added. -/
theorem out1_A_1_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) :
    out1_A_1 c i a1 h1 a2 h2 a3 h3 hc x0 = k1_pay4 x0 k1_pay1 := by
  unfold out1_A_1
  rw [View.read_writes_eq_canon _ _ _ (cover1_A_1 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- Point 0, second output. -/
theorem out1_A_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) :
    out1_A_2 c i a1 h1 a2 h2 a3 h3 hc x0 = k1_pay5 x0 k1_pay2 := by
  unfold out1_A_2
  rw [View.read_writes_eq_canon _ _ _ (cover1_A_2 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces

section Value

variable (V : (c : Dev nD) → (b : Ref sig .tc) → Buf (Elt Ideal) ((c : Thread nD τ).loc b))

/-- The stored zero block reads 0 at every entry. -/
theorem k1_pay1_apply (j : S1x128.Idx) : k1_pay1 (F := Ideal) j = 0 := Ideal.ofBits_zero_f32
theorem k1_pay2_apply (j : S1x128.Idx) : k1_pay2 (F := Ideal) j = 0 := Ideal.ofBits_zero_f32

/-- The first output's payload at column q: the old entry plus the block's column sum. -/
theorem k1_pay4_apply (x : Vec Ideal S5000x128 .f32) (v : Vec Ideal S1x128 .f32) (u : Fin 1) (q : Fin 128) :
    k1_pay4 x v (ix2 u q) = v (ix2 u q) + ∑ s : Fin 5000, x (ix2 s q) := by
  unfold k1_pay4 k1_pay3
  exact sumStep_apply (a := 5000) (b := 128) x v shapeCasts_S5000x128_S5000x128 shapeCasts_S1x128_S1x128
    reduces_S5000x128_S128 (.inl rfl) rfl shapeCasts_S128_S1x128 u q

/-- The second output's payload at column q: the old entry plus the block's column sum of squares. -/
theorem k1_pay5_apply (x : Vec Ideal S5000x128 .f32) (v : Vec Ideal S1x128 .f32) (u : Fin 1) (q : Fin 128) :
    k1_pay5 x v (ix2 u q) = v (ix2 u q) + ∑ s : Fin 5000, x (ix2 s q) * x (ix2 s q) := by
  unfold k1_pay5 k1_pay3
  exact sumsqStep_apply (a := 5000) (b := 128) x v shapeCasts_S5000x128_S5000x128 shapeCasts_S1x128_S1x128
    reduces_S5000x128_S128 (.inl rfl) rfl shapeCasts_S128_S1x128 u q

end Value

section Value2

variable (V : (c : Dev nD) → (b : Ref sig .tc) → Buf (Elt Ideal) ((c : Thread nD τ).loc b))

/-- Where the input window sits at point t: block t along the rows, block 0 along the columns. -/
theorem index1_0 : ∀ t : Fin cfg1.N, win1_0.index t 0 = t.val ∧ win1_0.index t 1 = 0 :=
  (by decide +kernel : ∀ t : Fin grid1.N, win1_0.index t 0 = t.val ∧ win1_0.index t 1 = 0)

/-- The array the kernel reads, as the region finds it. -/
abbrev arr1 (c : Dev nD) : S100000x128.Idx → Ideal .f32 := V c (Pipeline.arrRef spec1 0)

/-- The input block at point t. -/
def blk1 (c : Dev nD) (t : Fin cfg1.N) : Vec Ideal S5000x128 .f32 := iblk1 V c 0 t

/-- Entry (s, q) of the input block at point t is entry (5000 t + s, q) of the array. -/
theorem blk1_apply (c : Dev nD) (t : Fin cfg1.N) (s : Fin 5000) (q : Fin 128) (p : Fin 100000)
    (hp : p.val = t.val * 5000 + s.val) :
    blk1 V c t (ix2 s q) = arr1 V c (ix2 p q) := by
  have hi := index1_0 t
  unfold blk1 iblk1
  rw [View.read_apply]
  show V c (Pipeline.arrRef spec1 0) (((cfg1.win 0).blk t).view.emb (ix2 s q)) = V c (Pipeline.arrRef spec1 0) (ix2 p q)
  congr 1
  funext a
  apply Fin.ext
  match a with
  | ⟨0, _⟩ => show win1_0.index t 0 * 5000 + 1 * s.val = p.val; rw [hi.1, hp]; omega
  | ⟨1, _⟩ => show win1_0.index t 1 * 128 + 1 * q.val = q.val; rw [hi.2]; omega

/-- After point n the first output holds, at column q, the sum of column q over the rows of blocks 0 … n. -/
theorem outsAt1_fst (c : Dev nD) (q : Fin 128) : ∀ (n : ℕ) (hn : n < cfg1.N),
    (outsAt1 V c n hn).1 (ix2 0 q)
      = ∑ t : Fin (n + 1), ∑ s : Fin 5000, blk1 V c ⟨t.val, Nat.lt_of_lt_of_le t.isLt hn⟩ (ix2 s q)
  | 0, hn => by
    rw [outsAt1_A V c ⟨0, hn⟩ rfl]
    dsimp only
    refine (congrFun (out1_A_1_eq (F := Ideal) c (grid1.coords ⟨0, hn⟩) (ms1_0 ⟨0, hn⟩) (hs1_0 ⟨0, hn⟩)
      (ms1_1 ⟨0, hn⟩) (hs1_1 ⟨0, hn⟩) (ms1_2 ⟨0, hn⟩) (hs1_2 ⟨0, hn⟩) ((hcond1_0 ⟨0, hn⟩).mpr rfl)
      (iblk1 V c 0 ⟨0, hn⟩)) (ix2 0 q)).trans ?_
    refine (k1_pay4_apply (iblk1 V c 0 ⟨0, hn⟩) (k1_pay1 (F := Ideal)) 0 q).trans ?_
    rw [k1_pay1_apply, zero_add, Fin.sum_univ_one]
    rfl
  | n + 1, hn => by
    have hN : cfg1.N = 20 := N_1
    have hB : ¬(⟨n + 1, hn⟩ : Fin cfg1.N).val % 20 = 0 := by dsimp only; omega
    rw [outsAt1_B V c ⟨n + 1, hn⟩ hB]
    dsimp only
    refine (congrFun (out1_B_1_eq (F := Ideal) c (grid1.coords ⟨n + 1, hn⟩) (ms1_0 ⟨n + 1, hn⟩) (hs1_0 ⟨n + 1, hn⟩)
      (ms1_1 ⟨n + 1, hn⟩) (hs1_1 ⟨n + 1, hn⟩) (ms1_2 ⟨n + 1, hn⟩) (hs1_2 ⟨n + 1, hn⟩)
      (fun h => hB ((hcond1_0 ⟨n + 1, hn⟩).mp h)) (iblk1 V c 0 ⟨n + 1, hn⟩)
      (outsAt1 V c n (Nat.lt_of_succ_lt hn)).1 (outsAt1 V c n (Nat.lt_of_succ_lt hn)).2) (ix2 0 q)).trans ?_
    refine (k1_pay4_apply (iblk1 V c 0 ⟨n + 1, hn⟩) (outsAt1 V c n (Nat.lt_of_succ_lt hn)).1 0 q).trans ?_
    rw [outsAt1_fst c q n (Nat.lt_of_succ_lt hn)]
    refine Eq.trans ?_ (Fin.sum_univ_castSucc _).symm
    rfl

end Value2

section Value3

variable (V : (c : Dev nD) → (b : Ref sig .tc) → Buf (Elt Ideal) ((c : Thread nD τ).loc b))

theorem lt19 : 19 < cfg1.N := by rw [show cfg1.N = 20 from N_1]; decide

/-- The last point of the grid. -/
abbrev tLast1 : Fin cfg1.N := ⟨19, lt19⟩

/-- What the first output's block holds after the last point, as contents of its array (the one block is the array). -/
abbrev res1_1 (c : Dev nD) : Buf (Elt Ideal) ((c : Thread nD τ).loc main_v48_0) := (outsAt1 V c 19 lt19).1
abbrev res1_2 (c : Dev nD) : Buf (Elt Ideal) ((c : Thread nD τ).loc main_v48_1) := (outsAt1 V c 19 lt19).2

/-- The one write-back of the first output, at the last point, writes the block the last point left. -/
theorem flushed1_1 (c : Dev nD) (t : Fin cfg1.N) (hf : (cfg1.win 1).flush t = true) :
    (dat1 V c).flushed 1 t = ((cfg1.win 1).blk t).view.read (Elt Ideal) (res1_1 V c) := by
  have hN : cfg1.N = 20 := N_1
  have h19 : t.val = 19 := by have := (flush1_1 t).mp hf; have := t.isLt; omega
  obtain rfl : t = tLast1 := Fin.ext h19
  show (cfg1.win 1).cut (grid1.coords tLast1) ((dat1 V c).after 1 tLast1) = _
  rw [after1_1]
  have hz' : (fun a => win1_1.index tLast1 a * main_v48_0.ty.shape.size a) = fun _ => 0 :=
    funext fun a => by fin_cases a <;> decide +kernel
  exact (Memref.read_access_unit_zero (Elt Ideal) main_v48_0 hz' (fun a => by rw [congrFun hz' a]; simp) (res1_1 V c)).symm

/-- So the first output's array ends holding that block. -/
theorem final1_1 (c : Dev nD) : (dat1 V c).arrAt 1 cfg1.N = res1_1 V c :=
  (dat1 V c).arrAt_eq_of_cover 1 (res1_1 V c) (flushed1_1 V c) fun i =>
    ⟨tLast1, (flush1_1 tLast1).mpr rfl, by
      show i ∈ ((View.whole main_v48_0).slice (win1_1.rect tLast1)).set
      rw [View.set_slice_whole, Rect.mem_set_unit]
      intro a
      have h0 : (i 0 : Nat) < 1 := (i 0).isLt
      have h1 : (i 1 : Nat) < 128 := (i 1).isLt
      match a with
      | ⟨0, _⟩ => show win1_1.index tLast1 0 * win1_1.size 0 ≤ (i 0 : Nat) ∧ (i 0 : Nat) < win1_1.index tLast1 0 * win1_1.size 0 + win1_1.xsize (grid1.coords tLast1) 0
                  rw [show win1_1.index tLast1 0 * win1_1.size 0 = 0 from by decide +kernel, show win1_1.xsize (grid1.coords tLast1) 0 = 1 from by decide +kernel]; omega
      | ⟨1, _⟩ => show win1_1.index tLast1 1 * win1_1.size 1 ≤ (i 1 : Nat) ∧ (i 1 : Nat) < win1_1.index tLast1 1 * win1_1.size 1 + win1_1.xsize (grid1.coords tLast1) 1
                  rw [show win1_1.index tLast1 1 * win1_1.size 1 = 0 from by decide +kernel, show win1_1.xsize (grid1.coords tLast1) 1 = 128 from by decide +kernel]; omega⟩

/-- The first statistics output: at column q, the sum of column q of the input over all 100000 rows. -/
theorem stats1_sum (c : Dev nD) (q : Fin 128) :
    ((dat1 (F := Ideal) V c).arrAt 1 cfg1.N : S1x128.Idx → Ideal .f32) (ix2 0 q)
      = ∑ p : Fin 100000, arr1 V c (ix2 p q) := by
  rw [final1_1]
  show (outsAt1 V c 19 lt19).1 (ix2 0 q) = _
  rw [outsAt1_fst V c q 19 lt19]
  refine Eq.trans ?_ (Cert.LibBlocks.sum_entries (M := Ideal .f32) (A := 20) (B := 5000)
    (fun p => arr1 V c (ix2 p q))).symm
  refine Finset.sum_congr rfl fun t _ => Finset.sum_congr rfl fun s _ => ?_
  exact blk1_apply V c ⟨t.val, Nat.lt_of_lt_of_le t.isLt lt19⟩ s q (Cert.LibBlocks.entry t s) rfl

end Value3

section Value4

variable (V : (c : Dev nD) → (b : Ref sig .tc) → Buf (Elt Ideal) ((c : Thread nD τ).loc b))

/-- After point n the second output holds, at column q, the sum of the squares of column q over the rows of blocks 0 … n. -/
theorem outsAt1_snd (c : Dev nD) (q : Fin 128) : ∀ (n : ℕ) (hn : n < cfg1.N),
    (outsAt1 V c n hn).2 (ix2 0 q)
      = ∑ t : Fin (n + 1), ∑ s : Fin 5000, blk1 V c ⟨t.val, Nat.lt_of_lt_of_le t.isLt hn⟩ (ix2 s q)
          * blk1 V c ⟨t.val, Nat.lt_of_lt_of_le t.isLt hn⟩ (ix2 s q)
  | 0, hn => by
    rw [outsAt1_A V c ⟨0, hn⟩ rfl]
    dsimp only
    refine (congrFun (out1_A_2_eq (F := Ideal) c (grid1.coords ⟨0, hn⟩) (ms1_0 ⟨0, hn⟩) (hs1_0 ⟨0, hn⟩)
      (ms1_1 ⟨0, hn⟩) (hs1_1 ⟨0, hn⟩) (ms1_2 ⟨0, hn⟩) (hs1_2 ⟨0, hn⟩) ((hcond1_0 ⟨0, hn⟩).mpr rfl)
      (iblk1 V c 0 ⟨0, hn⟩)) (ix2 0 q)).trans ?_
    refine (k1_pay5_apply (iblk1 V c 0 ⟨0, hn⟩) (k1_pay2 (F := Ideal)) 0 q).trans ?_
    rw [k1_pay2_apply, zero_add, Fin.sum_univ_one]
    rfl
  | n + 1, hn => by
    have hN : cfg1.N = 20 := N_1
    have hB : ¬(⟨n + 1, hn⟩ : Fin cfg1.N).val % 20 = 0 := by dsimp only; omega
    rw [outsAt1_B V c ⟨n + 1, hn⟩ hB]
    dsimp only
    refine (congrFun (out1_B_2_eq (F := Ideal) c (grid1.coords ⟨n + 1, hn⟩) (ms1_0 ⟨n + 1, hn⟩) (hs1_0 ⟨n + 1, hn⟩)
      (ms1_1 ⟨n + 1, hn⟩) (hs1_1 ⟨n + 1, hn⟩) (ms1_2 ⟨n + 1, hn⟩) (hs1_2 ⟨n + 1, hn⟩)
      (fun h => hB ((hcond1_0 ⟨n + 1, hn⟩).mp h)) (iblk1 V c 0 ⟨n + 1, hn⟩)
      (outsAt1 V c n (Nat.lt_of_succ_lt hn)).1 (outsAt1 V c n (Nat.lt_of_succ_lt hn)).2) (ix2 0 q)).trans ?_
    refine (k1_pay5_apply (iblk1 V c 0 ⟨n + 1, hn⟩) (outsAt1 V c n (Nat.lt_of_succ_lt hn)).2 0 q).trans ?_
    rw [outsAt1_snd c q n (Nat.lt_of_succ_lt hn)]
    refine Eq.trans ?_ (Fin.sum_univ_castSucc _).symm
    rfl

/-- The one write-back of the second output, at the last point, writes the block the last point left. -/
theorem flushed1_2 (c : Dev nD) (t : Fin cfg1.N) (hf : (cfg1.win 2).flush t = true) :
    (dat1 V c).flushed 2 t = ((cfg1.win 2).blk t).view.read (Elt Ideal) (res1_2 V c) := by
  have hN : cfg1.N = 20 := N_1
  have h19 : t.val = 19 := by have := (flush1_2 t).mp hf; have := t.isLt; omega
  obtain rfl : t = tLast1 := Fin.ext h19
  show (cfg1.win 2).cut (grid1.coords tLast1) ((dat1 V c).after 2 tLast1) = _
  rw [after1_2]
  have hz' : (fun a => win1_2.index tLast1 a * main_v48_1.ty.shape.size a) = fun _ => 0 :=
    funext fun a => by fin_cases a <;> decide +kernel
  exact (Memref.read_access_unit_zero (Elt Ideal) main_v48_1 hz' (fun a => by rw [congrFun hz' a]; simp) (res1_2 V c)).symm

/-- So the second output's array ends holding that block. -/
theorem final1_2 (c : Dev nD) : (dat1 V c).arrAt 2 cfg1.N = res1_2 V c :=
  (dat1 V c).arrAt_eq_of_cover 2 (res1_2 V c) (flushed1_2 V c) fun i =>
    ⟨tLast1, (flush1_2 tLast1).mpr rfl, by
      show i ∈ ((View.whole main_v48_1).slice (win1_2.rect tLast1)).set
      rw [View.set_slice_whole, Rect.mem_set_unit]
      intro a
      have h0 : (i 0 : Nat) < 1 := (i 0).isLt
      have h1 : (i 1 : Nat) < 128 := (i 1).isLt
      match a with
      | ⟨0, _⟩ => show win1_2.index tLast1 0 * win1_2.size 0 ≤ (i 0 : Nat) ∧ (i 0 : Nat) < win1_2.index tLast1 0 * win1_2.size 0 + win1_2.xsize (grid1.coords tLast1) 0
                  rw [show win1_2.index tLast1 0 * win1_2.size 0 = 0 from by decide +kernel, show win1_2.xsize (grid1.coords tLast1) 0 = 1 from by decide +kernel]; omega
      | ⟨1, _⟩ => show win1_2.index tLast1 1 * win1_2.size 1 ≤ (i 1 : Nat) ∧ (i 1 : Nat) < win1_2.index tLast1 1 * win1_2.size 1 + win1_2.xsize (grid1.coords tLast1) 1
                  rw [show win1_2.index tLast1 1 * win1_2.size 1 = 0 from by decide +kernel, show win1_2.xsize (grid1.coords tLast1) 1 = 128 from by decide +kernel]; omega⟩

/-- The second statistics output: at column q, the sum of the squares of column q of the input over all 100000 rows. -/
theorem stats1_sumsq (c : Dev nD) (q : Fin 128) :
    ((dat1 (F := Ideal) V c).arrAt 2 cfg1.N : S1x128.Idx → Ideal .f32) (ix2 0 q)
      = ∑ p : Fin 100000, arr1 V c (ix2 p q) * arr1 V c (ix2 p q) := by
  rw [final1_2]
  show (outsAt1 V c 19 lt19).2 (ix2 0 q) = _
  rw [outsAt1_snd V c q 19 lt19]
  refine Eq.trans ?_ (Cert.LibBlocks.sum_entries (M := Ideal .f32) (A := 20) (B := 5000)
    (fun p => arr1 V c (ix2 p q) * arr1 V c (ix2 p q))).symm
  refine Finset.sum_congr rfl fun t _ => Finset.sum_congr rfl fun s _ => ?_
  rw [blk1_apply V c ⟨t.val, Nat.lt_of_lt_of_le t.isLt lt19⟩ s q (Cert.LibBlocks.entry t s) rfl]

end Value4

/-! ## The kernel at 64 columns -/

section Pieces
variable {F : FTy → Type} [FloatOps F]

/-- Points 1 … 19, first output: the one covering store's payload over the block and the running contents. -/
theorem out4_B_1_eq (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond4_0 i) (x0 : Vec F S5000x64 .f32) (xo1 xo2 : Vec F S1x64 .f32) :
    out4_B_1 c i a1 h1 a2 h2 a3 h3 hc x0 xo1 xo2 = k4_pay4 x0 xo1 := by
  unfold out4_B_1
  rw [View.read_writes_eq_canon _ _ _ (cover4_B_1 c i a1 h1 a2 h2 a3 h3 hc x0 xo1 xo2)]
  unfold kernelRun4_B
  dsimp only
  rw [View.canon_unit_zero hz]
  simp only [View.readAt_eq_ld, h1.read_unread, h2.read_unread, View.ld_unit_zero (S := S5000x64) hz,
    View.ld_unit_zero (S := S1x64) hz]

/-- Points 1 … 19, second output. -/
theorem out4_B_2_eq (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond4_0 i) (x0 : Vec F S5000x64 .f32) (xo1 xo2 : Vec F S1x64 .f32) :
    out4_B_2 c i a1 h1 a2 h2 a3 h3 hc x0 xo1 xo2 = k4_pay5 x0 xo2 := by
  unfold out4_B_2
  rw [View.read_writes_eq_canon _ _ _ (cover4_B_2 c i a1 h1 a2 h2 a3 h3 hc x0 xo1 xo2)]
  unfold kernelRun4_B
  dsimp only
  rw [View.canon_unit_zero hz]
  simp only [View.readAt_eq_ld, h1.read_unread, h3.read_unread, View.ld_unit_zero (S := S5000x64) hz,
    View.ld_unit_zero (S := S1x64) hz]

/-- Point 0, first output: the zeros are stored, read back, and the block's column sums added. -/
theorem out4_A_1_eq (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond4_0 i) (x0 : Vec F S5000x64 .f32) :
    out4_A_1 c i a1 h1 a2 h2 a3 h3 hc x0 = k4_pay4 x0 k4_pay1 := by
  unfold out4_A_1
  rw [View.read_writes_eq_canon _ _ _ (cover4_A_1 c i a1 h1 a2 h2 a3 h3 hc x0)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S5000x64) hz]

/-- Point 0, second output. -/
theorem out4_A_2_eq (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond4_0 i) (x0 : Vec F S5000x64 .f32) :
    out4_A_2 c i a1 h1 a2 h2 a3 h3 hc x0 = k4_pay5 x0 k4_pay2 := by
  unfold out4_A_2
  rw [View.read_writes_eq_canon _ _ _ (cover4_A_2 c i a1 h1 a2 h2 a3 h3 hc x0)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S5000x64) hz]

end Pieces

section Value

variable (V : (c : Dev nD) → (b : Ref sig .tc) → Buf (Elt Ideal) ((c : Thread nD τ).loc b))

/-- The stored zero block reads 0 at every entry. -/
theorem k4_pay1_apply (j : S1x64.Idx) : k4_pay1 (F := Ideal) j = 0 := Ideal.ofBits_zero_f32
theorem k4_pay2_apply (j : S1x64.Idx) : k4_pay2 (F := Ideal) j = 0 := Ideal.ofBits_zero_f32

/-- The first output's payload at column q: the old entry plus the block's column sum. -/
theorem k4_pay4_apply (x : Vec Ideal S5000x64 .f32) (v : Vec Ideal S1x64 .f32) (u : Fin 1) (q : Fin 64) :
    k4_pay4 x v (ix2 u q) = v (ix2 u q) + ∑ s : Fin 5000, x (ix2 s q) := by
  unfold k4_pay4 k4_pay3
  exact sumStep_apply (a := 5000) (b := 64) x v shapeCasts_S5000x64_S5000x64 shapeCasts_S1x64_S1x64
    reduces_S5000x64_S64 (.inl rfl) rfl shapeCasts_S64_S1x64 u q

/-- The second output's payload at column q: the old entry plus the block's column sum of squares. -/
theorem k4_pay5_apply (x : Vec Ideal S5000x64 .f32) (v : Vec Ideal S1x64 .f32) (u : Fin 1) (q : Fin 64) :
    k4_pay5 x v (ix2 u q) = v (ix2 u q) + ∑ s : Fin 5000, x (ix2 s q) * x (ix2 s q) := by
  unfold k4_pay5 k4_pay3
  exact sumsqStep_apply (a := 5000) (b := 64) x v shapeCasts_S5000x64_S5000x64 shapeCasts_S1x64_S1x64
    reduces_S5000x64_S64 (.inl rfl) rfl shapeCasts_S64_S1x64 u q

end Value

section Value2

variable (V : (c : Dev nD) → (b : Ref sig .tc) → Buf (Elt Ideal) ((c : Thread nD τ).loc b))

/-- Where the input window sits at point t: block t along the rows, block 0 along the columns. -/
theorem index4_0 : ∀ t : Fin cfg4.N, win4_0.index t 0 = t.val ∧ win4_0.index t 1 = 0 :=
  (by decide +kernel : ∀ t : Fin grid4.N, win4_0.index t 0 = t.val ∧ win4_0.index t 1 = 0)

/-- The array the kernel reads, as the region finds it. -/
abbrev arr4 (c : Dev nD) : S100000x64.Idx → Ideal .f32 := V c (Pipeline.arrRef spec4 0)

/-- The input block at point t. -/
def blk4 (c : Dev nD) (t : Fin cfg4.N) : Vec Ideal S5000x64 .f32 := iblk4 V c 0 t

/-- Entry (s, q) of the input block at point t is entry (5000 t + s, q) of the array. -/
theorem blk4_apply (c : Dev nD) (t : Fin cfg4.N) (s : Fin 5000) (q : Fin 64) (p : Fin 100000)
    (hp : p.val = t.val * 5000 + s.val) :
    blk4 V c t (ix2 s q) = arr4 V c (ix2 p q) := by
  have hi := index4_0 t
  unfold blk4 iblk4
  rw [View.read_apply]
  show V c (Pipeline.arrRef spec4 0) (((cfg4.win 0).blk t).view.emb (ix2 s q)) = V c (Pipeline.arrRef spec4 0) (ix2 p q)
  congr 1
  funext a
  apply Fin.ext
  match a with
  | ⟨0, _⟩ => show win4_0.index t 0 * 5000 + 1 * s.val = p.val; rw [hi.1, hp]; omega
  | ⟨1, _⟩ => show win4_0.index t 1 * 64 + 1 * q.val = q.val; rw [hi.2]; omega

/-- After point n the first output holds, at column q, the sum of column q over the rows of blocks 0 … n. -/
theorem outsAt4_fst (c : Dev nD) (q : Fin 64) : ∀ (n : ℕ) (hn : n < cfg4.N),
    (outsAt4 V c n hn).1 (ix2 0 q)
      = ∑ t : Fin (n + 1), ∑ s : Fin 5000, blk4 V c ⟨t.val, Nat.lt_of_lt_of_le t.isLt hn⟩ (ix2 s q)
  | 0, hn => by
    rw [outsAt4_A V c ⟨0, hn⟩ rfl]
    dsimp only
    refine (congrFun (out4_A_1_eq (F := Ideal) c (grid4.coords ⟨0, hn⟩) (ms4_0 ⟨0, hn⟩) (hs4_0 ⟨0, hn⟩)
      (ms4_1 ⟨0, hn⟩) (hs4_1 ⟨0, hn⟩) (ms4_2 ⟨0, hn⟩) (hs4_2 ⟨0, hn⟩) ((hcond4_0 ⟨0, hn⟩).mpr rfl)
      (iblk4 V c 0 ⟨0, hn⟩)) (ix2 0 q)).trans ?_
    refine (k4_pay4_apply (iblk4 V c 0 ⟨0, hn⟩) (k4_pay1 (F := Ideal)) 0 q).trans ?_
    rw [k4_pay1_apply, zero_add, Fin.sum_univ_one]
    rfl
  | n + 1, hn => by
    have hN : cfg4.N = 20 := N_4
    have hB : ¬(⟨n + 1, hn⟩ : Fin cfg4.N).val % 20 = 0 := by dsimp only; omega
    rw [outsAt4_B V c ⟨n + 1, hn⟩ hB]
    dsimp only
    refine (congrFun (out4_B_1_eq (F := Ideal) c (grid4.coords ⟨n + 1, hn⟩) (ms4_0 ⟨n + 1, hn⟩) (hs4_0 ⟨n + 1, hn⟩)
      (ms4_1 ⟨n + 1, hn⟩) (hs4_1 ⟨n + 1, hn⟩) (ms4_2 ⟨n + 1, hn⟩) (hs4_2 ⟨n + 1, hn⟩)
      (fun h => hB ((hcond4_0 ⟨n + 1, hn⟩).mp h)) (iblk4 V c 0 ⟨n + 1, hn⟩)
      (outsAt4 V c n (Nat.lt_of_succ_lt hn)).1 (outsAt4 V c n (Nat.lt_of_succ_lt hn)).2) (ix2 0 q)).trans ?_
    refine (k4_pay4_apply (iblk4 V c 0 ⟨n + 1, hn⟩) (outsAt4 V c n (Nat.lt_of_succ_lt hn)).1 0 q).trans ?_
    rw [outsAt4_fst c q n (Nat.lt_of_succ_lt hn)]
    refine Eq.trans ?_ (Fin.sum_univ_castSucc _).symm
    rfl

end Value2

section Value3

variable (V : (c : Dev nD) → (b : Ref sig .tc) → Buf (Elt Ideal) ((c : Thread nD τ).loc b))

theorem lt19_4 : 19 < cfg4.N := by rw [show cfg4.N = 20 from N_4]; decide

/-- The last point of the grid. -/
abbrev tLast4 : Fin cfg4.N := ⟨19, lt19_4⟩

/-- What the first output's block holds after the last point, as contents of its array (the one block is the array). -/
abbrev res4_1 (c : Dev nD) : Buf (Elt Ideal) ((c : Thread nD τ).loc main_v102_0) := (outsAt4 V c 19 lt19_4).1
abbrev res4_2 (c : Dev nD) : Buf (Elt Ideal) ((c : Thread nD τ).loc main_v102_1) := (outsAt4 V c 19 lt19_4).2

/-- The one write-back of the first output, at the last point, writes the block the last point left. -/
theorem flushed4_1 (c : Dev nD) (t : Fin cfg4.N) (hf : (cfg4.win 1).flush t = true) :
    (dat4 V c).flushed 1 t = ((cfg4.win 1).blk t).view.read (Elt Ideal) (res4_1 V c) := by
  have hN : cfg4.N = 20 := N_4
  have h19 : t.val = 19 := by have := (flush4_1 t).mp hf; have := t.isLt; omega
  obtain rfl : t = tLast4 := Fin.ext h19
  show (cfg4.win 1).cut (grid4.coords tLast4) ((dat4 V c).after 1 tLast4) = _
  rw [after4_1]
  have hz' : (fun a => win4_1.index tLast4 a * main_v102_0.ty.shape.size a) = fun _ => 0 :=
    funext fun a => by fin_cases a <;> decide +kernel
  exact (Memref.read_access_unit_zero (Elt Ideal) main_v102_0 hz' (fun a => by rw [congrFun hz' a]; simp) (res4_1 V c)).symm

/-- So the first output's array ends holding that block. -/
theorem final4_1 (c : Dev nD) : (dat4 V c).arrAt 1 cfg4.N = res4_1 V c :=
  (dat4 V c).arrAt_eq_of_cover 1 (res4_1 V c) (flushed4_1 V c) fun i =>
    ⟨tLast4, (flush4_1 tLast4).mpr rfl, by
      show i ∈ ((View.whole main_v102_0).slice (win4_1.rect tLast4)).set
      rw [View.set_slice_whole, Rect.mem_set_unit]
      intro a
      have h0 : (i 0 : Nat) < 1 := (i 0).isLt
      have h1 : (i 1 : Nat) < 64 := (i 1).isLt
      match a with
      | ⟨0, _⟩ => show win4_1.index tLast4 0 * win4_1.size 0 ≤ (i 0 : Nat) ∧ (i 0 : Nat) < win4_1.index tLast4 0 * win4_1.size 0 + win4_1.xsize (grid4.coords tLast4) 0
                  rw [show win4_1.index tLast4 0 * win4_1.size 0 = 0 from by decide +kernel, show win4_1.xsize (grid4.coords tLast4) 0 = 1 from by decide +kernel]; omega
      | ⟨1, _⟩ => show win4_1.index tLast4 1 * win4_1.size 1 ≤ (i 1 : Nat) ∧ (i 1 : Nat) < win4_1.index tLast4 1 * win4_1.size 1 + win4_1.xsize (grid4.coords tLast4) 1
                  rw [show win4_1.index tLast4 1 * win4_1.size 1 = 0 from by decide +kernel, show win4_1.xsize (grid4.coords tLast4) 1 = 64 from by decide +kernel]; omega⟩

/-- The first statistics output: at column q, the sum of column q of the input over all 100000 rows. -/
theorem stats4_sum (c : Dev nD) (q : Fin 64) :
    ((dat4 (F := Ideal) V c).arrAt 1 cfg4.N : S1x64.Idx → Ideal .f32) (ix2 0 q)
      = ∑ p : Fin 100000, arr4 V c (ix2 p q) := by
  rw [final4_1]
  show (outsAt4 V c 19 lt19_4).1 (ix2 0 q) = _
  rw [outsAt4_fst V c q 19 lt19_4]
  refine Eq.trans ?_ (Cert.LibBlocks.sum_entries (M := Ideal .f32) (A := 20) (B := 5000)
    (fun p => arr4 V c (ix2 p q))).symm
  refine Finset.sum_congr rfl fun t _ => Finset.sum_congr rfl fun s _ => ?_
  exact blk4_apply V c ⟨t.val, Nat.lt_of_lt_of_le t.isLt lt19_4⟩ s q (Cert.LibBlocks.entry t s) rfl

end Value3

section Value4

variable (V : (c : Dev nD) → (b : Ref sig .tc) → Buf (Elt Ideal) ((c : Thread nD τ).loc b))

/-- After point n the second output holds, at column q, the sum of the squares of column q over the rows of blocks 0 … n. -/
theorem outsAt4_snd (c : Dev nD) (q : Fin 64) : ∀ (n : ℕ) (hn : n < cfg4.N),
    (outsAt4 V c n hn).2 (ix2 0 q)
      = ∑ t : Fin (n + 1), ∑ s : Fin 5000, blk4 V c ⟨t.val, Nat.lt_of_lt_of_le t.isLt hn⟩ (ix2 s q)
          * blk4 V c ⟨t.val, Nat.lt_of_lt_of_le t.isLt hn⟩ (ix2 s q)
  | 0, hn => by
    rw [outsAt4_A V c ⟨0, hn⟩ rfl]
    dsimp only
    refine (congrFun (out4_A_2_eq (F := Ideal) c (grid4.coords ⟨0, hn⟩) (ms4_0 ⟨0, hn⟩) (hs4_0 ⟨0, hn⟩)
      (ms4_1 ⟨0, hn⟩) (hs4_1 ⟨0, hn⟩) (ms4_2 ⟨0, hn⟩) (hs4_2 ⟨0, hn⟩) ((hcond4_0 ⟨0, hn⟩).mpr rfl)
      (iblk4 V c 0 ⟨0, hn⟩)) (ix2 0 q)).trans ?_
    refine (k4_pay5_apply (iblk4 V c 0 ⟨0, hn⟩) (k4_pay2 (F := Ideal)) 0 q).trans ?_
    rw [k4_pay2_apply, zero_add, Fin.sum_univ_one]
    rfl
  | n + 1, hn => by
    have hN : cfg4.N = 20 := N_4
    have hB : ¬(⟨n + 1, hn⟩ : Fin cfg4.N).val % 20 = 0 := by dsimp only; omega
    rw [outsAt4_B V c ⟨n + 1, hn⟩ hB]
    dsimp only
    refine (congrFun (out4_B_2_eq (F := Ideal) c (grid4.coords ⟨n + 1, hn⟩) (ms4_0 ⟨n + 1, hn⟩) (hs4_0 ⟨n + 1, hn⟩)
      (ms4_1 ⟨n + 1, hn⟩) (hs4_1 ⟨n + 1, hn⟩) (ms4_2 ⟨n + 1, hn⟩) (hs4_2 ⟨n + 1, hn⟩)
      (fun h => hB ((hcond4_0 ⟨n + 1, hn⟩).mp h)) (iblk4 V c 0 ⟨n + 1, hn⟩)
      (outsAt4 V c n (Nat.lt_of_succ_lt hn)).1 (outsAt4 V c n (Nat.lt_of_succ_lt hn)).2) (ix2 0 q)).trans ?_
    refine (k4_pay5_apply (iblk4 V c 0 ⟨n + 1, hn⟩) (outsAt4 V c n (Nat.lt_of_succ_lt hn)).2 0 q).trans ?_
    rw [outsAt4_snd c q n (Nat.lt_of_succ_lt hn)]
    refine Eq.trans ?_ (Fin.sum_univ_castSucc _).symm
    rfl

/-- The one write-back of the second output, at the last point, writes the block the last point left. -/
theorem flushed4_2 (c : Dev nD) (t : Fin cfg4.N) (hf : (cfg4.win 2).flush t = true) :
    (dat4 V c).flushed 2 t = ((cfg4.win 2).blk t).view.read (Elt Ideal) (res4_2 V c) := by
  have hN : cfg4.N = 20 := N_4
  have h19 : t.val = 19 := by have := (flush4_2 t).mp hf; have := t.isLt; omega
  obtain rfl : t = tLast4 := Fin.ext h19
  show (cfg4.win 2).cut (grid4.coords tLast4) ((dat4 V c).after 2 tLast4) = _
  rw [after4_2]
  have hz' : (fun a => win4_2.index tLast4 a * main_v102_1.ty.shape.size a) = fun _ => 0 :=
    funext fun a => by fin_cases a <;> decide +kernel
  exact (Memref.read_access_unit_zero (Elt Ideal) main_v102_1 hz' (fun a => by rw [congrFun hz' a]; simp) (res4_2 V c)).symm

/-- So the second output's array ends holding that block. -/
theorem final4_2 (c : Dev nD) : (dat4 V c).arrAt 2 cfg4.N = res4_2 V c :=
  (dat4 V c).arrAt_eq_of_cover 2 (res4_2 V c) (flushed4_2 V c) fun i =>
    ⟨tLast4, (flush4_2 tLast4).mpr rfl, by
      show i ∈ ((View.whole main_v102_1).slice (win4_2.rect tLast4)).set
      rw [View.set_slice_whole, Rect.mem_set_unit]
      intro a
      have h0 : (i 0 : Nat) < 1 := (i 0).isLt
      have h1 : (i 1 : Nat) < 64 := (i 1).isLt
      match a with
      | ⟨0, _⟩ => show win4_2.index tLast4 0 * win4_2.size 0 ≤ (i 0 : Nat) ∧ (i 0 : Nat) < win4_2.index tLast4 0 * win4_2.size 0 + win4_2.xsize (grid4.coords tLast4) 0
                  rw [show win4_2.index tLast4 0 * win4_2.size 0 = 0 from by decide +kernel, show win4_2.xsize (grid4.coords tLast4) 0 = 1 from by decide +kernel]; omega
      | ⟨1, _⟩ => show win4_2.index tLast4 1 * win4_2.size 1 ≤ (i 1 : Nat) ∧ (i 1 : Nat) < win4_2.index tLast4 1 * win4_2.size 1 + win4_2.xsize (grid4.coords tLast4) 1
                  rw [show win4_2.index tLast4 1 * win4_2.size 1 = 0 from by decide +kernel, show win4_2.xsize (grid4.coords tLast4) 1 = 64 from by decide +kernel]; omega⟩

/-- The second statistics output: at column q, the sum of the squares of column q of the input over all 100000 rows. -/
theorem stats4_sumsq (c : Dev nD) (q : Fin 64) :
    ((dat4 (F := Ideal) V c).arrAt 2 cfg4.N : S1x64.Idx → Ideal .f32) (ix2 0 q)
      = ∑ p : Fin 100000, arr4 V c (ix2 p q) * arr4 V c (ix2 p q) := by
  rw [final4_2]
  show (outsAt4 V c 19 lt19_4).2 (ix2 0 q) = _
  rw [outsAt4_snd V c q 19 lt19_4]
  refine Eq.trans ?_ (Cert.LibBlocks.sum_entries (M := Ideal .f32) (A := 20) (B := 5000)
    (fun p => arr4 V c (ix2 p q) * arr4 V c (ix2 p q))).symm
  refine Finset.sum_congr rfl fun t _ => Finset.sum_congr rfl fun s _ => ?_
  rw [blk4_apply V c ⟨t.val, Nat.lt_of_lt_of_le t.isLt lt19_4⟩ s q (Cert.LibBlocks.entry t s) rfl]

end Value4

end Cert.KernelIdeal.StatsValue
end
-- ==== Proof.KStageBN.lean ====
/-
  The kernel program's two batch normalizations, stage by stage.

  Each normalization is two launches with a short stretch of host operations between them. The statistics launch leaves
  the column sums and the column sums of squares of the activations; the host divides both by the float 100000 — the
  column means and the means of squares —, subtracts the square of the mean from the mean of squares, and reshapes the
  scale and shift arguments to rows; the normalization launch then computes, entry by entry, the entry less the column's
  mean, times the inverse square root of that difference plus the stabilizer, times the scale, plus the shift (and the
  maximum with zero in the first layer). On real activations the difference is the column's variance (mean of squares
  minus square of mean = mean of squared deviations), so what the launch leaves is the column's normalization of the entry.
-/
import proofs.«149487_j20229295964576_1_alg».proof.Proof.Gen.KernelIdeal.Frame
import proofs.«149487_j20229295964576_1_alg».proof.Proof.Carry
import proofs.«149487_j20229295964576_1_alg».proof.Proof.ApplyValue
import proofs.«149487_j20229295964576_1_alg».proof.Proof.StatsValue
import proofs.«149487_j20229295964576_1_alg».proof.Proof.RefBN
import proofs.«149487_j20229295964576_1_alg».proof.Proof.BNSpec
import proofs.«149487_j20229295964576_1_alg».proof.Proof.BNMath
import proofs.«149487_j20229295964576_1_alg».proof.Proof.LibTyped
import proofs.«149487_j20229295964576_1_alg».proof.Proof.LibTypedLit
import proofs.«149487_j20229295964576_1_alg».proof.Proof.LibConcatPair
import Idealize.ShloMosaic.Lib.StableHlo.Run
import Idealize.ShloMosaic.Lib.ValueIdx
import Idealize.ShloMosaic.Lib.ValueLayout

set_option maxRecDepth 16384

noncomputable section

namespace Cert.KernelIdeal.StageBN

open Cert.KernelIdeal Cert.KernelIdeal.Gen Idealize.ShloMosaic Idealize.ShloMosaic.TcCoe Idealize.SL.Sem Idealize.ShloMosaic.StableHlo
open Idealize.ShloMosaic.ValueIdx Cert.BNSpec Cert.BNMath
open scoped BigOperators

variable (m : (ℓ : Loc nD τ sig) → Buf (Elt Ideal) ℓ) (ρ : Dev nD → PrngReg)

/-- The contents a stretch of host operations leaves at a buffer, computed in one rewriting pass: each operation's result
    at its own buffer is its function of its operands' contents, any other buffer keeps what it held. -/
local macro "host_results" : tactic =>
  `(tactic| (simp (disch := decide) only [StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne', Cert.LibConcatPair.concatenate_pair, Cert.LibTypedLit.ofBuf_of, Cert.LibTypedLit.toBuf_of,
      Cert.LibTyped.ofBuf_toBuf, Cert.LibTyped.toBuf_ofBuf]))

/-- The activations entering the first normalization, at core `c`. -/
abbrev H1 (c : Dev nD) : S100000x128.Idx → EReal := W5 m ρ c (Proc.devRef .tc main_v47)
/-- The activations entering the second normalization, at core `c`. -/
abbrev H2 (c : Dev nD) : S100000x64.Idx → EReal := W12 m ρ c (Proc.devRef .tc main_v101)

/-! ### The launches' entrywise functions are the column's normalization -/

/-- The first normalization launch's entrywise function, at row `p` and column `q`, once its four rows are known at `q`. -/
theorem apply2_norm (H : S100000x128.Idx → EReal) (Mn Vr Ga Be : S1x128.Idx → EReal) (p : Fin 100000) (q : Fin 128)
    (col : Fin 100000 → EReal) (g b x : EReal)
    (hM : Mn (ix2 (0 : Fin 1) q) = mean col) (hV : Vr (ix2 (0 : Fin 1) q) = var col)
    (hG : Ga (ix2 (0 : Fin 1) q) = g) (hB : Be (ix2 (0 : Fin 1) q) = b) (hH : H (ix2 p q) = x) :
    ApplyValue.apply2 H Mn Vr Ga Be (ix2 p q) = max (norm col g b x) (Ideal.ofBits .f32 0x00000000#32) := by
  show max (((H (ix2 p q) - Mn (ix2 (0 : Fin 1) q)) * Ideal.rsqrt (Vr (ix2 (0 : Fin 1) q) + Ideal.ofBits .f32 0x3727C5AC#32))
      * Ga (ix2 (0 : Fin 1) q) + Be (ix2 (0 : Fin 1) q)) (Ideal.ofBits .f32 0x00000000#32) = _
  rw [hM, hV, hG, hB, hH]
  rfl

/-- The second normalization launch's entrywise function, likewise (no rectifier). -/
theorem apply5_norm (H : S100000x64.Idx → EReal) (Mn Vr Ga Be : S1x64.Idx → EReal) (p : Fin 100000) (q : Fin 64)
    (col : Fin 100000 → EReal) (g b x : EReal)
    (hM : Mn (ix2 (0 : Fin 1) q) = mean col) (hV : Vr (ix2 (0 : Fin 1) q) = var col)
    (hG : Ga (ix2 (0 : Fin 1) q) = g) (hB : Be (ix2 (0 : Fin 1) q) = b) (hH : H (ix2 p q) = x) :
    ApplyValue.apply5 H Mn Vr Ga Be (ix2 p q) = norm col g b x := by
  show ((H (ix2 p q) - Mn (ix2 (0 : Fin 1) q)) * Ideal.rsqrt (Vr (ix2 (0 : Fin 1) q) + Ideal.ofBits .f32 0x3727C5AC#32))
      * Ga (ix2 (0 : Fin 1) q) + Be (ix2 (0 : Fin 1) q) = _
  rw [hM, hV, hG, hB, hH]
  rfl

/-! ### The first normalization (width 128) -/

/-- the statistics launch leaves the column sums in its first output row -/
theorem W6_sum (c : Dev nD) (q : Fin 128) :
    (W6 m ρ c (Proc.devRef .tc main_v48_0) : S1x128.Idx → EReal) (ix2 (0 : Fin 1) q)
      = ∑ p : Fin 100000, H1 m ρ c (ix2 p q) :=
  (congrFun (W6_arr m ρ c 1) _).trans (StatsValue.stats1_sum (V5 m ρ) c q)

/-- and the column sums of squares in its second -/
theorem W6_sumsq (c : Dev nD) (q : Fin 128) :
    (W6 m ρ c (Proc.devRef .tc main_v48_1) : S1x128.Idx → EReal) (ix2 (0 : Fin 1) q)
      = ∑ p : Fin 100000, H1 m ρ c (ix2 p q) * H1 m ρ c (ix2 p q) :=
  (congrFun (W6_arr m ρ c 2) _).trans (StatsValue.stats1_sumsq (V5 m ρ) c q)

/-- the host divides the sums by the float 100000: the row of column means -/
theorem W7_v50 (c : Dev nD) (q : Fin 128) :
    (W7 m ρ c (Proc.devRef .tc main_v50) : S1x128.Idx → EReal) (ix2 (0 : Fin 1) q) = mean (fun p' : Fin 100000 => H1 m ρ c (ix2 p' q)) := by
  show (StableHlo.after hostOps2 (W6 m ρ c) (Proc.devRef .tc main_v50) : S1x128.Idx → EReal) (ix2 (0 : Fin 1) q) = _
  host_results
  show Ideal.div ((W6 m ρ c (Proc.devRef .tc main_v48_0) : S1x128.Idx → EReal) (ix2 (0 : Fin 1) q)) (Ideal.ofBits .f32 0x47C35000#32) = _
  rw [W6_sum]
  rfl

/-- the host's mean of squares minus square of mean is, on a real column, the column's variance -/
theorem W7_v54 (c : Dev nD) (q : Fin 128) (hr : ∀ p : Fin 100000, IsReal (H1 m ρ c (ix2 p q))) :
    (W7 m ρ c (Proc.devRef .tc main_v54) : S1x128.Idx → EReal) (ix2 (0 : Fin 1) q) = var (fun p' : Fin 100000 => H1 m ρ c (ix2 p' q)) := by
  show (StableHlo.after hostOps2 (W6 m ρ c) (Proc.devRef .tc main_v54) : S1x128.Idx → EReal) (ix2 (0 : Fin 1) q) = _
  host_results
  show Ideal.div ((W6 m ρ c (Proc.devRef .tc main_v48_1) : S1x128.Idx → EReal) (ix2 (0 : Fin 1) q)) (Ideal.ofBits .f32 0x47C35000#32)
      - Ideal.div ((W6 m ρ c (Proc.devRef .tc main_v48_0) : S1x128.Idx → EReal) (ix2 (0 : Fin 1) q)) (Ideal.ofBits .f32 0x47C35000#32) * Ideal.div ((W6 m ρ c (Proc.devRef .tc main_v48_0) : S1x128.Idx → EReal) (ix2 (0 : Fin 1) q)) (Ideal.ofBits .f32 0x47C35000#32) = _
  rw [W6_sum, W6_sumsq]
  exact Cert.RefBN.var_eq' (fun p' : Fin 100000 => H1 m ρ c (ix2 p' q)) hr (by norm_num)

/-- the scale row is the scale argument, reshaped -/
theorem W7_v55 (c : Dev nD) (q : Fin 128) :
    (W7 m ρ c (Proc.devRef .tc main_v55) : S1x128.Idx → EReal) (ix2 (0 : Fin 1) q) = (m ((c : Thread nD τ).loc main_arg4) : S128.Idx → EReal) (ix1 q) := by
  show (StableHlo.after hostOps2 (W6 m ρ c) (Proc.devRef .tc main_v55) : S1x128.Idx → EReal) (ix2 (0 : Fin 1) q) = _
  host_results
  rw [Carry.W6_arg4]
  exact shapeCast_a_1a_apply _ _ 0 q

/-- the shift row is the shift argument, reshaped -/
theorem W7_v56 (c : Dev nD) (q : Fin 128) :
    (W7 m ρ c (Proc.devRef .tc main_v56) : S1x128.Idx → EReal) (ix2 (0 : Fin 1) q) = (m ((c : Thread nD τ).loc main_arg5) : S128.Idx → EReal) (ix1 q) := by
  show (StableHlo.after hostOps2 (W6 m ρ c) (Proc.devRef .tc main_v56) : S1x128.Idx → EReal) (ix2 (0 : Fin 1) q) = _
  host_results
  rw [Carry.W6_arg5]
  exact shapeCast_a_1a_apply _ _ 0 q

/-- the normalization launch leaves, at row `p` and column `q`, the column's normalization of the entry, rectified -/
theorem W8_v57 (c : Dev nD) (hr : ∀ i, IsReal (H1 m ρ c i)) (p : Fin 100000) (q : Fin 128) :
    (W8 m ρ c (Proc.devRef .tc main_v57) : S100000x128.Idx → EReal) (ix2 p q)
      = max (norm (fun p' : Fin 100000 => H1 m ρ c (ix2 p' q)) ((m ((c : Thread nD τ).loc main_arg4) : S128.Idx → EReal) (ix1 q)) ((m ((c : Thread nD τ).loc main_arg5) : S128.Idx → EReal) (ix1 q)) (H1 m ρ c (ix2 p q))) (Ideal.ofBits .f32 0x00000000#32) := by
  refine (congrFun (W8_arr m ρ c 5) (ix2 p q)).trans ?_
  rw [ApplyValue.final2 (V7 m ρ) c]
  exact apply2_norm _ _ _ _ _ p q _ _ _ _ (W7_v50 m ρ c q) (W7_v54 m ρ c q (fun p' => hr _))
    (W7_v55 m ρ c q) (W7_v56 m ρ c q) (congrFun (Carry.W7_v47 m ρ c) (ix2 p q))

/-! ### The second normalization (width 64) -/

/-- the statistics launch leaves the column sums in its first output row -/
theorem W13_sum (c : Dev nD) (q : Fin 64) :
    (W13 m ρ c (Proc.devRef .tc main_v102_0) : S1x64.Idx → EReal) (ix2 (0 : Fin 1) q)
      = ∑ p : Fin 100000, H2 m ρ c (ix2 p q) :=
  (congrFun (W13_arr m ρ c 1) _).trans (StatsValue.stats4_sum (V12 m ρ) c q)

/-- and the column sums of squares in its second -/
theorem W13_sumsq (c : Dev nD) (q : Fin 64) :
    (W13 m ρ c (Proc.devRef .tc main_v102_1) : S1x64.Idx → EReal) (ix2 (0 : Fin 1) q)
      = ∑ p : Fin 100000, H2 m ρ c (ix2 p q) * H2 m ρ c (ix2 p q) :=
  (congrFun (W13_arr m ρ c 2) _).trans (StatsValue.stats4_sumsq (V12 m ρ) c q)

/-- the host divides the sums by the float 100000: the row of column means -/
theorem W14_v104 (c : Dev nD) (q : Fin 64) :
    (W14 m ρ c (Proc.devRef .tc main_v104) : S1x64.Idx → EReal) (ix2 (0 : Fin 1) q) = mean (fun p' : Fin 100000 => H2 m ρ c (ix2 p' q)) := by
  show (StableHlo.after hostOps5 (W13 m ρ c) (Proc.devRef .tc main_v104) : S1x64.Idx → EReal) (ix2 (0 : Fin 1) q) = _
  host_results
  show Ideal.div ((W13 m ρ c (Proc.devRef .tc main_v102_0) : S1x64.Idx → EReal) (ix2 (0 : Fin 1) q)) (Ideal.ofBits .f32 0x47C35000#32) = _
  rw [W13_sum]
  rfl

/-- the host's mean of squares minus square of mean is, on a real column, the column's variance -/
theorem W14_v108 (c : Dev nD) (q : Fin 64) (hr : ∀ p : Fin 100000, IsReal (H2 m ρ c (ix2 p q))) :
    (W14 m ρ c (Proc.devRef .tc main_v108) : S1x64.Idx → EReal) (ix2 (0 : Fin 1) q) = var (fun p' : Fin 100000 => H2 m ρ c (ix2 p' q)) := by
  show (StableHlo.after hostOps5 (W13 m ρ c) (Proc.devRef .tc main_v108) : S1x64.Idx → EReal) (ix2 (0 : Fin 1) q) = _
  host_results
  show Ideal.div ((W13 m ρ c (Proc.devRef .tc main_v102_1) : S1x64.Idx → EReal) (ix2 (0 : Fin 1) q)) (Ideal.ofBits .f32 0x47C35000#32)
      - Ideal.div ((W13 m ρ c (Proc.devRef .tc main_v102_0) : S1x64.Idx → EReal) (ix2 (0 : Fin 1) q)) (Ideal.ofBits .f32 0x47C35000#32) * Ideal.div ((W13 m ρ c (Proc.devRef .tc main_v102_0) : S1x64.Idx → EReal) (ix2 (0 : Fin 1) q)) (Ideal.ofBits .f32 0x47C35000#32) = _
  rw [W13_sum, W13_sumsq]
  exact Cert.RefBN.var_eq' (fun p' : Fin 100000 => H2 m ρ c (ix2 p' q)) hr (by norm_num)

/-- the scale row is the scale argument, reshaped -/
theorem W14_v109 (c : Dev nD) (q : Fin 64) :
    (W14 m ρ c (Proc.devRef .tc main_v109) : S1x64.Idx → EReal) (ix2 (0 : Fin 1) q) = (m ((c : Thread nD τ).loc main_arg8) : S64.Idx → EReal) (ix1 q) := by
  show (StableHlo.after hostOps5 (W13 m ρ c) (Proc.devRef .tc main_v109) : S1x64.Idx → EReal) (ix2 (0 : Fin 1) q) = _
  host_results
  rw [Carry.W13_arg8]
  exact shapeCast_a_1a_apply _ _ 0 q

/-- the shift row is the shift argument, reshaped -/
theorem W14_v110 (c : Dev nD) (q : Fin 64) :
    (W14 m ρ c (Proc.devRef .tc main_v110) : S1x64.Idx → EReal) (ix2 (0 : Fin 1) q) = (m ((c : Thread nD τ).loc main_arg9) : S64.Idx → EReal) (ix1 q) := by
  show (StableHlo.after hostOps5 (W13 m ρ c) (Proc.devRef .tc main_v110) : S1x64.Idx → EReal) (ix2 (0 : Fin 1) q) = _
  host_results
  rw [Carry.W13_arg9]
  exact shapeCast_a_1a_apply _ _ 0 q

/-- the normalization launch leaves, at row `p` and column `q`, the column's normalization of the entry -/
theorem W15_v111 (c : Dev nD) (hr : ∀ i, IsReal (H2 m ρ c i)) (p : Fin 100000) (q : Fin 64) :
    (W15 m ρ c (Proc.devRef .tc main_v111) : S100000x64.Idx → EReal) (ix2 p q)
      = norm (fun p' : Fin 100000 => H2 m ρ c (ix2 p' q)) ((m ((c : Thread nD τ).loc main_arg8) : S64.Idx → EReal) (ix1 q)) ((m ((c : Thread nD τ).loc main_arg9) : S64.Idx → EReal) (ix1 q)) (H2 m ρ c (ix2 p q)) := by
  refine (congrFun (W15_arr m ρ c 5) (ix2 p q)).trans ?_
  rw [ApplyValue.final5 (V14 m ρ) c]
  exact apply5_norm _ _ _ _ _ p q _ _ _ _ (W14_v104 m ρ c q) (W14_v108 m ρ c q (fun p' => hr _))
    (W14_v109 m ρ c q) (W14_v110 m ρ c q) (congrFun (Carry.W14_v101 m ρ c) (ix2 p q))

end Cert.KernelIdeal.StageBN

end
-- ==== Proof.KValue.lean ====
/-
  Under the precondition the kernel program's two results are the reference's two results.

  The precondition says every float argument array holds real numbers. The program is followed stage by stage against
  the reference: the first dense layer's product; the graph aggregation of its rows; the first batch normalization
  followed by the rectifier (a column's mean and variance from its sum and its sum of squares agree with the
  reference's two-pass form because every entry is a real number); the second dense layer; the second aggregation;
  the second batch normalization; and the two closing slices. Each stage's contents equal the reference's stage as a
  function of the launch contents, so the two result buffers do.
-/
import proofs.«149487_j20229295964576_1_alg».proof.Defs
import proofs.«149487_j20229295964576_1_alg».proof.Proof.Gen.KernelIdeal.Frame
import proofs.«149487_j20229295964576_1_alg».proof.Proof.RefStages
import proofs.«149487_j20229295964576_1_alg».proof.Proof.RefBN
import proofs.«149487_j20229295964576_1_alg».proof.Proof.Realness
import proofs.«149487_j20229295964576_1_alg».proof.Proof.Finite
import proofs.«149487_j20229295964576_1_alg».proof.Proof.BNMath
import proofs.«149487_j20229295964576_1_alg».proof.Proof.BNSpec
import proofs.«149487_j20229295964576_1_alg».proof.Proof.KStageLin
import proofs.«149487_j20229295964576_1_alg».proof.Proof.HostAgg
import proofs.«149487_j20229295964576_1_alg».proof.Proof.KStageBN
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx Cert.BNMath
open scoped BigOperators

variable (m : (ℓ : Loc nD τ sig) → Buf (Elt Ideal) ℓ) (ρ : Dev nD → PrngReg)

/-- The first layer's normalized, rectified activations are the reference's, when the activations entering the
    normalization are the reference's and are real numbers. -/
theorem stage57 (c : Dev nD)
    (h47 : W5 m ρ c (Proc.devRef .tc main_v47) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)))
    (R47 : ∀ i, IsReal (Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) i)) :
    W8 m ρ c (Proc.devRef .tc main_v57) = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hr : ∀ i, IsReal ((W5 m ρ c (Proc.devRef .tc main_v47) : S100000x128.Idx → EReal) i) := fun i => by rw [h47]; exact R47 i
  refine funext fun i => ?_
  obtain ⟨p, q, rfl⟩ : ∃ (p : Fin 100000) (q : Fin 128), i = ix2 p q := ⟨i 0, i 1, eq_ix2 i⟩
  refine (StageBN.W8_v57 m ρ c hr p q).trans ?_
  refine Eq.trans ?_ (Cert.RefBN.ref_v73 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p q).symm
  exact congrArg (fun H : S100000x128.Idx → EReal =>
    max (Cert.BNSpec.norm (fun p' : Fin 100000 => H (ix2 p' q)) (((m ((c : Thread nD τ).loc main_arg4)) : S128.Idx → EReal) (ix1 q))
      (((m ((c : Thread nD τ).loc main_arg5)) : S128.Idx → EReal) (ix1 q)) (H (ix2 p q))) (Ideal.ofBits .f32 0x00000000#32)) h47

/-- The second layer's normalized activations are the reference's, when the activations entering the
    normalization are the reference's and are real numbers. -/
theorem stage111 (c : Dev nD)
    (h101 : W12 m ρ c (Proc.devRef .tc main_v101) = Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (R117 : ∀ i, IsReal (Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i)) :
    W15 m ρ c (Proc.devRef .tc main_v111) = Cert.ReferenceIdeal.ReadP.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hr : ∀ i, IsReal ((W12 m ρ c (Proc.devRef .tc main_v101) : S100000x64.Idx → EReal) i) := fun i => by rw [h101]; exact R117 i
  refine funext fun i => ?_
  obtain ⟨p, q, rfl⟩ : ∃ (p : Fin 100000) (q : Fin 64), i = ix2 p q := ⟨i 0, i 1, eq_ix2 i⟩
  refine (StageBN.W15_v111 m ρ c hr p q).trans ?_
  refine Eq.trans ?_ (Cert.RefBN.ref_v142 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) p q).symm
  exact congrArg (fun H : S100000x64.Idx → EReal =>
    Cert.BNSpec.norm (fun p' : Fin 100000 => H (ix2 p' q)) (((m ((c : Thread nD τ).loc main_arg8)) : S64.Idx → EReal) (ix1 q))
      (((m ((c : Thread nD τ).loc main_arg9)) : S64.Idx → EReal) (ix1 q)) (H (ix2 p q))) h101

/-- Under the precondition the two result buffers at the last boundary hold the reference's two result stages of the
    launch contents. -/
theorem results [hP : Cert.Pre_finite_inputs.Facts] (m : (ℓ : Loc nD τ sig) → Buf (Elt Ideal) ℓ) (ρ : Dev nD → PrngReg)
    (hpre : Cert.Pre_KernelIdeal m) (c : Dev nD) :
    W16 m ρ c (Proc.devRef .tc main_v112) = Cert.ReferenceIdeal.ReadP.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ W16 m ρ c (Proc.devRef .tc main_v113) = Cert.ReferenceIdeal.ReadP.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h4 := StageLin.W2_v4 m ρ c
  have h47 := HostAgg.W5_v47 m ρ c h4
  have R47 : ∀ i, IsReal (Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) i) :=
    Cert.Realness.real_v47 (m ((c : Thread nD τ).loc main_arg0)) (m ((c : Thread nD τ).loc main_arg1)) (m ((c : Thread nD τ).loc main_arg2)) (m ((c : Thread nD τ).loc main_arg3)) (Cert.Finite.real_arg0 m hpre c) (Cert.Finite.real_arg2 m hpre c) (Cert.Finite.real_arg3 m hpre c)
  have h57 := stage57 m ρ c h47 R47
  have h58 := StageLin.W9_v58 m ρ c h57
  have h101 := HostAgg.W12_v101 m ρ c h58
  have R73 : ∀ i, IsReal (Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i) :=
    Cert.RefBN.real_v73 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R47 (Cert.Finite.real_arg4 m hpre c) (Cert.Finite.real_arg5 m hpre c)
  have R117 : ∀ i, IsReal (Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i) :=
    Cert.Realness.real_v117 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R73 (Cert.Finite.real_arg6 m hpre c) (Cert.Finite.real_arg7 m hpre c)
  have h111 := stage111 m ρ c h101 R117
  exact ⟨StageLin.W16_v112 m ρ c h111, StageLin.W16_v113 m ρ c h111⟩

end Cert.KernelIdeal.KValue

end
-- ==== Proof.RefRun.lean ====
/-
  The reference program's run, read back in stages.

  The program is a straight line of host operations. Its run leaves every buffer at the fold of the operations'
  results over the launch contents. Read in one piece, that fold at a result buffer is a tree in which the first
  layer's term occurs once for every later use of it. Here the line is cut into five — the two layers, their two
  normalizations, the returned slices — and each piece is read on its own, from arbitrary contents, at the one
  buffer the later pieces read, as that stage's value (`val_…`) of the earlier stages' values. Composing the five
  gives the two results as `val_main_v143` and `val_main_v144` of the arguments.
-/
import proofs.«149487_j20229295964576_1_alg».proof.Proof.RefOps
import proofs.«149487_j20229295964576_1_alg».proof.Proof.RefStages
import proofs.«149487_j20229295964576_1_alg».proof.Proof.LibTyped
import proofs.«149487_j20229295964576_1_alg».proof.Proof.LibTypedLit
import proofs.«149487_j20229295964576_1_alg».proof.Proof.LibConcatPair

noncomputable section

namespace Cert.ReferenceIdeal.RefRun

open Cert.ReferenceIdeal Cert.ReferenceIdeal.Gen Idealize.ShloMosaic Idealize.ShloMosaic.TcCoe Idealize.SL.Sem Idealize.ShloMosaic.StableHlo Cert.ReferenceIdeal.ReadP Cert.ReferenceIdeal.ValueP

variable {F : FTy → Type} [FloatOps F]

/-- Reads `after ops V` at a buffer in one rewriting pass: each operation's result at its own buffer is its function of
    its operands' contents, at any other buffer what was there; a concatenate of two parts is read as a function of
    the parts, so that the pass goes on through its operands; a called function's transports to a buffer's own type
    and back cancel. -/
macro "ref_results" : tactic =>
  `(tactic| (simp (disch := decide) only [StableHlo.after_cons, StableHlo.after_nil, StableHlo.nullary_result',
      StableHlo.unary_result', StableHlo.binary_result', StableHlo.ternary_result', StableHlo.quaternary_result',
      StableHlo.reshape_result', StableHlo.nary4_result', StableHlo.nary_result', StableHlo.unaryIndexed_result',
      StableHlo.binaryIndexed_result', StableHlo.nullary_result_ne', StableHlo.unary_result_ne',
      StableHlo.binary_result_ne', StableHlo.ternary_result_ne', StableHlo.quaternary_result_ne',
      StableHlo.reshape_result_ne', StableHlo.nary_result_ne', StableHlo.unaryIndexed_result_ne',
      StableHlo.binaryIndexed_result_ne', Cert.LibConcatPair.concatenate_pair, Cert.LibTypedLit.ofBuf_of,
      Cert.LibTypedLit.toBuf_of, Cert.LibTyped.ofBuf_toBuf, Cert.LibTyped.toBuf_ofBuf]))

/-- Operations run one line after another are the two lines' folds composed. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-! ## The operation list in five lines

The first layer (through `main_v47`), its normalization and activation (through `main_v73`), the second layer (through
`main_v117`), its normalization (through `main_v142`), and the two slices returned. Each line is read on its own, from
ANY contents `V`, at the one buffer the later lines read. -/

/-- The first layer's operations. -/
abbrev c1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    TRef.ternary (TRef.of (T := ⟨S100000, .i1⟩) main_v13) (TRef.of (T := ⟨S100000, .f32⟩) main_v14) (TRef.of (T := ⟨S100000, .f32⟩) main_v15) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v6 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v19 (broadcastInDim S1700000 ![] bcast_S_S1700000 : (⟨S_, .i32⟩ : BufTy).Contents (Elt F) → (⟨S1700000, .i32⟩ : BufTy).Contents (Elt F)),
    binary main_v6 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v6 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v7 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v7 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v7 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v6 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v6 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v6 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v4 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v40 main_v41 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v7 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)) ]

/-- The first normalization and the activation. -/
abbrev c2 : List (HloOp τ sig (Elt F)) :=
  [ nullary main_cst_9 (constant S_ .f32 0x00000000#32),
    binary main_v47 main_cst_9 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v49 (broadcastInDim S128 ![] bcast_S_S128 : (⟨S_, .f32⟩ : BufTy).Contents (Elt F) → (⟨S128, .f32⟩ : BufTy).Contents (Elt F)),
    binary main_v48 main_v49 main_v50 (Host.divf : (⟨S128, .f32⟩ : BufTy).Contents (Elt F) → (⟨S128, .f32⟩ : BufTy).Contents (Elt F) → (⟨S128, .f32⟩ : BufTy).Contents (Elt F)),
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v47 main_v52 main_v53 (subf : (⟨S100000x128, .f32⟩ : BufTy).Contents (Elt F) → (⟨S100000x128, .f32⟩ : BufTy).Contents (Elt F) → (⟨S100000x128, .f32⟩ : BufTy).Contents (Elt F)),
    binary main_v53 main_v53 main_v54 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v54 main_cst_11 main_v55 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    unary main_v50 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v47 main_v59 main_v60 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v61 (broadcastInDim S128 ![] bcast_S_S128 : (⟨S_, .f32⟩ : BufTy).Contents (Elt F) → (⟨S128, .f32⟩ : BufTy).Contents (Elt F)),
    binary main_v57 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v60 main_v65 main_v66 (mulf : (⟨S100000x128, .f32⟩ : BufTy).Contents (Elt F) → (⟨S100000x128, .f32⟩ : BufTy).Contents (Elt F) → (⟨S100000x128, .f32⟩ : BufTy).Contents (Elt F)),
    unary main_arg4 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (mulf : (⟨S100000x128, .f32⟩ : BufTy).Contents (Elt F) → (⟨S100000x128, .f32⟩ : BufTy).Contents (Elt F) → (⟨S100000x128, .f32⟩ : BufTy).Contents (Elt F)),
    unary main_arg5 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v72) (TRef.of (T := ⟨S100000x128, .f32⟩) main_call1_v0) (TRef.of (T := ⟨S100000x128, .f32⟩) main_v73) maximumf ]

/-- The second layer's operations. -/
abbrev c3 : List (HloOp τ sig (Elt F)) :=
  [ binary main_v73 main_arg6 main_v74 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_v75 (iotaInDim S100000 32 0),
    binary main_v1 main_v75 main_v76 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v75 main_v77 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_14 (constant S_ .f32 0x3F800000#32),
    unary main_cst_14 main_v78 (broadcastInDim S1700000 ![] bcast_S_S1700000 : (⟨S_, .f32⟩ : BufTy).Contents (Elt F) → (⟨S1700000, .f32⟩ : BufTy).Contents (Elt F)),
    nullary main_cst_15 (constant S_ .f32 0x00000000#32),
    unary main_cst_15 main_v79 (broadcastInDim S100000 ![] bcast_S_S100000 : (⟨S_, .f32⟩ : BufTy).Contents (Elt F) → (⟨S100000, .f32⟩ : BufTy).Contents (Elt F)),
    unary main_v77 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_16 (constant S_ .f32 0x00000000#32),
    unary main_cst_16 main_v82 (broadcastInDim S100000 ![] bcast_S_S100000 : (⟨S_, .f32⟩ : BufTy).Contents (Elt F) → (⟨S100000, .f32⟩ : BufTy).Contents (Elt F)),
    binary main_v81 main_v82 main_v83 (cmpf .ogt : (⟨S100000, .f32⟩ : BufTy).Contents (Elt F) → (⟨S100000, .f32⟩ : BufTy).Contents (Elt F) → (⟨S100000, .i1⟩ : BufTy).Contents (Elt F)),
    unary main_v81 main_v84 (Host.rsqrt : (⟨S100000, .f32⟩ : BufTy).Contents (Elt F) → (⟨S100000, .f32⟩ : BufTy).Contents (Elt F)),
    nullary main_cst_17 (constant S_ .f32 0x00000000#32),
    unary main_cst_17 main_v85 (broadcastInDim S100000 ![] bcast_S_S100000 : (⟨S_, .f32⟩ : BufTy).Contents (Elt F) → (⟨S100000, .f32⟩ : BufTy).Contents (Elt F)),
    TRef.ternary (TRef.of (T := ⟨S100000, .i1⟩) main_v83) (TRef.of (T := ⟨S100000, .f32⟩) main_v84) (TRef.of (T := ⟨S100000, .f32⟩) main_v85) (TRef.of (T := ⟨S100000, .f32⟩) main_v86) select,
    nullary main_c_18 (constantI S_ 32 0#32),
    unary main_c_18 main_v87 (broadcastInDim S1700000 ![] bcast_S_S1700000 : (⟨S_, .i32⟩ : BufTy).Contents (Elt F) → (⟨S1700000, .i32⟩ : BufTy).Contents (Elt F)),
    binary main_v76 main_v87 main_v88 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v89 (broadcastInDim S1700000 ![] bcast_S_S1700000 : (⟨S_, .i32⟩ : BufTy).Contents (Elt F) → (⟨S1700000, .i32⟩ : BufTy).Contents (Elt F)),
    binary main_v76 main_v89 main_v90 (addi : (⟨S1700000, .i32⟩ : BufTy).Contents (Elt F) → (⟨S1700000, .i32⟩ : BufTy).Contents (Elt F) → (⟨S1700000, .i32⟩ : BufTy).Contents (Elt F)),
    ternary main_v88 main_v90 main_v76 main_v91 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v91 main_v92 (broadcastInDim S1700000x1 ![0] bcast_S1700000_S1700000x1_0 : (⟨S1700000, .i32⟩ : BufTy).Contents (Elt F) → (⟨S1700000x1, .i32⟩ : BufTy).Contents (Elt F)),
    binary main_v86 main_v92 main_v93 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_20 (constantI S_ 32 0#32),
    unary main_c_20 main_v94 (broadcastInDim S1700000 ![] bcast_S_S1700000 : (⟨S_, .i32⟩ : BufTy).Contents (Elt F) → (⟨S1700000, .i32⟩ : BufTy).Contents (Elt F)),
    binary main_v77 main_v94 main_v95 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v96 (broadcastInDim S1700000 ![] bcast_S_S1700000 : (⟨S_, .i32⟩ : BufTy).Contents (Elt F) → (⟨S1700000, .i32⟩ : BufTy).Contents (Elt F)),
    binary main_v77 main_v96 main_v97 (addi : (⟨S1700000, .i32⟩ : BufTy).Contents (Elt F) → (⟨S1700000, .i32⟩ : BufTy).Contents (Elt F) → (⟨S1700000, .i32⟩ : BufTy).Contents (Elt F)),
    ternary main_v95 main_v97 main_v77 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v98 main_v99 (broadcastInDim S1700000x1 ![0] bcast_S1700000_S1700000x1_0 : (⟨S1700000, .i32⟩ : BufTy).Contents (Elt F) → (⟨S1700000x1, .i32⟩ : BufTy).Contents (Elt F)),
    binary main_v86 main_v99 main_v100 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v93 main_v100 main_v101 (mulf : (⟨S1700000, .f32⟩ : BufTy).Contents (Elt F) → (⟨S1700000, .f32⟩ : BufTy).Contents (Elt F) → (⟨S1700000, .f32⟩ : BufTy).Contents (Elt F)),
    nullary main_c_22 (constantI S_ 32 0#32),
    unary main_c_22 main_v102 (broadcastInDim S1700000 ![] bcast_S_S1700000 : (⟨S_, .i32⟩ : BufTy).Contents (Elt F) → (⟨S1700000, .i32⟩ : BufTy).Contents (Elt F)),
    binary main_v76 main_v102 main_v103 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v104 (broadcastInDim S1700000 ![] bcast_S_S1700000 : (⟨S_, .i32⟩ : BufTy).Contents (Elt F) → (⟨S1700000, .i32⟩ : BufTy).Contents (Elt F)),
    binary main_v76 main_v104 main_v105 (addi : (⟨S1700000, .i32⟩ : BufTy).Contents (Elt F) → (⟨S1700000, .i32⟩ : BufTy).Contents (Elt F) → (⟨S1700000, .i32⟩ : BufTy).Contents (Elt F)),
    ternary main_v103 main_v105 main_v76 main_v106 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v106 main_v107 (broadcastInDim S1700000x1 ![0] bcast_S1700000_S1700000x1_0 : (⟨S1700000, .i32⟩ : BufTy).Contents (Elt F) → (⟨S1700000x1, .i32⟩ : BufTy).Contents (Elt F)),
    binary main_v74 main_v107 main_v108 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v101 main_v109 (broadcastInDim S1700000x1 ![0] bcast_S1700000_S1700000x1_0 : (⟨S1700000, .f32⟩ : BufTy).Contents (Elt F) → (⟨S1700000x1, .f32⟩ : BufTy).Contents (Elt F)),
    unary main_v109 main_v110 (broadcastInDim S1700000x64 ![0, 1] bcast_S1700000x1_S1700000x64_0_1 : (⟨S1700000x1, .f32⟩ : BufTy).Contents (Elt F) → (⟨S1700000x64, .f32⟩ : BufTy).Contents (Elt F)),
    binary main_v108 main_v110 main_v111 (mulf : (⟨S1700000x64, .f32⟩ : BufTy).Contents (Elt F) → (⟨S1700000x64, .f32⟩ : BufTy).Contents (Elt F) → (⟨S1700000x64, .f32⟩ : BufTy).Contents (Elt F)),
    nullary main_cst_24 (constant S_ .f32 0x00000000#32),
    unary main_cst_24 main_v112 (broadcastInDim S100000x64 ![] bcast_S_S100000x64 : (⟨S_, .f32⟩ : BufTy).Contents (Elt F) → (⟨S100000x64, .f32⟩ : BufTy).Contents (Elt F)),
    unary main_v77 main_v113 (broadcastInDim S1700000x1 ![0] bcast_S1700000_S1700000x1_0 : (⟨S1700000, .i32⟩ : BufTy).Contents (Elt F) → (⟨S1700000x1, .i32⟩ : BufTy).Contents (Elt F)),
    ternary main_v112 main_v113 main_v111 main_v114 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v114 main_v116 main_v117 (addf : (⟨S100000x64, .f32⟩ : BufTy).Contents (Elt F) → (⟨S100000x64, .f32⟩ : BufTy).Contents (Elt F) → (⟨S100000x64, .f32⟩ : BufTy).Contents (Elt F)) ]

/-- The second normalization. -/
abbrev c4 : List (HloOp τ sig (Elt F)) :=
  [ nullary main_cst_25 (constant S_ .f32 0x00000000#32),
    binary main_v117 main_cst_25 main_v118 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v119 (broadcastInDim S64 ![] bcast_S_S64 : (⟨S_, .f32⟩ : BufTy).Contents (Elt F) → (⟨S64, .f32⟩ : BufTy).Contents (Elt F)),
    binary main_v118 main_v119 main_v120 (Host.divf : (⟨S64, .f32⟩ : BufTy).Contents (Elt F) → (⟨S64, .f32⟩ : BufTy).Contents (Elt F) → (⟨S64, .f32⟩ : BufTy).Contents (Elt F)),
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v117 main_v122 main_v123 (subf : (⟨S100000x64, .f32⟩ : BufTy).Contents (Elt F) → (⟨S100000x64, .f32⟩ : BufTy).Contents (Elt F) → (⟨S100000x64, .f32⟩ : BufTy).Contents (Elt F)),
    binary main_v123 main_v123 main_v124 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v124 main_cst_27 main_v125 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v126 (broadcastInDim S64 ![] bcast_S_S64 : (⟨S_, .f32⟩ : BufTy).Contents (Elt F) → (⟨S64, .f32⟩ : BufTy).Contents (Elt F)),
    binary main_v125 main_v126 main_v127 (Host.divf : (⟨S64, .f32⟩ : BufTy).Contents (Elt F) → (⟨S64, .f32⟩ : BufTy).Contents (Elt F) → (⟨S64, .f32⟩ : BufTy).Contents (Elt F)),
    unary main_v120 main_v128 (broadcastInDim S1x64 ![1] bcast_S64_S1x64_1 : (⟨S64, .f32⟩ : BufTy).Contents (Elt F) → (⟨S1x64, .f32⟩ : BufTy).Contents (Elt F)),
    unary main_v128 main_v129 (broadcastInDim S100000x64 ![0, 1] bcast_S1x64_S100000x64_0_1 : (⟨S1x64, .f32⟩ : BufTy).Contents (Elt F) → (⟨S100000x64, .f32⟩ : BufTy).Contents (Elt F)),
    binary main_v117 main_v129 main_v130 (subf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3727C5AC#32),
    unary main_cst_29 main_v131 (broadcastInDim S64 ![] bcast_S_S64 : (⟨S_, .f32⟩ : BufTy).Contents (Elt F) → (⟨S64, .f32⟩ : BufTy).Contents (Elt F)),
    binary main_v127 main_v131 main_v132 (addf : (⟨S64, .f32⟩ : BufTy).Contents (Elt F) → (⟨S64, .f32⟩ : BufTy).Contents (Elt F) → (⟨S64, .f32⟩ : BufTy).Contents (Elt F)),
    unary main_v132 main_v133 (Host.rsqrt : (⟨S64, .f32⟩ : BufTy).Contents (Elt F) → (⟨S64, .f32⟩ : BufTy).Contents (Elt F)),
    unary main_v133 main_v134 (broadcastInDim S1x64 ![1] bcast_S64_S1x64_1 : (⟨S64, .f32⟩ : BufTy).Contents (Elt F) → (⟨S1x64, .f32⟩ : BufTy).Contents (Elt F)),
    unary main_v134 main_v135 (broadcastInDim S100000x64 ![0, 1] bcast_S1x64_S100000x64_0_1 : (⟨S1x64, .f32⟩ : BufTy).Contents (Elt F) → (⟨S100000x64, .f32⟩ : BufTy).Contents (Elt F)),
    binary main_v130 main_v135 main_v136 (mulf : (⟨S100000x64, .f32⟩ : BufTy).Contents (Elt F) → (⟨S100000x64, .f32⟩ : BufTy).Contents (Elt F) → (⟨S100000x64, .f32⟩ : BufTy).Contents (Elt F)),
    unary main_arg8 main_v137 (broadcastInDim S1x64 ![1] bcast_S64_S1x64_1 : (⟨S64, .f32⟩ : BufTy).Contents (Elt F) → (⟨S1x64, .f32⟩ : BufTy).Contents (Elt F)),
    unary main_v137 main_v138 (broadcastInDim S100000x64 ![0, 1] bcast_S1x64_S100000x64_0_1 : (⟨S1x64, .f32⟩ : BufTy).Contents (Elt F) → (⟨S100000x64, .f32⟩ : BufTy).Contents (Elt F)),
    binary main_v136 main_v138 main_v139 (mulf : (⟨S100000x64, .f32⟩ : BufTy).Contents (Elt F) → (⟨S100000x64, .f32⟩ : BufTy).Contents (Elt F) → (⟨S100000x64, .f32⟩ : BufTy).Contents (Elt F)),
    unary main_arg9 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v139 main_v141 main_v142 (addf : (⟨S100000x64, .f32⟩ : BufTy).Contents (Elt F) → (⟨S100000x64, .f32⟩ : BufTy).Contents (Elt F) → (⟨S100000x64, .f32⟩ : BufTy).Contents (Elt F)) ]

/-- The two returned slices. -/
abbrev c5 : List (HloOp τ sig (Elt F)) :=
  [ unary main_v142 main_v143 ((extractStridedSlice S1927x64 ![0, 0] · slices_S100000x64_S1927x64_0_0) : (⟨S100000x64, .f32⟩ : BufTy).Contents (Elt F) → (⟨S1927x64, .f32⟩ : BufTy).Contents (Elt F)),
    unary main_v142 main_v144 ((extractStridedSlice S98073x64 ![1927, 0] · slices_S100000x64_S98073x64_1927_0) : (⟨S100000x64, .f32⟩ : BufTy).Contents (Elt F) → (⟨S98073x64, .f32⟩ : BufTy).Contents (Elt F))  ]

/-! ## The first line -/

set_option maxRecDepth 16384 in
set_option maxHeartbeats 4000000 in
theorem s1_v47 (V : Valuation τ sig (Elt F)) :
    after c1 V (Proc.devRef .tc main_v47) = val_main_v47 (F := F) (V (Proc.devRef .tc main_arg0)) (V (Proc.devRef .tc main_arg1)) (V (Proc.devRef .tc main_arg2)) (V (Proc.devRef .tc main_arg3)) := by
  ref_results
  rfl

set_option maxRecDepth 16384 in
set_option maxHeartbeats 4000000 in
theorem s1_v1 (V : Valuation τ sig (Elt F)) :
    after c1 V (Proc.devRef .tc main_v1) = val_main_v1 (F := F) (V (Proc.devRef .tc main_arg1)) := by
  ref_results
  rfl

set_option maxRecDepth 16384 in
set_option maxHeartbeats 4000000 in
theorem s1_v3 (V : Valuation τ sig (Elt F)) :
    after c1 V (Proc.devRef .tc main_v3) = val_main_v3 (F := F) (V (Proc.devRef .tc main_arg1)) := by
  ref_results
  rfl

set_option maxRecDepth 16384 in
set_option maxHeartbeats 4000000 in
theorem s1_arg4 (V : Valuation τ sig (Elt F)) :
    after c1 V (Proc.devRef .tc main_arg4) = V (Proc.devRef .tc main_arg4) := by
  ref_results <;> rfl

set_option maxRecDepth 16384 in
set_option maxHeartbeats 4000000 in
theorem s1_arg5 (V : Valuation τ sig (Elt F)) :
    after c1 V (Proc.devRef .tc main_arg5) = V (Proc.devRef .tc main_arg5) := by
  ref_results <;> rfl

set_option maxRecDepth 16384 in
set_option maxHeartbeats 4000000 in
theorem s1_arg6 (V : Valuation τ sig (Elt F)) :
    after c1 V (Proc.devRef .tc main_arg6) = V (Proc.devRef .tc main_arg6) := by
  ref_results <;> rfl

set_option maxRecDepth 16384 in
set_option maxHeartbeats 4000000 in
theorem s1_arg7 (V : Valuation τ sig (Elt F)) :
    after c1 V (Proc.devRef .tc main_arg7) = V (Proc.devRef .tc main_arg7) := by
  ref_results <;> rfl

set_option maxRecDepth 16384 in
set_option maxHeartbeats 4000000 in
theorem s1_arg8 (V : Valuation τ sig (Elt F)) :
    after c1 V (Proc.devRef .tc main_arg8) = V (Proc.devRef .tc main_arg8) := by
  ref_results <;> rfl

set_option maxRecDepth 16384 in
set_option maxHeartbeats 4000000 in
theorem s1_arg9 (V : Valuation τ sig (Elt F)) :
    after c1 V (Proc.devRef .tc main_arg9) = V (Proc.devRef .tc main_arg9) := by
  ref_results <;> rfl

/-! ## The second line -/

set_option maxRecDepth 16384 in
set_option maxHeartbeats 4000000 in
theorem s2_v73 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F))
    (h47 : V (Proc.devRef .tc main_v47) = val_main_v47 (F := F) x0 x1 x2 x3)
    (h4 : V (Proc.devRef .tc main_arg4) = x4) (h5 : V (Proc.devRef .tc main_arg5) = x5) :
    after c2 V (Proc.devRef .tc main_v73) = val_main_v73 (F := F) x0 x1 x2 x3 x4 x5 := by
  ref_results
  rw [h47, h4, h5]
  rfl

set_option maxRecDepth 16384 in
set_option maxHeartbeats 4000000 in
theorem s2_v1 (V : Valuation τ sig (Elt F)) :
    after c2 V (Proc.devRef .tc main_v1) = V (Proc.devRef .tc main_v1) := by
  ref_results <;> rfl

set_option maxRecDepth 16384 in
set_option maxHeartbeats 4000000 in
theorem s2_v3 (V : Valuation τ sig (Elt F)) :
    after c2 V (Proc.devRef .tc main_v3) = V (Proc.devRef .tc main_v3) := by
  ref_results <;> rfl

set_option maxRecDepth 16384 in
set_option maxHeartbeats 4000000 in
theorem s2_arg6 (V : Valuation τ sig (Elt F)) :
    after c2 V (Proc.devRef .tc main_arg6) = V (Proc.devRef .tc main_arg6) := by
  ref_results <;> rfl

set_option maxRecDepth 16384 in
set_option maxHeartbeats 4000000 in
theorem s2_arg7 (V : Valuation τ sig (Elt F)) :
    after c2 V (Proc.devRef .tc main_arg7) = V (Proc.devRef .tc main_arg7) := by
  ref_results <;> rfl

set_option maxRecDepth 16384 in
set_option maxHeartbeats 4000000 in
theorem s2_arg8 (V : Valuation τ sig (Elt F)) :
    after c2 V (Proc.devRef .tc main_arg8) = V (Proc.devRef .tc main_arg8) := by
  ref_results <;> rfl

set_option maxRecDepth 16384 in
set_option maxHeartbeats 4000000 in
theorem s2_arg9 (V : Valuation τ sig (Elt F)) :
    after c2 V (Proc.devRef .tc main_arg9) = V (Proc.devRef .tc main_arg9) := by
  ref_results <;> rfl

/-! ## The third line -/

set_option maxRecDepth 16384 in
set_option maxHeartbeats 4000000 in
theorem s3_v117 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F))
    (h73 : V (Proc.devRef .tc main_v73) = val_main_v73 (F := F) x0 x1 x2 x3 x4 x5)
    (h6 : V (Proc.devRef .tc main_arg6) = x6) (h7 : V (Proc.devRef .tc main_arg7) = x7)
    (hv1 : V (Proc.devRef .tc main_v1) = val_main_v1 (F := F) x1) (hv3 : V (Proc.devRef .tc main_v3) = val_main_v3 (F := F) x1) :
    after c3 V (Proc.devRef .tc main_v117) = val_main_v117 (F := F) x0 x1 x2 x3 x4 x5 x6 x7 := by
  ref_results
  rw [h73, h6, h7, hv1, hv3]
  rfl

set_option maxRecDepth 16384 in
set_option maxHeartbeats 4000000 in
theorem s3_arg8 (V : Valuation τ sig (Elt F)) :
    after c3 V (Proc.devRef .tc main_arg8) = V (Proc.devRef .tc main_arg8) := by
  ref_results <;> rfl

set_option maxRecDepth 16384 in
set_option maxHeartbeats 4000000 in
theorem s3_arg9 (V : Valuation τ sig (Elt F)) :
    after c3 V (Proc.devRef .tc main_arg9) = V (Proc.devRef .tc main_arg9) := by
  ref_results <;> rfl

/-! ## The fourth line -/

set_option maxRecDepth 16384 in
set_option maxHeartbeats 4000000 in
theorem s4_v142 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F))
    (h117 : V (Proc.devRef .tc main_v117) = val_main_v117 (F := F) x0 x1 x2 x3 x4 x5 x6 x7)
    (h8 : V (Proc.devRef .tc main_arg8) = x8) (h9 : V (Proc.devRef .tc main_arg9) = x9) :
    after c4 V (Proc.devRef .tc main_v142) = val_main_v142 (F := F) x0 x1 x2 x3 x4 x5 x6 x7 x8 x9 := by
  ref_results
  rw [h117, h8, h9]
  rfl

/-! ## The fifth line -/

set_option maxRecDepth 16384 in
set_option maxHeartbeats 4000000 in
theorem s5_v143 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F))
    (h142 : V (Proc.devRef .tc main_v142) = val_main_v142 (F := F) x0 x1 x2 x3 x4 x5 x6 x7 x8 x9) :
    after c5 V (Proc.devRef .tc main_v143) = val_main_v143 (F := F) x0 x1 x2 x3 x4 x5 x6 x7 x8 x9 := by
  ref_results
  rw [h142]
  rfl

set_option maxRecDepth 16384 in
set_option maxHeartbeats 4000000 in
theorem s5_v144 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F))
    (h142 : V (Proc.devRef .tc main_v142) = val_main_v142 (F := F) x0 x1 x2 x3 x4 x5 x6 x7 x8 x9) :
    after c5 V (Proc.devRef .tc main_v144) = val_main_v144 (F := F) x0 x1 x2 x3 x4 x5 x6 x7 x8 x9 := by
  ref_results
  rw [h142]
  rfl

/-! ## The lines composed -/

theorem stage_v73 (V : Valuation τ sig (Elt F)) :
    after c2 (after c1 V) (Proc.devRef .tc main_v73) = val_main_v73 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  s2_v73 (after c1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (s1_v47 V) (s1_arg4 V) (s1_arg5 V)

theorem stage_v117 (V : Valuation τ sig (Elt F)) :
    after c3 (after c2 (after c1 V)) (Proc.devRef .tc main_v117) = val_main_v117 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  s3_v117 (after c2 (after c1 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (stage_v73 V)
    ((s2_arg6 _).trans (s1_arg6 V)) ((s2_arg7 _).trans (s1_arg7 V))
    ((s2_v1 _).trans (s1_v1 V)) ((s2_v3 _).trans (s1_v3 V))

theorem stage_v142 (V : Valuation τ sig (Elt F)) :
    after c4 (after c3 (after c2 (after c1 V))) (Proc.devRef .tc main_v142) = val_main_v142 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  s4_v142 (after c3 (after c2 (after c1 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (stage_v117 V)
    ((s3_arg8 _).trans ((s2_arg8 _).trans (s1_arg8 V))) ((s3_arg9 _).trans ((s2_arg9 _).trans (s1_arg9 V)))

theorem stage_v143 (V : Valuation τ sig (Elt F)) :
    after c5 (after c4 (after c3 (after c2 (after c1 V)))) (Proc.devRef .tc main_v143) = val_main_v143 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  s5_v143 _ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (stage_v142 V)

theorem stage_v144 (V : Valuation τ sig (Elt F)) :
    after c5 (after c4 (after c3 (after c2 (after c1 V)))) (Proc.devRef .tc main_v144) = val_main_v144 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  s5_v144 _ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (stage_v142 V)

/-! ## The whole list -/

set_option maxRecDepth 16384 in
set_option maxHeartbeats 4000000 in
/-- The program's operation list is the five lines, one after another. -/
theorem ops_split : (ops : List (HloOp τ sig (Elt F))) = c1 ++ (c2 ++ (c3 ++ (c4 ++ c5))) := rfl

theorem after_ops (V : Valuation τ sig (Elt F)) :
    after (ops (F := F)) V = after c5 (after c4 (after c3 (after c2 (after c1 V)))) := by
  rw [ops_split, after_append', after_append', after_append', after_append']

theorem ops_v143 (V : Valuation τ sig (Elt F)) :
    after (ops (F := F)) V (Proc.devRef .tc main_v143) = val_main_v143 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (congrFun (after_ops V) _).trans (stage_v143 V)

theorem ops_v144 (V : Valuation τ sig (Elt F)) :
    after (ops (F := F)) V (Proc.devRef .tc main_v144) = val_main_v144 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (congrFun (after_ops V) _).trans (stage_v144 V)

/-! No operation writes an argument's buffer. -/

set_option maxRecDepth 16384 in
set_option maxHeartbeats 4000000 in
theorem ops_arg0 (V : Valuation τ sig (Elt F)) :
    after (ops (F := F)) V (Proc.devRef .tc main_arg0) = V (Proc.devRef .tc main_arg0) := by
  ref_results <;> rfl

set_option maxRecDepth 16384 in
set_option maxHeartbeats 4000000 in
theorem ops_arg1 (V : Valuation τ sig (Elt F)) :
    after (ops (F := F)) V (Proc.devRef .tc main_arg1) = V (Proc.devRef .tc main_arg1) := by
  ref_results <;> rfl

set_option maxRecDepth 16384 in
set_option maxHeartbeats 4000000 in
theorem ops_arg2 (V : Valuation τ sig (Elt F)) :
    after (ops (F := F)) V (Proc.devRef .tc main_arg2) = V (Proc.devRef .tc main_arg2) := by
  ref_results <;> rfl

set_option maxRecDepth 16384 in
set_option maxHeartbeats 4000000 in
theorem ops_arg3 (V : Valuation τ sig (Elt F)) :
    after (ops (F := F)) V (Proc.devRef .tc main_arg3) = V (Proc.devRef .tc main_arg3) := by
  ref_results <;> rfl

set_option maxRecDepth 16384 in
set_option maxHeartbeats 4000000 in
theorem ops_arg4 (V : Valuation τ sig (Elt F)) :
    after (ops (F := F)) V (Proc.devRef .tc main_arg4) = V (Proc.devRef .tc main_arg4) := by
  ref_results <;> rfl

set_option maxRecDepth 16384 in
set_option maxHeartbeats 4000000 in
theorem ops_arg5 (V : Valuation τ sig (Elt F)) :
    after (ops (F := F)) V (Proc.devRef .tc main_arg5) = V (Proc.devRef .tc main_arg5) := by
  ref_results <;> rfl

set_option maxRecDepth 16384 in
set_option maxHeartbeats 4000000 in
theorem ops_arg6 (V : Valuation τ sig (Elt F)) :
    after (ops (F := F)) V (Proc.devRef .tc main_arg6) = V (Proc.devRef .tc main_arg6) := by
  ref_results <;> rfl

set_option maxRecDepth 16384 in
set_option maxHeartbeats 4000000 in
theorem ops_arg7 (V : Valuation τ sig (Elt F)) :
    after (ops (F := F)) V (Proc.devRef .tc main_arg7) = V (Proc.devRef .tc main_arg7) := by
  ref_results <;> rfl

set_option maxRecDepth 16384 in
set_option maxHeartbeats 4000000 in
theorem ops_arg8 (V : Valuation τ sig (Elt F)) :
    after (ops (F := F)) V (Proc.devRef .tc main_arg8) = V (Proc.devRef .tc main_arg8) := by
  ref_results <;> rfl

set_option maxRecDepth 16384 in
set_option maxHeartbeats 4000000 in
theorem ops_arg9 (V : Valuation τ sig (Elt F)) :
    after (ops (F := F)) V (Proc.devRef .tc main_arg9) = V (Proc.devRef .tc main_arg9) := by
  ref_results <;> rfl

/-- On every device, from any memory with zero counters: every weakly fair execution of @main terminates with each
    result buffer at its stage's value of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v143) = val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v144) = val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v143).trans (ops_v143 (launchContents m c)),
      (h c main_v144).trans (ops_v144 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c)),
      (h c main_arg8).trans (ops_arg8 (launchContents m c)),
      (h c main_arg9).trans (ops_arg9 (launchContents m c))⟩)
    (run_seq scopedRefs_eq scopedSems_eq defs main (fun _ => ops) main_eq (fun _ => ops_sub) m ρ)

end Cert.ReferenceIdeal.RefRun

end
-- ==== Proof.lean ====
/-
  A two-layer graph convolution with batch normalization: the Pallas program against the plain jnp program, on the
  extended reals.

  Both programs compute, for node features x : [100000, 128] and an edge list of 1600000 edges, twice over:
  a dense layer h = x · W, the normalized aggregation  agg[d] = Σ over the edges e into d (self loops appended) of
  h[src e] · w[src e] · w[d]  with  w[n] = deg[n] > 0 ? 1/√deg[n] : 0,  a bias, and a batch normalization over the
  100000 rows (followed, in the first layer, by the rectifier); the result is cut into its first 1927 and its other
  98073 rows.

  The two programs differ in three places. (1) The Pallas program multiplies block by block, twenty blocks of 5000
  rows, after rounding both operands to bf16: on the extended reals a change of format is the identity and each block
  of the product is the same rows of the whole product, so its dense layers are the reference's. (2) It accumulates
  the column sums and the column sums of squares block by block, over twenty launch points: addition on the extended
  reals is commutative and associative, so these are the whole columns' sums. (3) It takes the variance as the mean of
  the squares less the square of the mean, where the reference takes the mean of the squared deviations: these agree
  when the column's entries are real numbers, and they are — under the precondition every float argument is finite, a
  product of finite matrices is finite, a node weight is a real number that is not negative (the guarded inverse square
  root of a count), an aggregation of real rows by real weights is real, and a normalized real column is real because
  the variance plus the stabilizer is positive. Everything else — the aggregation, the bias, the normalization's
  arithmetic, the final cut — is the same operations on both sides, carried as the reference's stages.

  The frames of the two kernel programs are the generated ones. The reference's run, the frame of the reference and its
  two results come from its operations taken in five stretches; the kernel program's results from the contents its
  sixteen segments leave at the last boundary.
-/
import proofs.«149487_j20229295964576_1_alg».proof.Defs
import proofs.«149487_j20229295964576_1_alg».proof.Proof.Gen.Kernel
import proofs.«149487_j20229295964576_1_alg».proof.Proof.Gen.Kernel.Frame
import proofs.«149487_j20229295964576_1_alg».proof.Proof.Gen.KernelIdeal
import proofs.«149487_j20229295964576_1_alg».proof.Proof.Gen.KernelIdeal.Frame
import proofs.«149487_j20229295964576_1_alg».proof.Proof.Gen.ReferenceIdeal
import proofs.«149487_j20229295964576_1_alg».proof.Proof.Gen.Pre_finite_inputs
import proofs.«149487_j20229295964576_1_alg».proof.Proof.KRun
import proofs.«149487_j20229295964576_1_alg».proof.Proof.KValue
import proofs.«149487_j20229295964576_1_alg».proof.Proof.RefRun
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- The idealized kernel program runs and leaves its arguments as launched: the generated frame. -/
theorem frame_kernelIdeal : Cert.frame_KernelIdeal := fun m ρ _ => Cert.KernelIdeal.Gen.frame m ρ

/-- The reference runs and leaves its arguments as launched: its run, the two results dropped. -/
theorem frame_reference : Cert.frame_ReferenceIdeal := fun m ρ _ =>
  (θ_run (Cert.ReferenceIdeal.defs (F := Ideal)) _ _).mono (fun _ h c => (h c).2.2) (Cert.ReferenceIdeal.RefRun.run m ρ)

/-- The idealization rewrote no operation: nothing to preserve. -/
theorem preserves : Cert.preserves_Kernel_KernelIdeal := trivial

/-- From memories that agree on the arguments, both programs end with the reference's two result stages of the
    arguments: the kernel program by the contents of its last boundary, the reference by its run. -/
theorem algebraic : Cert.algebraic_KernelIdeal_ReferenceIdeal := by
  intro m ρ m' ρ' hpre hagree
  refine ⟨fun c => Cert.ReferenceIdeal.ReadP.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v144 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run (Cert.KernelIdeal.defs (F := Ideal)) _ _).mono
      (fun r h c => ⟨(h c).1.trans (Cert.KernelIdeal.KValue.results m ρ hpre c).1,
        (h c).2.1.trans (Cert.KernelIdeal.KValue.results m ρ hpre c).2, (h c).2.2⟩)
      (Cert.KernelIdeal.GcnRun.run_values (F := Ideal) m ρ)
  · refine (θ_run (Cert.ReferenceIdeal.defs (F := Ideal)) _ _).mono (fun r h c => ?_) (Cert.ReferenceIdeal.RefRun.run m' ρ')
    obtain ⟨a0, a1, a2, a3, a4, a5, a6, a7, a8, a9⟩ := hagree c
    obtain ⟨h143, h144, hargs⟩ := h c
    refine ⟨h143.trans ?_, h144.trans ?_, hargs⟩
    · rw [a0, a1, a2, a3, a4, a5, a6, a7, a8, a9]
    · rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
